-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S2x64x64 .f32) (main_arg5 : FVec F S2x64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S16384x128 .f32) (main_arg1 : FVec F S16384x16384 .f32) (main_arg2 : FVec F S128x64 .f32) (main_arg3 : FVec F S64 .f32) (main_arg4 : FVec F S2x64x64 .f32) (main_arg5 : FVec F S2x64 .f32) (main_arg6 : FVec F S64x16 .f32) (main_arg7 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S1x64 : Shape := ⟨2, ![1, 64]⟩
abbrev S16384x64 : Shape := ⟨2, ![16384, 64]⟩
abbrev S1024x2048 : Shape := ⟨2, ![1024, 2048]⟩
abbrev S2048x128 : Shape := ⟨2, ![2048, 128]⟩
abbrev S1024x64 : Shape := ⟨2, ![1024, 64]⟩
abbrev S2048x64 : Shape := ⟨2, ![2048, 64]⟩
abbrev S1x64x64 : Shape := ⟨3, ![1, 64, 64]⟩
abbrev S64x64 : Shape := ⟨2, ![64, 64]⟩
abbrev S2048x2048 : Shape := ⟨2, ![2048, 2048]⟩
abbrev S1x16 : Shape := ⟨2, ![1, 16]⟩
abbrev S16384x16 : Shape := ⟨2, ![16384, 16]⟩
abbrev S2048x16 : Shape := ⟨2, ![2048, 16]⟩

abbrev nBuf : Space → Nat
  | .hbm => 25
  | .vmem => 38
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S64x16, .f32⟩
  | .hbm, ⟨7, _⟩ => ⟨S16, .f32⟩
  | .hbm, ⟨8, _⟩ => ⟨S1x64, .f32⟩
  | .hbm, ⟨9, _⟩ => ⟨S16384x64, .f32⟩
  | .hbm, ⟨10, _⟩ => ⟨S16384x16384, .bf16⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S1x64x64, .f32⟩
  | .hbm, ⟨15, _⟩ => ⟨S64x64, .f32⟩
  | .hbm, ⟨16, _⟩ => ⟨S16384x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S1x64x64, .f32⟩
  | .hbm, ⟨21, _⟩ => ⟨S64x64, .f32⟩
  | .hbm, ⟨22, _⟩ => ⟨S16384x64, .f32⟩
  | .hbm, ⟨23, _⟩ => ⟨S1x16, .f32⟩
  | .hbm, ⟨24, _⟩ => ⟨S16384x16, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S128x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | .local _ .vmem, ⟨8, _⟩ => ⟨S1024x2048, .bf16⟩
  | .local _ .vmem, ⟨9, _⟩ => ⟨S1024x2048, .bf16⟩
  | .local _ .vmem, ⟨10, _⟩ => ⟨S1024x64, .f32⟩
  | .local _ .vmem, ⟨11, _⟩ => ⟨S2048x2048, .bf16⟩
  | .local _ .vmem, ⟨12, _⟩ => ⟨S2048x2048, .bf16⟩
  | .local _ .vmem, ⟨13, _⟩ => ⟨S2048x64, .f32⟩
  | .local _ .vmem, ⟨14, _⟩ => ⟨S2048x64, .f32⟩
  | .local _ .vmem, ⟨15, _⟩ => ⟨S64x64, .f32⟩
  | .local _ .vmem, ⟨16, _⟩ => ⟨S1x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x2048, .bf16⟩
  | .local _ .vmem, ⟨21, _⟩ => ⟨S2048x2048, .bf16⟩
  | .local _ .vmem, ⟨22, _⟩ => ⟨S2048x64, .f32⟩
  | .local _ .vmem, ⟨23, _⟩ => ⟨S2048x64, .f32⟩
  | .local _ .vmem, ⟨24, _⟩ => ⟨S64x64, .f32⟩
  | .local _ .vmem, ⟨25, _⟩ => ⟨S1x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S2048x2048, .bf16⟩
  | .local _ .vmem, ⟨30, _⟩ => ⟨S2048x2048, .bf16⟩
  | .local _ .vmem, ⟨31, _⟩ => ⟨S2048x64, .f32⟩
  | .local _ .vmem, ⟨32, _⟩ => ⟨S2048x64, .f32⟩
  | .local _ .vmem, ⟨33, _⟩ => ⟨S64x16, .f32⟩
  | .local _ .vmem, ⟨34, _⟩ => ⟨S1x16, .f32⟩
  | .local _ .vmem, ⟨35, _⟩ => ⟨S2048x16, .f32⟩
  | .local _ .vmem, ⟨36, _⟩ => ⟨S2048x16, .f32⟩
  | .local _ .vmem, ⟨37, _⟩ => ⟨S2048x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_11 : BitVec 32 := 0#32
  let v21 : BitVec 1 := Scalar.cmpi .ne v20 c0_i32_11
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S64x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2048x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S2048x128_S2048x128_0_0 : ∀ a, (![0, 0] : Fin 2 → Nat) a + S2048x128.size a ≤ S2048x128.size a
  h_S2048x128 : 0 < S2048x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x64_S2048x64 : S1x64.Broadcasts S2048x64
  slices_S2x64_S1x64_1_0 : S2x64.Slices ![1, 0] S1x64
  slices_S2x64x64_S1x64x64_1_0_0 : S2x64x64.Slices ![1, 0, 0] S1x64x64
  shapeCasts_S16_S1x16 : S16.ShapeCasts S1x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  dot_S2048x128_S128x64_S2048x64_1_0_0_1_n_n_wf : DotDims.WF S2048x128 S128x64 S2048x64 [1] [0] [0] [1] [] []
  dot_S1024x2048_S2048x64_S1024x64_1_0_0_1_n_n_wf : DotDims.WF S1024x2048 S2048x64 S1024x64 [1] [0] [0] [1] [] []
  dot_S2048x64_S64x64_S2048x64_1_0_0_1_n_n_wf : DotDims.WF S2048x64 S64x64 S2048x64 [1] [0] [0] [1] [] []
  dot_S2048x2048_S2048x64_S2048x64_1_0_0_1_n_n_wf : DotDims.WF S2048x2048 S2048x64 S2048x64 [1] [0] [0] [1] [] []
  dot_S2048x64_S64x16_S2048x16_1_0_0_1_n_n_wf : DotDims.WF S2048x64 S64x16 S2048x16 [1] [0] [0] [1] [] []
  dot_S2048x2048_S2048x16_S2048x16_1_0_0_1_n_n_wf : DotDims.WF S2048x2048 S2048x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .f32 = 32 ∨ (Rect.block (s := S16384x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S16384x16384.size a
  hwx0_5 : ∀ i : grid0.Coords, EltTy.bits .bf16 = 32 ∨ (Rect.block (s := S16384x16384) S1024x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .bf16 = 32 ∨ (Rect.block (s := S16384x16384) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S16384x64.size a
  hwx1_4 : ∀ i : grid1.Coords, EltTy.bits .f32 = 32 ∨ (Rect.block (s := S16384x64) S2048x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .bf16 = 32 ∨ (Rect.block (s := S16384x16384) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .f32 = 32 ∨ (Rect.block (s := S16384x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S16384x64.size a
  hwx2_4 : ∀ i : grid2.Coords, EltTy.bits .f32 = 32 ∨ (Rect.block (s := S16384x64) S2048x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S16384x16384.size a
  hwx3_0 : ∀ i : grid3.Coords, EltTy.bits .bf16 = 32 ∨ (Rect.block (s := S16384x16384) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S16384x64.size a
  hwx3_1 : ∀ i : grid3.Coords, EltTy.bits .f32 = 32 ∨ (Rect.block (s := S16384x64) S2048x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x16.size a ≤ S64x16.size a
  hwx3_2 : ∀ i : grid3.Coords, EltTy.bits .f32 = 32 ∨ (Rect.block (s := S64x16) S64x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x16.size a ≤ S16384x16.size a
  hwx3_4 : ∀ i : grid3.Coords, EltTy.bits .f32 = 32 ∨ (Rect.block (s := S16384x16) S2048x16.size (cc3_transform_4 i) (hinb3_4 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

abbrev win1_0 : Pipeline.Window sig grid1 :=
  Pipeline.Window.ofSpec (Memref.whole main_v1_1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v1_1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S2048x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v1_1) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v15) S2048x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S16384x64 : Shape := ⟨2, ![16384, 64]⟩
abbrev S1x64 : Shape := ⟨2, ![1, 64]⟩
abbrev S1x64x64 : Shape := ⟨3, ![1, 64, 64]⟩
abbrev S64x64 : Shape := ⟨2, ![64, 64]⟩
abbrev S16384x16 : Shape := ⟨2, ![16384, 16]⟩
abbrev S1x16 : Shape := ⟨2, ![1, 16]⟩

abbrev nBuf : Space → Nat
  | .hbm => 36
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S64x16, .f32⟩
  | .hbm, ⟨7, _⟩ => ⟨S16, .f32⟩
  | .hbm, ⟨8, _⟩ => ⟨S16384x64, .f32⟩
  | .hbm, ⟨9, _⟩ => ⟨S16384x64, .f32⟩
  | .hbm, ⟨10, _⟩ => ⟨S1x64, .f32⟩
  | .hbm, ⟨11, _⟩ => ⟨S16384x64, .f32⟩
  | .hbm, ⟨12, _⟩ => ⟨S16384x64, .f32⟩
  | .hbm, ⟨13, _⟩ => ⟨S1x64x64, .f32⟩
  | .hbm, ⟨14, _⟩ => ⟨S64x64, .f32⟩
  | .hbm, ⟨15, _⟩ => ⟨S1x64, .f32⟩
  | .hbm, ⟨16, _⟩ => ⟨S64, .f32⟩
  | .hbm, ⟨17, _⟩ => ⟨S16384x64, .f32⟩
  | .hbm, ⟨18, _⟩ => ⟨S16384x64, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S1x64x64, .f32⟩
  | .hbm, ⟨23, _⟩ => ⟨S64x64, .f32⟩
  | .hbm, ⟨24, _⟩ => ⟨S1x64, .f32⟩
  | .hbm, ⟨25, _⟩ => ⟨S64, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S16384x16, .f32⟩
  | .hbm, ⟨32, _⟩ => ⟨S16384x16, .f32⟩
  | .hbm, ⟨33, _⟩ => ⟨S1x16, .f32⟩
  | .hbm, ⟨34, _⟩ => ⟨S16384x16, .f32⟩
  | .hbm, ⟨35, _⟩ => ⟨S16384x16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  dot_S16384x64_S64x16_S16384x16_1_0_0_1_n_n_wf : DotDims.WF S16384x64 S64x16 S16384x16 [1] [0] [0] [1] [] []
  dot_S16384x16384_S16384x16_S16384x16_1_0_0_1_n_n_wf : DotDims.WF S16384x16384 S16384x16 S16384x16 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.KB.Region0.lean ====
import proofs.«114686_j10720238371126_2_alg».proof.Proof.Gen.Kernel.Launch
import proofs.«114686_j10720238371126_2_alg».proof.Proof.Gen.Kernel.Skeleton
import proofs.«114686_j10720238371126_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first aggregation layer, tiled, with the narrowed copy of the adjacency as a second output

The kernel of this region walks a 16 × 8 grid (row tile i of 1024 rows, reduction tile k of 2048 columns; the point's
number is 8 i + k). At a point it stores the current 1024 × 2048 block of the adjacency, narrowed, into the second
output's block (written back at every point), projects the current 2048-row block of the features through the weights,
multiplies the adjacency block with that projection and ADDS the product to an accumulator kept in scratch between
points: the accumulator is reset to zero at k = 0, and at k = 7 the accumulator plus the bias row is stored into the
first output's block, which is written back there and nowhere else. Everything is stated at the contents `V` the
region finds in the buffers. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first reduction tile" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last reduction tile" (k = 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- Away from the last reduction tile the first output's window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last reduction tile it is live. -/
theorem liveAt0_4 : ∀ t : Fin cfg0.N, cond0_1 (grid0.coords t) → cfg0.idle 4 (grid0.coords t) = false := by decide +kernel

/-- Each window's current staging memref at point `t`, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S1024x64 .f32 := Memref.whole cc0_scratch0

/-- What the region hands the body besides the windows: the accumulator at some contents, the other scoped buffers
    unopened, the generator register at some state. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's triple, case by case

On whole memrefs at given contents the body runs to the continuation with the four input buffers as they were, the
second output's block at the narrowed adjacency block, the accumulator at the point's product added to what it held
(to zero at k = 0), and the first output's block either untouched or, at k = 7, at the accumulator plus the bias
row. A whole-buffer store leaves its payload; a whole-buffer load reads the contents. -/

theorem zero_off0 : (![0, 0] : Fin 2 → ℕ) = fun _ => 0 := by funext a; fin_cases a <;> rfl

set_option maxHeartbeats 4000000 in
/-- k = 0 (and not the last tile): the accumulator is reset, then holds the point's product added to zero. -/
theorem run0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x2048 .bf16) (harg7 : arg7.IsWhole) (arg8 : Memref sig .tc .vmem S1024x64 .f32) (harg8 : arg8.IsWhole)
    (hc0 : cond0_0 i) (hc1 : ¬cond0_1 i) (x0 : Vec F S1024x2048 .f32) (x1 : Vec F S2048x128 .f32) (x2 : Vec F S128x64 .f32) (x3 : Vec F S1x64 .f32) (xi : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k0_pay2 x0) ∗ owns (c : Thread nD τ) arg8 fullShare (k0_pay3 x0 x1 x2 (k0_pay1 (F := F)))) -∗ K ⟨⟩))
      ⊢ wp frame (wpE (defs₀ (F := F)) Variants.none c none) E (cc0__gcn_agg_first_kernel i arg2 harg2 arg3 harg3 arg4 harg4 arg5 harg5 arg6 harg6 arg7 harg7 arg8 harg8) K := by
  simp only [cc0__gcn_agg_first_kernel_eq_skeleton]; unfold cc0__gcn_agg_first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (fun y => ⟨_, List.mem_cons_self .., View.mem_set_unit_zero zero_off0 inb_S1024x2048_S1024x2048_0_0 y⟩)]
    rw [View.canon_cons_unit_zero zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  iexists _; isplitr
  swap; · iexact H6
  ipureintro
  sl_unfold_run_names
  rw [View.read_writes_eq_canon _ _ _ (fun y => ⟨_, List.mem_cons_self .., View.mem_set_unit_zero zero_off0 inb_S1024x64_S1024x64_0_0 y⟩)]
  rw [View.canon_cons_unit_zero zero_off0]
  rw [View.readCov_unit_zero _ zero_off0]
  simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]

set_option maxHeartbeats 4000000 in
/-- 0 < k < 7: the accumulator holds the point's product added to what it held. -/
theorem run0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x2048 .bf16) (harg7 : arg7.IsWhole) (arg8 : Memref sig .tc .vmem S1024x64 .f32) (harg8 : arg8.IsWhole)
    (hc0 : ¬cond0_0 i) (hc1 : ¬cond0_1 i) (x0 : Vec F S1024x2048 .f32) (x1 : Vec F S2048x128 .f32) (x2 : Vec F S128x64 .f32) (x3 : Vec F S1x64 .f32) (xi : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k0_pay2 x0) ∗ owns (c : Thread nD τ) arg8 fullShare (k0_pay3 x0 x1 x2 xs)) -∗ K ⟨⟩))
      ⊢ wp frame (wpE (defs₀ (F := F)) Variants.none c none) E (cc0__gcn_agg_first_kernel i arg2 harg2 arg3 harg3 arg4 harg4 arg5 harg5 arg6 harg6 arg7 harg7 arg8 harg8) K := by
  simp only [cc0__gcn_agg_first_kernel_eq_skeleton]; unfold cc0__gcn_agg_first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (fun y => ⟨_, List.mem_cons_self .., View.mem_set_unit_zero zero_off0 inb_S1024x2048_S1024x2048_0_0 y⟩)]
    rw [View.canon_cons_unit_zero zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  iexists _; isplitr
  swap; · iexact H6
  ipureintro
  sl_unfold_run_names
  rw [View.read_writes_eq_canon _ _ _ (fun y => ⟨_, List.mem_cons_self .., View.mem_set_unit_zero zero_off0 inb_S1024x64_S1024x64_0_0 y⟩)]
  rw [View.canon_cons_unit_zero zero_off0]
  simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]

set_option maxHeartbeats 4000000 in
/-- k = 7: the accumulator as in the middle tiles, and the first output's block at the accumulator plus the bias row. -/
theorem run0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x2048 .bf16) (harg7 : arg7.IsWhole) (arg8 : Memref sig .tc .vmem S1024x64 .f32) (harg8 : arg8.IsWhole)
    (hc0 : ¬cond0_0 i) (hc1 : cond0_1 i) (x0 : Vec F S1024x2048 .f32) (x1 : Vec F S2048x128 .f32) (x2 : Vec F S128x64 .f32) (x3 : Vec F S1x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay3 x0 x1 x2 xs) x3) ∗ owns (c : Thread nD τ) arg7 fullShare (k0_pay2 x0) ∗ owns (c : Thread nD τ) arg8 fullShare (k0_pay3 x0 x1 x2 xs)) -∗ K ⟨⟩))
      ⊢ wp frame (wpE (defs₀ (F := F)) Variants.none c none) E (cc0__gcn_agg_first_kernel i arg2 harg2 arg3 harg3 arg4 harg4 arg5 harg5 arg6 harg6 arg7 harg7 arg8 harg8) K := by
  simp only [cc0__gcn_agg_first_kernel_eq_skeleton]; unfold cc0__gcn_agg_first_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self .., View.mem_set_unit_zero zero_off0 inb_S1024x64_S1024x64_0_0 y⟩)]
    rw [View.canon_cons_unit_zero zero_off0]
    rw [View.readCov_unit_zero _ zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  isplitl [H5]
  · iexists _; isplitr
    swap; · iexact H5
    ipureintro
    sl_unfold_run_names
    rw [View.read_writes_eq_canon _ _ _ (fun y => ⟨_, List.mem_cons_self .., View.mem_set_unit_zero zero_off0 inb_S1024x2048_S1024x2048_0_0 y⟩)]
    rw [View.canon_cons_unit_zero zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  iexists _; isplitr
  swap; · iexact H6
  ipureintro
  sl_unfold_run_names
  rw [View.read_writes_eq_canon _ _ _ (fun y => ⟨_, List.mem_cons_self .., View.mem_set_unit_zero zero_off0 inb_S1024x64_S1024x64_0_0 y⟩)]
  rw [View.canon_cons_unit_zero zero_off0]
  simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]

/-! ## What the accumulator holds after each point -/

/-- The accumulator after the body at position `n`: the point's product added to zero at the first reduction tile of a
    row tile, and to what the point before left otherwise. -/
def acc0 (c : Dev nD) : (n : ℕ) → n < cfg0.N → Vec F S1024x64 .f32
  | 0, hn => k0_pay3 (iblk0 V c 0 ⟨0, hn⟩) (iblk0 V c 1 ⟨0, hn⟩) (iblk0 V c 2 ⟨0, hn⟩) (k0_pay1 (F := F))
  | n + 1, hn => k0_pay3 (iblk0 V c 0 ⟨n + 1, hn⟩) (iblk0 V c 1 ⟨n + 1, hn⟩) (iblk0 V c 2 ⟨n + 1, hn⟩)
      (if (n + 1) % 8 = 0 then (k0_pay1 (F := F)) else acc0 c n (Nat.lt_of_succ_lt hn))

theorem acc0_first (c : Dev nD) (t : Fin cfg0.N) (h0 : t.val % 8 = 0) :
    acc0 V c t.val t.isLt = k0_pay3 (iblk0 V c 0 t) (iblk0 V c 1 t) (iblk0 V c 2 t) (k0_pay1 (F := F)) := by
  obtain ⟨n, hn⟩ := t
  cases n with
  | zero => rfl
  | succ n =>
    have e : acc0 V c (n + 1) hn = k0_pay3 (iblk0 V c 0 ⟨n + 1, hn⟩) (iblk0 V c 1 ⟨n + 1, hn⟩) (iblk0 V c 2 ⟨n + 1, hn⟩)
      (if (n + 1) % 8 = 0 then (k0_pay1 (F := F)) else acc0 V c n (Nat.lt_of_succ_lt hn)) := rfl
    exact e.trans (by rw [if_pos h0])

theorem acc0_step (c : Dev nD) (t : Fin cfg0.N) (h0 : ¬t.val % 8 = 0) :
    acc0 V c t.val t.isLt = k0_pay3 (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact absurd (Nat.zero_mod _) h0
  | succ n =>
    have e : acc0 V c (n + 1) hn = k0_pay3 (iblk0 V c 0 ⟨n + 1, hn⟩) (iblk0 V c 1 ⟨n + 1, hn⟩) (iblk0 V c 2 ⟨n + 1, hn⟩)
      (if (n + 1) % 8 = 0 then (k0_pay1 (F := F)) else acc0 V c n (Nat.lt_of_succ_lt hn)) := rfl
    exact e.trans (by rw [if_neg h0]; rfl)

/-- The region's invariant before position `n`: before the first point what the region was handed; afterwards the
    accumulator at what the point before left, the other scoped buffers unopened, the generator register at some state. -/
def Phi0 (c : Dev nD) : (n : ℕ) → n ≤ cfg0.N → sProp 𝕄
  | 0, _ => Pipeline.ΦA spec0 c
  | n + 1, hn => iprop(iprop(iprop(owns (c : Thread nD τ) scM0 fullShare (acc0 V c n hn)) ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(iprop(owns (c : Thread nD τ) scM0 fullShare (acc0 V c n hn)) ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(iprop(owns (c : Thread nD τ) scM0 fullShare (acc0 V c (n - 1) (by omega))) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- After the body at point `t`: each input's buffer at its block; the first output's at the accumulator plus the bias
    row (consulted only where the block is written back, k = 7); the second output's at the narrowed adjacency block;
    the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (acc0 V c t.val t.isLt) (iblk0 V c 3 t)
    | ⟨5, _⟩ => k0_pay2 (iblk0 V c 0 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay4 (acc0 V c t.val t.isLt) (iblk0 V c 3 t) := by dsimp only [dat0]
theorem after0_5 (c : Dev nD) (t : Fin cfg0.N) : (dat0 V c).after 5 t = k0_pay2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rfl, after0_0]
  rw [show (dat0 V c).leavesExact 1 t = owns (c : Thread nD τ) (ms0_1 t) fullShare ((dat0 V c).after 1 t) from by
    unfold Dat.leavesExact; rfl, after0_1]
  rw [show (dat0 V c).leavesExact 2 t = owns (c : Thread nD τ) (ms0_2 t) fullShare ((dat0 V c).after 2 t) from by
    unfold Dat.leavesExact; rfl, after0_2]
  rw [show (dat0 V c).leavesExact 3 t = owns (c : Thread nD τ) (ms0_3 t) fullShare ((dat0 V c).after 3 t) from by
    unfold Dat.leavesExact; rfl, after0_3]
  rw [show (dat0 V c).leavesExact 5 t = owns (c : Thread nD τ) (ms0_5 t) fullShare ((dat0 V c).after 5 t) from by
    unfold Dat.leavesExact; rfl, after0_5]
  have hN : t.val < 128 := lt_of_lt_of_eq t.isLt (show cfg0.N = 128 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    by_cases hz : t.val = 0
    · rw [Phi0_castSucc V c t, Phi0_zero V c _ _ hz, PhiA0_eq]
      iintro ⟨⟨⟨⟨%ds, HS⟩, Hb⟩, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
    · rw [Phi0_castSucc V c t, Phi0_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
  · have hz : t.val ≠ 0 := fun e => h0 (by rw [e])
    have hc0 : ¬cond0_0 (grid0.coords t) := fun h => h0 ((hcond0_0 t).mp h)
    rw [acc0_step V c t h0]
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, acc0_step V c t h0]
      rw [Phi0_castSucc V c t, Phi0_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1)]
      rw [Phi0_castSucc V c t, Phi0_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives that back: the accumulator's contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Hb⟩, Hg⟩
  isplitl [HS Hb]
  · isplitl [HS]; · iexists _; iexact HS
    iexact Hb
  iexact Hg

theorem hout0 (c : Dev nD) : (dat0 V c).Φ (Fin.last cfg0.N) ⊢ Pipeline.ΦA spec0 c :=
  Phi0_out V c _ (by rw [Fin.val_last]; have : cfg0.N = 128 := N_0; omega)

end Region0

end Cert.Kernel.Gen

end
-- ==== Proof.KB.Region1.lean ====
import proofs.«114686_j10720238371126_2_alg».proof.Proof.Gen.Kernel.Launch
import proofs.«114686_j10720238371126_2_alg».proof.Proof.Gen.Kernel.Skeleton
import proofs.«114686_j10720238371126_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one aggregation layer, tiled

The kernel of this region walks an 8 × 8 grid (row tile i, reduction tile k; the point's number is 8 i + k). At a point it
projects the current 2048-row block of the features through the weights, multiplies the current 2048 × 2048 block of the
adjacency with that projection and ADDS the product to an accumulator kept in scratch between points: the accumulator is
reset to zero at k = 0, and at k = 7 the accumulator plus the bias row is stored into the output block, which is written
back there and nowhere else. Everything is stated at the contents `V` the region finds in the buffers. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is the first reduction tile" (k = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last reduction tile" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- Away from the last reduction tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last reduction tile it is live. -/
theorem liveAt1_4 : ∀ t : Fin cfg1.N, cond1_1 (grid1.coords t) → cfg1.idle 4 (grid1.coords t) = false := by decide +kernel

/-- Each window's current staging memref at point `t`, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S2048x64 .f32 := Memref.whole cc1_scratch0

/-- What the region hands the body besides the windows: the accumulator at some contents, the other scoped buffers
    unopened, the generator register at some state. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's triple, case by case

On whole memrefs at given contents the body runs to the continuation with the four input buffers as they were, the
accumulator at the point's product added to what it held (to zero at k = 0), and the output block either untouched
or, at k = 7, at the accumulator plus the bias row. A whole-buffer store leaves its payload; a whole-buffer load
reads the contents. -/

theorem zero_off1 : (![0, 0] : Fin 2 → ℕ) = fun _ => 0 := by funext a; fin_cases a <;> rfl

set_option maxHeartbeats 4000000 in
/-- k = 0 (and not the last tile): the accumulator is reset, then holds the point's product added to zero. -/
theorem run1_A (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : cond1_0 i) (hc1 : ¬cond1_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k1_pay2 x1 x2 (k1_pay1 (F := F)) x0)) -∗ K ⟨⟩))
      ⊢ wp frame (wpE (defs₀ (F := F)) Variants.none c none) E (cc1__gcn_agg_kernel i arg2 harg2 arg3 harg3 arg4 harg4 arg5 harg5 arg6 harg6 arg7 harg7) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off1 inb_S2048x64_S2048x64_0_0 y⟩)]
  rw [View.canon_cons_unit_zero zero_off1]
  sl_unfold_run_names
  rw [View.readCov_unit_zero _ zero_off1]
  simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]

set_option maxHeartbeats 4000000 in
/-- 0 < k < 7: the accumulator holds the point's product added to what it held. -/
theorem run1_B (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond1_0 i) (hc1 : ¬cond1_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k1_pay2 x1 x2 xs x0)) -∗ K ⟨⟩))
      ⊢ wp frame (wpE (defs₀ (F := F)) Variants.none c none) E (cc1__gcn_agg_kernel i arg2 harg2 arg3 harg3 arg4 harg4 arg5 harg5 arg6 harg6 arg7 harg7) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off1 inb_S2048x64_S2048x64_0_0 y⟩)]
  rw [View.canon_cons_unit_zero zero_off1]
  simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]

set_option maxHeartbeats 4000000 in
/-- k = 7: the accumulator as in the middle tiles, and the output block at the accumulator plus the bias row. -/
theorem run1_C (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond1_0 i) (hc1 : cond1_1 i) (x0 : Vec F S2048x2048 .bf16) (x1 : Vec F S2048x64 .f32) (x2 : Vec F S64x64 .f32) (x3 : Vec F S1x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (k1_pay2 x1 x2 xs x0) x3) ∗ owns (c : Thread nD τ) arg7 fullShare (k1_pay2 x1 x2 xs x0)) -∗ K ⟨⟩))
      ⊢ wp frame (wpE (defs₀ (F := F)) Variants.none c none) E (cc1__gcn_agg_kernel i arg2 harg2 arg3 harg3 arg4 harg4 arg5 harg5 arg6 harg6 arg7 harg7) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero zero_off1 inb_S2048x64_S2048x64_0_0 y⟩)]
    rw [View.canon_cons_unit_zero zero_off1]
    sl_unfold_run_names
    rw [View.readCov_unit_zero _ zero_off1]
    simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]
  iexists _; isplitr
  swap; · iexact H5
  ipureintro
  sl_unfold_run_names
  rw [View.read_writes_eq_canon _ _ _ (fun y => ⟨_, List.mem_cons_self .., View.mem_set_unit_zero zero_off1 inb_S2048x64_S2048x64_0_0 y⟩)]
  rw [View.canon_cons_unit_zero zero_off1]
  simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]

/-! ## What the accumulator holds after each point -/

/-- The accumulator after the body at position `n`: the point's product added to zero at the first reduction tile of a
    row tile, and to what the point before left otherwise. -/
def acc1 (c : Dev nD) : (n : ℕ) → n < cfg1.N → Vec F S2048x64 .f32
  | 0, hn => k1_pay2 (iblk1 V c 1 ⟨0, hn⟩) (iblk1 V c 2 ⟨0, hn⟩) (k1_pay1 (F := F)) (iblk1 V c 0 ⟨0, hn⟩)
  | n + 1, hn => k1_pay2 (iblk1 V c 1 ⟨n + 1, hn⟩) (iblk1 V c 2 ⟨n + 1, hn⟩)
      (if (n + 1) % 8 = 0 then (k1_pay1 (F := F)) else acc1 c n (Nat.lt_of_succ_lt hn)) (iblk1 V c 0 ⟨n + 1, hn⟩)

theorem acc1_first (c : Dev nD) (t : Fin cfg1.N) (h0 : t.val % 8 = 0) :
    acc1 V c t.val t.isLt = k1_pay2 (iblk1 V c 1 t) (iblk1 V c 2 t) (k1_pay1 (F := F)) (iblk1 V c 0 t) := by
  obtain ⟨n, hn⟩ := t
  cases n with
  | zero => rfl
  | succ n =>
    have e : acc1 V c (n + 1) hn = k1_pay2 (iblk1 V c 1 ⟨n + 1, hn⟩) (iblk1 V c 2 ⟨n + 1, hn⟩)
      (if (n + 1) % 8 = 0 then (k1_pay1 (F := F)) else acc1 V c n (Nat.lt_of_succ_lt hn)) (iblk1 V c 0 ⟨n + 1, hn⟩) := rfl
    exact e.trans (by rw [if_pos h0])

theorem acc1_step (c : Dev nD) (t : Fin cfg1.N) (h0 : ¬t.val % 8 = 0) :
    acc1 V c t.val t.isLt = k1_pay2 (iblk1 V c 1 t) (iblk1 V c 2 t) (acc1 V c (t.val - 1) (Nat.lt_of_le_of_lt (Nat.sub_le _ _) t.isLt)) (iblk1 V c 0 t) := by
  obtain ⟨n, hn⟩ := t
  cases n with
  | zero => exact absurd (Nat.zero_mod _) h0
  | succ n =>
    have e : acc1 V c (n + 1) hn = k1_pay2 (iblk1 V c 1 ⟨n + 1, hn⟩) (iblk1 V c 2 ⟨n + 1, hn⟩)
      (if (n + 1) % 8 = 0 then (k1_pay1 (F := F)) else acc1 V c n (Nat.lt_of_succ_lt hn)) (iblk1 V c 0 ⟨n + 1, hn⟩) := rfl
    exact e.trans (by rw [if_neg h0]; rfl)

/-- The region's invariant before position `n`: before the first point what the region was handed; afterwards the
    accumulator at what the point before left, the other scoped buffers unopened, the generator register at some state. -/
def Phi1 (c : Dev nD) : (n : ℕ) → n ≤ cfg1.N → sProp 𝕄
  | 0, _ => Pipeline.ΦA spec1 c
  | n + 1, hn => iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r)) := rfl

theorem Phi1_pos (c : Dev nD) (n : ℕ) (h : n ≤ cfg1.N) (hz : n ≠ 0) :
    Phi1 V c n h = iprop(iprop(iprop(owns (c : Thread nD τ) scM1 fullShare (acc1 V c (n - 1) (by omega))) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- After the body at point `t`: each input's buffer at its block; the output's at the accumulator plus the bias row
    (consulted only where the block is written back, k = 7); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (acc1 V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  rw [show (dat1 V c).leavesExact 3 t = owns (c : Thread nD τ) (ms1_3 t) fullShare ((dat1 V c).after 3 t) from by
    unfold Dat.leavesExact; rfl, after1_3]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_first V c t h0]
    by_cases hz : t.val = 0
    · rw [Phi1_castSucc V c t, Phi1_zero V c _ _ hz, PhiA1_eq]
      iintro ⟨⟨⟨⟨%ds, HS⟩, Hb⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond1_0 (grid1.coords t) := fun h => h0 ((hcond1_0 t).mp h)
    rw [acc1_step V c t h0]
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, acc1_step V c t h0]
      rw [Phi1_castSucc V c t, Phi1_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      rw [Phi1_castSucc V c t, Phi1_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives that back: the accumulator's contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨HS, Hb⟩, Hg⟩
  isplitl [HS Hb]
  · isplitl [HS]; · iexists _; iexact HS
    iexact Hb
  iexact Hg

theorem hout1 (c : Dev nD) : (dat1 V c).Φ (Fin.last cfg1.N) ⊢ Pipeline.ΦA spec1 c :=
  Phi1_out V c _ (by rw [Fin.val_last]; have : cfg1.N = 64 := N_1; omega)

end Region1

end Cert.Kernel.Gen

end
-- ==== Proof.KB.Region2.lean ====
import proofs.«114686_j10720238371126_2_alg».proof.Proof.Gen.Kernel.Launch
import proofs.«114686_j10720238371126_2_alg».proof.Proof.Gen.Kernel.Skeleton
import proofs.«114686_j10720238371126_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one aggregation layer, tiled

The kernel of this region walks an 8 × 8 grid (row tile i, reduction tile k; the point's number is 8 i + k). At a point it
projects the current 2048-row block of the features through the weights, multiplies the current 2048 × 2048 block of the
adjacency with that projection and ADDS the product to an accumulator kept in scratch between points: the accumulator is
reset to zero at k = 0, and at k = 7 the accumulator plus the bias row is stored into the output block, which is written
back there and nowhere else. Everything is stated at the contents `V` the region finds in the buffers. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- "This is the first reduction tile" (k = 0), as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- "This is the last reduction tile" (k = 7). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- Away from the last reduction tile the output window is idle and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last reduction tile it is live. -/
theorem liveAt2_4 : ∀ t : Fin cfg2.N, cond2_1 (grid2.coords t) → cfg2.idle 4 (grid2.coords t) = false := by decide +kernel

/-- Each window's current staging memref at point `t`, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x64 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2 : Memref sig .tc .vmem S2048x64 .f32 := Memref.whole cc2_scratch0

/-- What the region hands the body besides the windows: the accumulator at some contents, the other scoped buffers
    unopened, the generator register at some state. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's triple, case by case

On whole memrefs at given contents the body runs to the continuation with the four input buffers as they were, the
accumulator at the point's product added to what it held (to zero at k = 0), and the output block either untouched
or, at k = 7, at the accumulator plus the bias row. A whole-buffer store leaves its payload; a whole-buffer load
reads the contents. -/

theorem zero_off2 : (![0, 0] : Fin 2 → ℕ) = fun _ => 0 := by funext a; fin_cases a <;> rfl

set_option maxHeartbeats 4000000 in
/-- k = 0 (and not the last tile): the accumulator is reset, then holds the point's product added to zero. -/
theorem run2_A (c : Dev nD) (i : grid2.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : cond2_0 i) (hc1 : ¬cond2_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k2_pay2 x1 x2 (k2_pay1 (F := F)) x0)) -∗ K ⟨⟩))
      ⊢ wp frame (wpE (defs₀ (F := F)) Variants.none c none) E (cc2__gcn_agg_kernel i arg2 harg2 arg3 harg3 arg4 harg4 arg5 harg5 arg6 harg6 arg7 harg7) K := by
  simp only [cc2__gcn_agg_kernel_eq_skeleton]; unfold cc2__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off2 inb_S2048x64_S2048x64_0_0 y⟩)]
  rw [View.canon_cons_unit_zero zero_off2]
  sl_unfold_run_names
  rw [View.readCov_unit_zero _ zero_off2]
  simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]

set_option maxHeartbeats 4000000 in
/-- 0 < k < 7: the accumulator holds the point's product added to what it held. -/
theorem run2_B (c : Dev nD) (i : grid2.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond2_0 i) (hc1 : ¬cond2_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k2_pay2 x1 x2 xs x0)) -∗ K ⟨⟩))
      ⊢ wp frame (wpE (defs₀ (F := F)) Variants.none c none) E (cc2__gcn_agg_kernel i arg2 harg2 arg3 harg3 arg4 harg4 arg5 harg5 arg6 harg6 arg7 harg7) K := by
  simp only [cc2__gcn_agg_kernel_eq_skeleton]; unfold cc2__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off2 inb_S2048x64_S2048x64_0_0 y⟩)]
  rw [View.canon_cons_unit_zero zero_off2]
  simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]

set_option maxHeartbeats 4000000 in
/-- k = 7: the accumulator as in the middle tiles, and the output block at the accumulator plus the bias row. -/
theorem run2_C (c : Dev nD) (i : grid2.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond2_0 i) (hc1 : cond2_1 i) (x0 : Vec F S2048x2048 .bf16) (x1 : Vec F S2048x64 .f32) (x2 : Vec F S64x64 .f32) (x3 : Vec F S1x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay3 (k2_pay2 x1 x2 xs x0) x3) ∗ owns (c : Thread nD τ) arg7 fullShare (k2_pay2 x1 x2 xs x0)) -∗ K ⟨⟩))
      ⊢ wp frame (wpE (defs₀ (F := F)) Variants.none c none) E (cc2__gcn_agg_kernel i arg2 harg2 arg3 harg3 arg4 harg4 arg5 harg5 arg6 harg6 arg7 harg7) K := by
  simp only [cc2__gcn_agg_kernel_eq_skeleton]; unfold cc2__gcn_agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero zero_off2 inb_S2048x64_S2048x64_0_0 y⟩)]
    rw [View.canon_cons_unit_zero zero_off2]
    sl_unfold_run_names
    rw [View.readCov_unit_zero _ zero_off2]
    simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]
  iexists _; isplitr
  swap; · iexact H5
  ipureintro
  sl_unfold_run_names
  rw [View.read_writes_eq_canon _ _ _ (fun y => ⟨_, List.mem_cons_self .., View.mem_set_unit_zero zero_off2 inb_S2048x64_S2048x64_0_0 y⟩)]
  rw [View.canon_cons_unit_zero zero_off2]
  simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]

/-! ## What the accumulator holds after each point -/

/-- The accumulator after the body at position `n`: the point's product added to zero at the first reduction tile of a
    row tile, and to what the point before left otherwise. -/
def acc2 (c : Dev nD) : (n : ℕ) → n < cfg2.N → Vec F S2048x64 .f32
  | 0, hn => k2_pay2 (iblk2 V c 1 ⟨0, hn⟩) (iblk2 V c 2 ⟨0, hn⟩) (k2_pay1 (F := F)) (iblk2 V c 0 ⟨0, hn⟩)
  | n + 1, hn => k2_pay2 (iblk2 V c 1 ⟨n + 1, hn⟩) (iblk2 V c 2 ⟨n + 1, hn⟩)
      (if (n + 1) % 8 = 0 then (k2_pay1 (F := F)) else acc2 c n (Nat.lt_of_succ_lt hn)) (iblk2 V c 0 ⟨n + 1, hn⟩)

theorem acc2_first (c : Dev nD) (t : Fin cfg2.N) (h0 : t.val % 8 = 0) :
    acc2 V c t.val t.isLt = k2_pay2 (iblk2 V c 1 t) (iblk2 V c 2 t) (k2_pay1 (F := F)) (iblk2 V c 0 t) := by
  obtain ⟨n, hn⟩ := t
  cases n with
  | zero => rfl
  | succ n =>
    have e : acc2 V c (n + 1) hn = k2_pay2 (iblk2 V c 1 ⟨n + 1, hn⟩) (iblk2 V c 2 ⟨n + 1, hn⟩)
      (if (n + 1) % 8 = 0 then (k2_pay1 (F := F)) else acc2 V c n (Nat.lt_of_succ_lt hn)) (iblk2 V c 0 ⟨n + 1, hn⟩) := rfl
    exact e.trans (by rw [if_pos h0])

theorem acc2_step (c : Dev nD) (t : Fin cfg2.N) (h0 : ¬t.val % 8 = 0) :
    acc2 V c t.val t.isLt = k2_pay2 (iblk2 V c 1 t) (iblk2 V c 2 t) (acc2 V c (t.val - 1) (Nat.lt_of_le_of_lt (Nat.sub_le _ _) t.isLt)) (iblk2 V c 0 t) := by
  obtain ⟨n, hn⟩ := t
  cases n with
  | zero => exact absurd (Nat.zero_mod _) h0
  | succ n =>
    have e : acc2 V c (n + 1) hn = k2_pay2 (iblk2 V c 1 ⟨n + 1, hn⟩) (iblk2 V c 2 ⟨n + 1, hn⟩)
      (if (n + 1) % 8 = 0 then (k2_pay1 (F := F)) else acc2 V c n (Nat.lt_of_succ_lt hn)) (iblk2 V c 0 ⟨n + 1, hn⟩) := rfl
    exact e.trans (by rw [if_neg h0]; rfl)

/-- The region's invariant before position `n`: before the first point what the region was handed; afterwards the
    accumulator at what the point before left, the other scoped buffers unopened, the generator register at some state. -/
def Phi2 (c : Dev nD) : (n : ℕ) → n ≤ cfg2.N → sProp 𝕄
  | 0, _ => Pipeline.ΦA spec2 c
  | n + 1, hn => iprop(iprop(iprop(owns (c : Thread nD τ) scM2 fullShare (acc2 V c n hn)) ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2 fullShare (acc2 V c n hn)) ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(iprop(owns (c : Thread nD τ) scM2 fullShare (acc2 V c (n - 1) (by omega))) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- After the body at point `t`: each input's buffer at its block; the output's at the accumulator plus the bias row
    (consulted only where the block is written back, k = 7); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt) (iblk2 V c 3 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay3 (acc2 V c t.val t.isLt) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rfl, after2_0]
  rw [show (dat2 V c).leavesExact 1 t = owns (c : Thread nD τ) (ms2_1 t) fullShare ((dat2 V c).after 1 t) from by
    unfold Dat.leavesExact; rfl, after2_1]
  rw [show (dat2 V c).leavesExact 2 t = owns (c : Thread nD τ) (ms2_2 t) fullShare ((dat2 V c).after 2 t) from by
    unfold Dat.leavesExact; rfl, after2_2]
  rw [show (dat2 V c).leavesExact 3 t = owns (c : Thread nD τ) (ms2_3 t) fullShare ((dat2 V c).after 3 t) from by
    unfold Dat.leavesExact; rfl, after2_3]
  have hN : t.val < 64 := lt_of_lt_of_eq t.isLt (show cfg2.N = 64 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 4 t (idleAt2_4 t hc1) (noFlush2_4 t hc1)]
    rw [acc2_first V c t h0]
    by_cases hz : t.val = 0
    · rw [Phi2_castSucc V c t, Phi2_zero V c _ _ hz, PhiA2_eq]
      iintro ⟨⟨⟨⟨%ds, HS⟩, Hb⟩, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, Phi2_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond2_0 (grid2.coords t) := fun h => h0 ((hcond2_0 t).mp h)
    rw [acc2_step V c t h0]
    by_cases h1 : t.val % 8 = 7
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4, acc2_step V c t h0]
      rw [Phi2_castSucc V c t, Phi2_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      rw [Phi2_castSucc V c t, Phi2_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives that back: the accumulator's contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, Hb⟩, Hg⟩
  isplitl [HS Hb]
  · isplitl [HS]; · iexists _; iexact HS
    iexact Hb
  iexact Hg

theorem hout2 (c : Dev nD) : (dat2 V c).Φ (Fin.last cfg2.N) ⊢ Pipeline.ΦA spec2 c :=
  Phi2_out V c _ (by rw [Fin.val_last]; have : cfg2.N = 64 := N_2; omega)

end Region2

end Cert.Kernel.Gen

end
-- ==== Proof.KB.Region3.lean ====
import proofs.«114686_j10720238371126_2_alg».proof.Proof.Gen.Kernel.Launch
import proofs.«114686_j10720238371126_2_alg».proof.Proof.Gen.Kernel.Skeleton
import proofs.«114686_j10720238371126_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one aggregation layer, tiled

The kernel of this region walks an 8 × 8 grid (row tile i, reduction tile k; the point's number is 8 i + k). At a point it
projects the current 2048-row block of the features through the weights, multiplies the current 2048 × 2048 block of the
adjacency with that projection and ADDS the product to an accumulator kept in scratch between points: the accumulator is
reset to zero at k = 0, and at k = 7 the accumulator plus the bias row is stored into the output block, which is written
back there and nowhere else. Everything is stated at the contents `V` the region finds in the buffers. -/

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- "This is the first reduction tile" (k = 0), as the body computes it. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- "This is the last reduction tile" (k = 7). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- Away from the last reduction tile the output window is idle and is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last reduction tile it is live. -/
theorem liveAt3_4 : ∀ t : Fin cfg3.N, cond3_1 (grid3.coords t) → cfg3.idle 4 (grid3.coords t) = false := by decide +kernel

/-- Each window's current staging memref at point `t`, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x16 .f32 := win3_4.stage (cfg3.slots t 4)
abbrev hs3_4 (t : Fin cfg3.N) : (ms3_4 t).IsWhole := hstage3_4 ((cfg3.slots t 4).cast nbuf3_4)
/-- The accumulator: a whole scoped buffer of the kernel's own. -/
abbrev scM3 : Memref sig .tc .vmem S2048x16 .f32 := Memref.whole cc3_scratch0

/-- What the region hands the body besides the windows: the accumulator at some contents, the other scoped buffers
    unopened, the generator register at some state. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case

On whole memrefs at given contents the body runs to the continuation with the four input buffers as they were, the
accumulator at the point's product added to what it held (to zero at k = 0), and the output block either untouched
or, at k = 7, at the accumulator plus the bias row. A whole-buffer store leaves its payload; a whole-buffer load
reads the contents. -/

theorem zero_off3 : (![0, 0] : Fin 2 → ℕ) = fun _ => 0 := by funext a; fin_cases a <;> rfl

set_option maxHeartbeats 4000000 in
/-- k = 0 (and not the last tile): the accumulator is reset, then holds the point's product added to zero. -/
theorem run3_A (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S2048x16 .f32) (harg6 : arg6.IsWhole) (arg7 : Memref sig .tc .vmem S2048x16 .f32) (harg7 : arg7.IsWhole)
    (hc0 : cond3_0 i) (hc1 : ¬cond3_1 i) (x0 : Vec F S2048x2048 .bf16) (x1 : Vec F S2048x64 .f32) (x2 : Vec F S64x16 .f32) (x3 : Vec F S1x16 .f32) (xi : Vec F S2048x16 .f32) (xs : Vec F S2048x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k3_pay2 x1 x2 (k3_pay1 (F := F)) x0)) -∗ K ⟨⟩))
      ⊢ wp frame (wpE (defs₀ (F := F)) Variants.none c none) E (cc3__gcn_agg_kernel i arg2 harg2 arg3 harg3 arg4 harg4 arg5 harg5 arg6 harg6 arg7 harg7) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off3 inb_S2048x16_S2048x16_0_0 y⟩)]
  rw [View.canon_cons_unit_zero zero_off3]
  sl_unfold_run_names
  rw [View.readCov_unit_zero _ zero_off3]
  simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]

set_option maxHeartbeats 4000000 in
/-- 0 < k < 7: the accumulator holds the point's product added to what it held. -/
theorem run3_B (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S2048x16 .f32) (harg6 : arg6.IsWhole) (arg7 : Memref sig .tc .vmem S2048x16 .f32) (harg7 : arg7.IsWhole)
    (hc0 : ¬cond3_0 i) (hc1 : ¬cond3_1 i) (x0 : Vec F S2048x2048 .bf16) (x1 : Vec F S2048x64 .f32) (x2 : Vec F S64x16 .f32) (x3 : Vec F S1x16 .f32) (xi : Vec F S2048x16 .f32) (xs : Vec F S2048x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k3_pay2 x1 x2 xs x0)) -∗ K ⟨⟩))
      ⊢ wp frame (wpE (defs₀ (F := F)) Variants.none c none) E (cc3__gcn_agg_kernel i arg2 harg2 arg3 harg3 arg4 harg4 arg5 harg5 arg6 harg6 arg7 harg7) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off3 inb_S2048x16_S2048x16_0_0 y⟩)]
  rw [View.canon_cons_unit_zero zero_off3]
  simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]

set_option maxHeartbeats 4000000 in
/-- k = 7: the accumulator as in the middle tiles, and the output block at the accumulator plus the bias row. -/
theorem run3_C (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S2048x16 .f32) (harg6 : arg6.IsWhole) (arg7 : Memref sig .tc .vmem S2048x16 .f32) (harg7 : arg7.IsWhole)
    (hc0 : ¬cond3_0 i) (hc1 : cond3_1 i) (x0 : Vec F S2048x2048 .bf16) (x1 : Vec F S2048x64 .f32) (x2 : Vec F S64x16 .f32) (x3 : Vec F S1x16 .f32) (xs : Vec F S2048x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k3_pay3 (k3_pay2 x1 x2 xs x0) x3) ∗ owns (c : Thread nD τ) arg7 fullShare (k3_pay2 x1 x2 xs x0)) -∗ K ⟨⟩))
      ⊢ wp frame (wpE (defs₀ (F := F)) Variants.none c none) E (cc3__gcn_agg_kernel i arg2 harg2 arg3 harg3 arg4 harg4 arg5 harg5 arg6 harg6 arg7 harg7) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero zero_off3 inb_S2048x16_S2048x16_0_0 y⟩)]
    rw [View.canon_cons_unit_zero zero_off3]
    sl_unfold_run_names
    rw [View.readCov_unit_zero _ zero_off3]
    simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]
  iexists _; isplitr
  swap; · iexact H5
  ipureintro
  sl_unfold_run_names
  rw [View.read_writes_eq_canon _ _ _ (fun y => ⟨_, List.mem_cons_self .., View.mem_set_unit_zero zero_off3 inb_S2048x16_S2048x16_0_0 y⟩)]
  rw [View.canon_cons_unit_zero zero_off3]
  simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]

/-! ## What the accumulator holds after each point -/

/-- The accumulator after the body at position `n`: the point's product added to zero at the first reduction tile of a
    row tile, and to what the point before left otherwise. -/
def acc3 (c : Dev nD) : (n : ℕ) → n < cfg3.N → Vec F S2048x16 .f32
  | 0, hn => k3_pay2 (iblk3 V c 1 ⟨0, hn⟩) (iblk3 V c 2 ⟨0, hn⟩) (k3_pay1 (F := F)) (iblk3 V c 0 ⟨0, hn⟩)
  | n + 1, hn => k3_pay2 (iblk3 V c 1 ⟨n + 1, hn⟩) (iblk3 V c 2 ⟨n + 1, hn⟩)
      (if (n + 1) % 8 = 0 then (k3_pay1 (F := F)) else acc3 c n (Nat.lt_of_succ_lt hn)) (iblk3 V c 0 ⟨n + 1, hn⟩)

theorem acc3_first (c : Dev nD) (t : Fin cfg3.N) (h0 : t.val % 8 = 0) :
    acc3 V c t.val t.isLt = k3_pay2 (iblk3 V c 1 t) (iblk3 V c 2 t) (k3_pay1 (F := F)) (iblk3 V c 0 t) := by
  obtain ⟨n, hn⟩ := t
  cases n with
  | zero => rfl
  | succ n =>
    have e : acc3 V c (n + 1) hn = k3_pay2 (iblk3 V c 1 ⟨n + 1, hn⟩) (iblk3 V c 2 ⟨n + 1, hn⟩)
      (if (n + 1) % 8 = 0 then (k3_pay1 (F := F)) else acc3 V c n (Nat.lt_of_succ_lt hn)) (iblk3 V c 0 ⟨n + 1, hn⟩) := rfl
    exact e.trans (by rw [if_pos h0])

theorem acc3_step (c : Dev nD) (t : Fin cfg3.N) (h0 : ¬t.val % 8 = 0) :
    acc3 V c t.val t.isLt = k3_pay2 (iblk3 V c 1 t) (iblk3 V c 2 t) (acc3 V c (t.val - 1) (Nat.lt_of_le_of_lt (Nat.sub_le _ _) t.isLt)) (iblk3 V c 0 t) := by
  obtain ⟨n, hn⟩ := t
  cases n with
  | zero => exact absurd (Nat.zero_mod _) h0
  | succ n =>
    have e : acc3 V c (n + 1) hn = k3_pay2 (iblk3 V c 1 ⟨n + 1, hn⟩) (iblk3 V c 2 ⟨n + 1, hn⟩)
      (if (n + 1) % 8 = 0 then (k3_pay1 (F := F)) else acc3 V c n (Nat.lt_of_succ_lt hn)) (iblk3 V c 0 ⟨n + 1, hn⟩) := rfl
    exact e.trans (by rw [if_neg h0]; rfl)

/-- The region's invariant before position `n`: before the first point what the region was handed; afterwards the
    accumulator at what the point before left, the other scoped buffers unopened, the generator register at some state. -/
def Phi3 (c : Dev nD) : (n : ℕ) → n ≤ cfg3.N → sProp 𝕄
  | 0, _ => Pipeline.ΦA spec3 c
  | n + 1, hn => iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(iprop(owns (c : Thread nD τ) scM3 fullShare (acc3 V c (n - 1) (by omega))) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- After the body at point `t`: each input's buffer at its block; the output's at the accumulator plus the bias row
    (consulted only where the block is written back, k = 7); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (acc3 V c t.val t.isLt) (iblk3 V c 3 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay3 (acc3 V c t.val t.isLt) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rfl, after3_0]
  rw [show (dat3 V c).leavesExact 1 t = owns (c : Thread nD τ) (ms3_1 t) fullShare ((dat3 V c).after 1 t) from by
    unfold Dat.leavesExact; rfl, after3_1]
  rw [show (dat3 V c).leavesExact 2 t = owns (c : Thread nD τ) (ms3_2 t) fullShare ((dat3 V c).after 2 t) from by
    unfold Dat.leavesExact; rfl, after3_2]
  rw [show (dat3 V c).leavesExact 3 t = owns (c : Thread nD τ) (ms3_3 t) fullShare ((dat3 V c).after 3 t) from by
    unfold Dat.leavesExact; rfl, after3_3]
  have hN : t.val < 64 := lt_of_lt_of_eq t.isLt (show cfg3.N = 64 from N_3)
  by_cases h0 : t.val % 8 = 0
  · have h1 : ¬t.val % 8 = 7 := by omega
    have hc0 : cond3_0 (grid3.coords t) := (hcond3_0 t).mpr h0
    have hc1 : ¬cond3_1 (grid3.coords t) := fun h => h1 ((hcond3_1 t).mp h)
    rw [Dat.leavesExact_idle (dat3 V c) 4 t (idleAt3_4 t hc1) (noFlush3_4 t hc1)]
    rw [acc3_first V c t h0]
    by_cases hz : t.val = 0
    · rw [Phi3_castSucc V c t, Phi3_zero V c _ _ hz, PhiA3_eq]
      iintro ⟨⟨⟨⟨%ds, HS⟩, Hb⟩, Hg⟩, Ho, ⟨%d0, H0⟩, ⟨%d1, H1⟩, ⟨%d2, H2⟩, ⟨%d3, H3⟩, ⟨%d4, H4⟩⟩
      iapply (run3_A c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [Phi3_castSucc V c t, Phi3_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run3_A c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond3_0 (grid3.coords t) := fun h => h0 ((hcond3_0 t).mp h)
    rw [acc3_step V c t h0]
    by_cases h1 : t.val % 8 = 7
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4, acc3_step V c t h0]
      rw [Phi3_castSucc V c t, Phi3_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run3_C c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      rw [Phi3_castSucc V c t, Phi3_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run3_B c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives that back: the accumulator's contents are forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨HS, Hb⟩, Hg⟩
  isplitl [HS Hb]
  · isplitl [HS]; · iexists _; iexact HS
    iexact Hb
  iexact Hg

theorem hout3 (c : Dev nD) : (dat3 V c).Φ (Fin.last cfg3.N) ⊢ Pipeline.ΦA spec3 c :=
  Phi3_out V c _ (by rw [Fin.val_last]; have : cfg3.N = 64 := N_3; omega)

end Region3

end Cert.Kernel.Gen

end
-- ==== Proof.KB.Run.lean ====
/-
  THE RUN of @main: four host stretches and four kernel regions, in @main's order,

      hostOps0 ; region 0 ; hostOps1 ; region 1 ; hostOps2 ; region 2 ; hostOps3 ; region 3.

  The contents of a core's unscoped buffers are followed through the eight segments as a fold from the launch
  memory (W0 … W8): a host stretch rewrites the buffers its operations write (StableHlo.after), a region leaves each
  of its windowed arrays at what its write-backs have folded into it by the last grid point and every other buffer
  as it found it (Pipeline.withArrays). Each region's proof data are taken at the contents the region is ENTERED
  with, so the four regions' halves — stated at an arbitrary entry contents — are instantiated at W1, W3, W5, W7.

  The thread state between two segments is: every unscoped buffer whole at the boundary's contents, the core's
  generator register at some state, and the core owing nothing. A region borrows its arrays out of the unscoped
  buffers at entry and returns them at exit; its invariant takes the generator register and the scoped scratch at
  the first point and gives them back at the last.

  The run's conclusion: the program terminates without fault and every unscoped buffer ends at W8. From that, the
  eight arguments end as launched (no stretch writes one; a region only reads one, through an input window, or does
  not touch it), and the result buffer ends at region 3's last output array.
-/
import proofs.«114686_j10720238371126_2_alg».proof.Proof.KB.Region0
import proofs.«114686_j10720238371126_2_alg».proof.Proof.KB.Region1
import proofs.«114686_j10720238371126_2_alg».proof.Proof.KB.Region2
import proofs.«114686_j10720238371126_2_alg».proof.Proof.KB.Region3
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a host stretch leaves alone

A stretch's operations each write one buffer (their result); any other buffer reads the same before and after. -/

/-- `hostOps0` writes `main_v0` only. -/
theorem keeps0 (W : Valuation τ sig (Elt F)) (b : Ref sig .tc) (hb : b ∉ ([main_v0] : List (Ref sig .tc))) :
    StableHlo.after hostOps0 W (Proc.devRef .tc b) = W (Proc.devRef .tc b) := by
  refine StableHlo.after_of_forall_not_mem (b := Proc.devRef .tc b) _ _ (List.forall_iff_forall_mem.mp ?_)
  simp only [hostOps0, List.Forall, StableHlo.unary_writes, StableHlo.reshape_writes, Finset.mem_singleton]
  simp only [List.mem_cons, List.not_mem_nil, or_false, not_or] at hb
  exact StableHlo.devRef_ne_of_ne hb
/-- `hostOps1` writes `main_v2`, `main_v3`, `main_v4`, `main_v5`, `main_v6` only. -/
theorem keeps1 (W : Valuation τ sig (Elt F)) (b : Ref sig .tc) (hb : b ∉ ([main_v2, main_v3, main_v4, main_v5, main_v6] : List (Ref sig .tc))) :
    StableHlo.after hostOps1 W (Proc.devRef .tc b) = W (Proc.devRef .tc b) := by
  refine StableHlo.after_of_forall_not_mem (b := Proc.devRef .tc b) _ _ (List.forall_iff_forall_mem.mp ?_)
  simp only [hostOps1, List.Forall, StableHlo.unary_writes, StableHlo.reshape_writes, Finset.mem_singleton]
  simp only [List.mem_cons, List.not_mem_nil, or_false, not_or] at hb
  exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩
/-- `hostOps2` writes `main_v8`, `main_v9`, `main_v10`, `main_v11`, `main_v12` only. -/
theorem keeps2 (W : Valuation τ sig (Elt F)) (b : Ref sig .tc) (hb : b ∉ ([main_v8, main_v9, main_v10, main_v11, main_v12] : List (Ref sig .tc))) :
    StableHlo.after hostOps2 W (Proc.devRef .tc b) = W (Proc.devRef .tc b) := by
  refine StableHlo.after_of_forall_not_mem (b := Proc.devRef .tc b) _ _ (List.forall_iff_forall_mem.mp ?_)
  simp only [hostOps2, List.Forall, StableHlo.unary_writes, StableHlo.reshape_writes, Finset.mem_singleton]
  simp only [List.mem_cons, List.not_mem_nil, or_false, not_or] at hb
  exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩
/-- `hostOps3` writes `main_v14` only. -/
theorem keeps3 (W : Valuation τ sig (Elt F)) (b : Ref sig .tc) (hb : b ∉ ([main_v14] : List (Ref sig .tc))) :
    StableHlo.after hostOps3 W (Proc.devRef .tc b) = W (Proc.devRef .tc b) := by
  refine StableHlo.after_of_forall_not_mem (b := Proc.devRef .tc b) _ _ (List.forall_iff_forall_mem.mp ?_)
  simp only [hostOps3, List.Forall, StableHlo.unary_writes, StableHlo.reshape_writes, Finset.mem_singleton]
  simp only [List.mem_cons, List.not_mem_nil, or_false, not_or] at hb
  exact StableHlo.devRef_ne_of_ne hb

/-! ## The buffer contents at the nine segment boundaries -/

/-- The launch state: the given memory, every semaphore at zero, the given generator registers. -/
abbrev launchSt : MemSt nD τ sig (Elt F) := ⟨m, fun _ => 0, ρ⟩
/-- Core `c`'s buffers at launch. -/
abbrev W0 : Dev nD → Valuation τ sig (Elt F) := fun c b => (launchSt m ρ).mem ((c : Dev nD), b)

/-- After `hostOps0`: what region 0 is entered with. -/
abbrev W1 : Dev nD → Valuation τ sig (Elt F) := fun c => StableHlo.after hostOps0 (W0 m ρ c)
/-- The same, read at the TensorCore's references: the entry contents region 0's proof data are taken at. -/
abbrev V1 : (c : Dev nD) → (b : Ref sig .tc) → Buf (Elt F) ((c : Thread nD τ).loc b) := fun c b => W1 m ρ c b
/-- When region 0 returns: each of its arrays at what the pipeline has folded into it by the last point (an input's
    array is never written, so it is as entered), every other buffer as entered. -/
def W2 (c : Dev nD) : Valuation τ sig (Elt F) :=
  Pipeline.withArrays spec0 c (W1 m ρ c) fun w => (dat0 (V1 m ρ) c).arrAt w cfg0.N
/-- `W2` at one of region 0's arrays. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- `W2` at a buffer that is none of region 0's arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
/-- The two facts the exit's reassembly of the unscoped buffers asks for: the arrays hold the pipeline's final
    contents, the rest holds what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: what region 1 is entered with. -/
abbrev W3 : Dev nD → Valuation τ sig (Elt F) := fun c => StableHlo.after hostOps1 (W2 m ρ c)
/-- The same, read at the TensorCore's references: the entry contents region 1's proof data are taken at. -/
abbrev V3 : (c : Dev nD) → (b : Ref sig .tc) → Buf (Elt F) ((c : Thread nD τ).loc b) := fun c b => W3 m ρ c b
/-- When region 1 returns: each of its arrays at what the pipeline has folded into it by the last point (an input's
    array is never written, so it is as entered), every other buffer as entered. -/
def W4 (c : Dev nD) : Valuation τ sig (Elt F) :=
  Pipeline.withArrays spec1 c (W3 m ρ c) fun w => (dat1 (V3 m ρ) c).arrAt w cfg1.N
/-- `W4` at one of region 1's arrays. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- `W4` at a buffer that is none of region 1's arrays. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents at the TensorCore's references. -/
abbrev V4 : (c : Dev nD) → (b : Ref sig .tc) → Buf (Elt F) ((c : Thread nD τ).loc b) := fun c b => W4 m ρ c b
/-- The two facts the exit's reassembly of the unscoped buffers asks for: the arrays hold the pipeline's final
    contents, the rest holds what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: what region 2 is entered with. -/
abbrev W5 : Dev nD → Valuation τ sig (Elt F) := fun c => StableHlo.after hostOps2 (W4 m ρ c)
/-- The same, read at the TensorCore's references: the entry contents region 2's proof data are taken at. -/
abbrev V5 : (c : Dev nD) → (b : Ref sig .tc) → Buf (Elt F) ((c : Thread nD τ).loc b) := fun c b => W5 m ρ c b
/-- When region 2 returns: each of its arrays at what the pipeline has folded into it by the last point (an input's
    array is never written, so it is as entered), every other buffer as entered. -/
def W6 (c : Dev nD) : Valuation τ sig (Elt F) :=
  Pipeline.withArrays spec2 c (W5 m ρ c) fun w => (dat2 (V5 m ρ) c).arrAt w cfg2.N
/-- `W6` at one of region 2's arrays. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- `W6` at a buffer that is none of region 2's arrays. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Region 2's exit contents at the TensorCore's references. -/
abbrev V6 : (c : Dev nD) → (b : Ref sig .tc) → Buf (Elt F) ((c : Thread nD τ).loc b) := fun c b => W6 m ρ c b
/-- The two facts the exit's reassembly of the unscoped buffers asks for: the arrays hold the pipeline's final
    contents, the rest holds what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: what region 3 is entered with. -/
abbrev W7 : Dev nD → Valuation τ sig (Elt F) := fun c => StableHlo.after hostOps3 (W6 m ρ c)
/-- The same, read at the TensorCore's references: the entry contents region 3's proof data are taken at. -/
abbrev V7 : (c : Dev nD) → (b : Ref sig .tc) → Buf (Elt F) ((c : Thread nD τ).loc b) := fun c b => W7 m ρ c b
/-- When region 3 returns: each of its arrays at what the pipeline has folded into it by the last point (an input's
    array is never written, so it is as entered), every other buffer as entered. -/
def W8 (c : Dev nD) : Valuation τ sig (Elt F) :=
  Pipeline.withArrays spec3 c (W7 m ρ c) fun w => (dat3 (V7 m ρ) c).arrAt w cfg3.N
/-- `W8` at one of region 3's arrays. -/
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
/-- `W8` at a buffer that is none of region 3's arrays. -/
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- Region 3's exit contents at the TensorCore's references. -/
abbrev V8 : (c : Dev nD) → (b : Ref sig .tc) → Buf (Elt F) ((c : Thread nD τ).loc b) := fun c b => W8 m ρ c b
/-- The two facts the exit's reassembly of the unscoped buffers asks for: the arrays hold the pipeline's final
    contents, the rest holds what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No host operation writes an argument, and a region either reads it through an input window — whose array the
pipeline never writes, so the fold leaves it at its entry contents — or has it among the buffers that bypass the
region. So `W8` at an argument walks back, boundary by boundary, to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := keeps3 _ main_arg0 (by decide)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) := W4_of_ne m ρ c main_arg0 (by decide)
    _ = W2 m ρ c (Proc.devRef .tc main_arg0) := keeps1 _ main_arg0 (by decide)
    _ = W1 m ρ c (Proc.devRef .tc main_arg0) :=
          (W2_arr m ρ c 1).trans (((dat0 (V1 m ρ) c).arrAt_in 1 rfl _).trans (A_eq0 (V1 m ρ) c 1))
    _ = W0 m ρ c (Proc.devRef .tc main_arg0) := keeps0 _ main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := keeps3 _ main_arg1 (by decide)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) :=
          (W2_arr m ρ c 0).trans (((dat0 (V1 m ρ) c).arrAt_in 0 rfl _).trans (A_eq0 (V1 m ρ) c 0))
    _ = W0 m ρ c (Proc.devRef .tc main_arg1) := keeps0 _ main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := keeps3 _ main_arg2 (by decide)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) :=
          (W2_arr m ρ c 2).trans (((dat0 (V1 m ρ) c).arrAt_in 2 rfl _).trans (A_eq0 (V1 m ρ) c 2))
    _ = W0 m ρ c (Proc.devRef .tc main_arg2) := keeps0 _ main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := keeps3 _ main_arg3 (by decide)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := W2_of_ne m ρ c main_arg3 (by decide)
    _ = W0 m ρ c (Proc.devRef .tc main_arg3) := keeps0 _ main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := keeps3 _ main_arg4 (by decide)
    _ = W5 m ρ c (Proc.devRef .tc main_arg4) := W6_of_ne m ρ c main_arg4 (by decide)
    _ = W4 m ρ c (Proc.devRef .tc main_arg4) := keeps2 _ main_arg4 (by decide)
    _ = W3 m ρ c (Proc.devRef .tc main_arg4) := W4_of_ne m ρ c main_arg4 (by decide)
    _ = W2 m ρ c (Proc.devRef .tc main_arg4) := keeps1 _ main_arg4 (by decide)
    _ = W1 m ρ c (Proc.devRef .tc main_arg4) := W2_of_ne m ρ c main_arg4 (by decide)
    _ = W0 m ρ c (Proc.devRef .tc main_arg4) := keeps0 _ main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := keeps3 _ main_arg5 (by decide)
    _ = W5 m ρ c (Proc.devRef .tc main_arg5) := W6_of_ne m ρ c main_arg5 (by decide)
    _ = W4 m ρ c (Proc.devRef .tc main_arg5) := keeps2 _ main_arg5 (by decide)
    _ = W3 m ρ c (Proc.devRef .tc main_arg5) := W4_of_ne m ρ c main_arg5 (by decide)
    _ = W2 m ρ c (Proc.devRef .tc main_arg5) := keeps1 _ main_arg5 (by decide)
    _ = W1 m ρ c (Proc.devRef .tc main_arg5) := W2_of_ne m ρ c main_arg5 (by decide)
    _ = W0 m ρ c (Proc.devRef .tc main_arg5) := keeps0 _ main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) :=
          (W8_arr m ρ c 2).trans (((dat3 (V7 m ρ) c).arrAt_in 2 rfl _).trans (A_eq3 (V7 m ρ) c 2))
    _ = W6 m ρ c (Proc.devRef .tc main_arg6) := keeps3 _ main_arg6 (by decide)
    _ = W5 m ρ c (Proc.devRef .tc main_arg6) := W6_of_ne m ρ c main_arg6 (by decide)
    _ = W4 m ρ c (Proc.devRef .tc main_arg6) := keeps2 _ main_arg6 (by decide)
    _ = W3 m ρ c (Proc.devRef .tc main_arg6) := W4_of_ne m ρ c main_arg6 (by decide)
    _ = W2 m ρ c (Proc.devRef .tc main_arg6) := keeps1 _ main_arg6 (by decide)
    _ = W1 m ρ c (Proc.devRef .tc main_arg6) := W2_of_ne m ρ c main_arg6 (by decide)
    _ = W0 m ρ c (Proc.devRef .tc main_arg6) := keeps0 _ main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := keeps3 _ main_arg7 (by decide)
    _ = W5 m ρ c (Proc.devRef .tc main_arg7) := W6_of_ne m ρ c main_arg7 (by decide)
    _ = W4 m ρ c (Proc.devRef .tc main_arg7) := keeps2 _ main_arg7 (by decide)
    _ = W3 m ρ c (Proc.devRef .tc main_arg7) := W4_of_ne m ρ c main_arg7 (by decide)
    _ = W2 m ρ c (Proc.devRef .tc main_arg7) := keeps1 _ main_arg7 (by decide)
    _ = W1 m ρ c (Proc.devRef .tc main_arg7) := W2_of_ne m ρ c main_arg7 (by decide)
    _ = W0 m ρ c (Proc.devRef .tc main_arg7) := keeps0 _ main_arg7 (by decide)
    _ = m ((c : Thread nD τ).loc main_arg7) := rfl

/-- The result buffer ends at region 3's output array as the pipeline leaves it. -/
theorem W8_result (c : Dev nD) : W8 m ρ c (Proc.devRef .tc main_v15) = (dat3 (V7 m ρ) c).arrAt 4 cfg3.N :=
  W8_arr m ρ c 4

/-! ## The proof data of the four pipelines, and the thread state -/

/-- No pipeline prefetches a table: the admissible table contents are the trivial ones. -/
abbrev adm : (p : Fin 4) → (pcfgs (F := F) p).Adm := fun p => (cfgs p).toPCfg_adm
/-- Every pipeline's proof data, region K's at the contents region K is entered with. Written as a literal
    `match` so that the family at a numeral reduces to that region's data. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything, so no pair of cells is given a level. -/
abbrev L : GSem nD τ sig → Finset Unit := fun _ => ∅
abbrev lv : GSem nD τ sig → Unit → ℕ := fun _ _ => 0
/-- What every segment carries beside the unscoped buffers: the generator register at some state (a region's
    invariant takes it at the first point and returns it at the last) and the core owing nothing. -/
abbrev R (c : Dev nD) : sProp 𝕄 := iprop((∃ r, prngReg c r) ∗ ∃ W, owes (c : Thread nD τ) (0 : CellTallies nD τ sig Unit) W)
/-- A host stretch as a segment over the unscoped buffers: entered with them at `W`, it leaves them at
    `StableHlo.after ops (W c)`, which is the next boundary's contents by definition; `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The regions as segments

The same four steps for each region K, entered with the unscoped buffers at `W(2K+1)` and left with them at `W(2K+2)`.
ENTRY: the region's arrays are split out of the unscoped buffers (the rest bypasses the region); there is no
prefetched table; the `owes` at zero is the proof data's first tally; the generator register goes to the invariant.
FIRST POINT: the class's invariant (scratch at some contents, generator register at some state) is assembled and
turned into the region's own invariant at point 0 (`hinK`: there the scratch accumulator holds anything).
LAST POINT: the region's own invariant gives the class's back (`houtK`), which is taken apart again.
EXIT: the arrays at their final contents and the bypassing buffers are the unscoped buffers at the exit contents. -/

-- applying a library lemma stated over the pinned configuration `pin pcs a p` to the printed configuration needs
-- unification to unfold plain definitions inside a metavariable's type
set_option backward.isDefEq.respectTransparency.types false in
/-- REGION 0 (custom_call 0): from every unscoped buffer at `W1` to every unscoped buffer at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed configuration needs
-- unification to unfold plain definitions inside a metavariable's type
set_option backward.isDefEq.respectTransparency.types false in
/-- REGION 1 (custom_call 1): from every unscoped buffer at `W3` to every unscoped buffer at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed configuration needs
-- unification to unfold plain definitions inside a metavariable's type
set_option backward.isDefEq.respectTransparency.types false in
/-- REGION 2 (custom_call 2): from every unscoped buffer at `W5` to every unscoped buffer at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed configuration needs
-- unification to unfold plain definitions inside a metavariable's type
set_option backward.isDefEq.respectTransparency.types false in
/-- REGION 3 (custom_call 3): from every unscoped buffer at `W7` to every unscoped buffer at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The state region 3 leaves is the last thread state beside the core owing nothing (the same three parts, regrouped). -/
theorem last_state (c : Dev nD) :
    iprop(StableHlo.held (c : Thread nD τ) (Pipeline.ucRefs τ sig) (W8 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as segments, and the launch -/

/-- @main's eight segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items (`main_chain`), and the segments' run unfolds to
    the same chain (checked by definitional unfolding). -/
theorem main_run (c : Dev nD) : main (F := F) c = Pipeline.Seg.run (segs m ρ) := (main_chain c).trans (by chain_rfl)

-- the launch theorem's implicit arguments are found by unifying its conclusion with the statement, which needs
-- unfolding plain definitions inside a metavariable's type
set_option backward.isDefEq.respectTransparency.types false in
/-- THE RUN: at the compiled mesh, from any memory with every semaphore at zero, every weakly fair execution of @main
    on the TensorCores terminates without fault, and in every final state each unscoped buffer of each core holds
    `W8`: the launch, then the eight segments in order, the last thread state read against the final memory. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: @main runs, and its eight argument arrays end as launched — each is an unscoped buffer, which ends at
    `W8`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_main m ρ)

end Cert.Kernel.Gen

end
-- ==== Proof.KI.Region0.lean ====
import proofs.«114686_j10720238371126_2_alg».proof.Proof.Gen.KernelIdeal.Launch
import proofs.«114686_j10720238371126_2_alg».proof.Proof.Gen.KernelIdeal.Skeleton
import proofs.«114686_j10720238371126_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first aggregation layer, tiled, with the narrowed copy of the adjacency as a second output

The kernel of this region walks a 16 × 8 grid (row tile i of 1024 rows, reduction tile k of 2048 columns; the point's
number is 8 i + k). At a point it stores the current 1024 × 2048 block of the adjacency, narrowed, into the second
output's block (written back at every point), projects the current 2048-row block of the features through the weights,
multiplies the adjacency block with that projection and ADDS the product to an accumulator kept in scratch between
points: the accumulator is reset to zero at k = 0, and at k = 7 the accumulator plus the bias row is stored into the
first output's block, which is written back there and nowhere else. Everything is stated at the contents `V` the
region finds in the buffers. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first reduction tile" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last reduction tile" (k = 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- Away from the last reduction tile the first output's window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last reduction tile it is live. -/
theorem liveAt0_4 : ∀ t : Fin cfg0.N, cond0_1 (grid0.coords t) → cfg0.idle 4 (grid0.coords t) = false := by decide +kernel

/-- Each window's current staging memref at point `t`, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S1024x64 .f32 := Memref.whole cc0_scratch0

/-- What the region hands the body besides the windows: the accumulator at some contents, the other scoped buffers
    unopened, the generator register at some state. -/
theorem PhiA0_eq (c : Dev nD) :
    (Pipeline.ΦA spec0 c : sProp 𝕄)
      = iprop(iprop(iprop((∃ d, owns (c : Thread nD τ) scM0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's triple, case by case

On whole memrefs at given contents the body runs to the continuation with the four input buffers as they were, the
second output's block at the narrowed adjacency block, the accumulator at the point's product added to what it held
(to zero at k = 0), and the first output's block either untouched or, at k = 7, at the accumulator plus the bias
row. A whole-buffer store leaves its payload; a whole-buffer load reads the contents. -/

theorem zero_off0 : (![0, 0] : Fin 2 → ℕ) = fun _ => 0 := by funext a; fin_cases a <;> rfl

set_option maxHeartbeats 4000000 in
/-- k = 0 (and not the last tile): the accumulator is reset, then holds the point's product added to zero. -/
theorem run0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x2048 .bf16) (harg7 : arg7.IsWhole) (arg8 : Memref sig .tc .vmem S1024x64 .f32) (harg8 : arg8.IsWhole)
    (hc0 : cond0_0 i) (hc1 : ¬cond0_1 i) (x0 : Vec F S1024x2048 .f32) (x1 : Vec F S2048x128 .f32) (x2 : Vec F S128x64 .f32) (x3 : Vec F S1x64 .f32) (xi : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k0_pay2 x0) ∗ owns (c : Thread nD τ) arg8 fullShare (k0_pay3 x0 x1 x2 (k0_pay1 (F := F)))) -∗ K ⟨⟩))
      ⊢ wp frame (wpE (defs₀ (F := F)) Variants.none c none) E (cc0__gcn_agg_first_kernel i arg2 harg2 arg3 harg3 arg4 harg4 arg5 harg5 arg6 harg6 arg7 harg7 arg8 harg8) K := by
  simp only [cc0__gcn_agg_first_kernel_eq_skeleton]; unfold cc0__gcn_agg_first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (fun y => ⟨_, List.mem_cons_self .., View.mem_set_unit_zero zero_off0 inb_S1024x2048_S1024x2048_0_0 y⟩)]
    rw [View.canon_cons_unit_zero zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  iexists _; isplitr
  swap; · iexact H6
  ipureintro
  sl_unfold_run_names
  rw [View.read_writes_eq_canon _ _ _ (fun y => ⟨_, List.mem_cons_self .., View.mem_set_unit_zero zero_off0 inb_S1024x64_S1024x64_0_0 y⟩)]
  rw [View.canon_cons_unit_zero zero_off0]
  rw [View.readCov_unit_zero _ zero_off0]
  simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]

set_option maxHeartbeats 4000000 in
/-- 0 < k < 7: the accumulator holds the point's product added to what it held. -/
theorem run0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x2048 .bf16) (harg7 : arg7.IsWhole) (arg8 : Memref sig .tc .vmem S1024x64 .f32) (harg8 : arg8.IsWhole)
    (hc0 : ¬cond0_0 i) (hc1 : ¬cond0_1 i) (x0 : Vec F S1024x2048 .f32) (x1 : Vec F S2048x128 .f32) (x2 : Vec F S128x64 .f32) (x3 : Vec F S1x64 .f32) (xi : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k0_pay2 x0) ∗ owns (c : Thread nD τ) arg8 fullShare (k0_pay3 x0 x1 x2 xs)) -∗ K ⟨⟩))
      ⊢ wp frame (wpE (defs₀ (F := F)) Variants.none c none) E (cc0__gcn_agg_first_kernel i arg2 harg2 arg3 harg3 arg4 harg4 arg5 harg5 arg6 harg6 arg7 harg7 arg8 harg8) K := by
  simp only [cc0__gcn_agg_first_kernel_eq_skeleton]; unfold cc0__gcn_agg_first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (fun y => ⟨_, List.mem_cons_self .., View.mem_set_unit_zero zero_off0 inb_S1024x2048_S1024x2048_0_0 y⟩)]
    rw [View.canon_cons_unit_zero zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  iexists _; isplitr
  swap; · iexact H6
  ipureintro
  sl_unfold_run_names
  rw [View.read_writes_eq_canon _ _ _ (fun y => ⟨_, List.mem_cons_self .., View.mem_set_unit_zero zero_off0 inb_S1024x64_S1024x64_0_0 y⟩)]
  rw [View.canon_cons_unit_zero zero_off0]
  simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]

set_option maxHeartbeats 4000000 in
/-- k = 7: the accumulator as in the middle tiles, and the first output's block at the accumulator plus the bias row. -/
theorem run0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x2048 .bf16) (harg7 : arg7.IsWhole) (arg8 : Memref sig .tc .vmem S1024x64 .f32) (harg8 : arg8.IsWhole)
    (hc0 : ¬cond0_0 i) (hc1 : cond0_1 i) (x0 : Vec F S1024x2048 .f32) (x1 : Vec F S2048x128 .f32) (x2 : Vec F S128x64 .f32) (x3 : Vec F S1x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay3 x0 x1 x2 xs) x3) ∗ owns (c : Thread nD τ) arg7 fullShare (k0_pay2 x0) ∗ owns (c : Thread nD τ) arg8 fullShare (k0_pay3 x0 x1 x2 xs)) -∗ K ⟨⟩))
      ⊢ wp frame (wpE (defs₀ (F := F)) Variants.none c none) E (cc0__gcn_agg_first_kernel i arg2 harg2 arg3 harg3 arg4 harg4 arg5 harg5 arg6 harg6 arg7 harg7 arg8 harg8) K := by
  simp only [cc0__gcn_agg_first_kernel_eq_skeleton]; unfold cc0__gcn_agg_first_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self .., View.mem_set_unit_zero zero_off0 inb_S1024x64_S1024x64_0_0 y⟩)]
    rw [View.canon_cons_unit_zero zero_off0]
    rw [View.readCov_unit_zero _ zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  isplitl [H5]
  · iexists _; isplitr
    swap; · iexact H5
    ipureintro
    sl_unfold_run_names
    rw [View.read_writes_eq_canon _ _ _ (fun y => ⟨_, List.mem_cons_self .., View.mem_set_unit_zero zero_off0 inb_S1024x2048_S1024x2048_0_0 y⟩)]
    rw [View.canon_cons_unit_zero zero_off0]
    simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]
  iexists _; isplitr
  swap; · iexact H6
  ipureintro
  sl_unfold_run_names
  rw [View.read_writes_eq_canon _ _ _ (fun y => ⟨_, List.mem_cons_self .., View.mem_set_unit_zero zero_off0 inb_S1024x64_S1024x64_0_0 y⟩)]
  rw [View.canon_cons_unit_zero zero_off0]
  simp only [View.readAt_eq_ld, View.ld_unit_zero (S := S1024x2048) zero_off0, View.ld_unit_zero (S := S2048x128) zero_off0, View.ld_unit_zero (S := S128x64) zero_off0, View.ld_unit_zero (S := S1024x64) zero_off0, View.ld_unit_zero (S := S1x64) zero_off0]

/-! ## What the accumulator holds after each point -/

/-- The accumulator after the body at position `n`: the point's product added to zero at the first reduction tile of a
    row tile, and to what the point before left otherwise. -/
def acc0 (c : Dev nD) : (n : ℕ) → n < cfg0.N → Vec F S1024x64 .f32
  | 0, hn => k0_pay3 (iblk0 V c 0 ⟨0, hn⟩) (iblk0 V c 1 ⟨0, hn⟩) (iblk0 V c 2 ⟨0, hn⟩) (k0_pay1 (F := F))
  | n + 1, hn => k0_pay3 (iblk0 V c 0 ⟨n + 1, hn⟩) (iblk0 V c 1 ⟨n + 1, hn⟩) (iblk0 V c 2 ⟨n + 1, hn⟩)
      (if (n + 1) % 8 = 0 then (k0_pay1 (F := F)) else acc0 c n (Nat.lt_of_succ_lt hn))

theorem acc0_first (c : Dev nD) (t : Fin cfg0.N) (h0 : t.val % 8 = 0) :
    acc0 V c t.val t.isLt = k0_pay3 (iblk0 V c 0 t) (iblk0 V c 1 t) (iblk0 V c 2 t) (k0_pay1 (F := F)) := by
  obtain ⟨n, hn⟩ := t
  cases n with
  | zero => rfl
  | succ n =>
    have e : acc0 V c (n + 1) hn = k0_pay3 (iblk0 V c 0 ⟨n + 1, hn⟩) (iblk0 V c 1 ⟨n + 1, hn⟩) (iblk0 V c 2 ⟨n + 1, hn⟩)
      (if (n + 1) % 8 = 0 then (k0_pay1 (F := F)) else acc0 V c n (Nat.lt_of_succ_lt hn)) := rfl
    exact e.trans (by rw [if_pos h0])

theorem acc0_step (c : Dev nD) (t : Fin cfg0.N) (h0 : ¬t.val % 8 = 0) :
    acc0 V c t.val t.isLt = k0_pay3 (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact absurd (Nat.zero_mod _) h0
  | succ n =>
    have e : acc0 V c (n + 1) hn = k0_pay3 (iblk0 V c 0 ⟨n + 1, hn⟩) (iblk0 V c 1 ⟨n + 1, hn⟩) (iblk0 V c 2 ⟨n + 1, hn⟩)
      (if (n + 1) % 8 = 0 then (k0_pay1 (F := F)) else acc0 V c n (Nat.lt_of_succ_lt hn)) := rfl
    exact e.trans (by rw [if_neg h0]; rfl)

/-- The region's invariant before position `n`: before the first point what the region was handed; afterwards the
    accumulator at what the point before left, the other scoped buffers unopened, the generator register at some state. -/
def Phi0 (c : Dev nD) : (n : ℕ) → n ≤ cfg0.N → sProp 𝕄
  | 0, _ => Pipeline.ΦA spec0 c
  | n + 1, hn => iprop(iprop(iprop(owns (c : Thread nD τ) scM0 fullShare (acc0 V c n hn)) ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(iprop(owns (c : Thread nD τ) scM0 fullShare (acc0 V c n hn)) ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(iprop(owns (c : Thread nD τ) scM0 fullShare (acc0 V c (n - 1) (by omega))) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- After the body at point `t`: each input's buffer at its block; the first output's at the accumulator plus the bias
    row (consulted only where the block is written back, k = 7); the second output's at the narrowed adjacency block;
    the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (acc0 V c t.val t.isLt) (iblk0 V c 3 t)
    | ⟨5, _⟩ => k0_pay2 (iblk0 V c 0 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay4 (acc0 V c t.val t.isLt) (iblk0 V c 3 t) := by dsimp only [dat0]
theorem after0_5 (c : Dev nD) (t : Fin cfg0.N) : (dat0 V c).after 5 t = k0_pay2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rfl, after0_0]
  rw [show (dat0 V c).leavesExact 1 t = owns (c : Thread nD τ) (ms0_1 t) fullShare ((dat0 V c).after 1 t) from by
    unfold Dat.leavesExact; rfl, after0_1]
  rw [show (dat0 V c).leavesExact 2 t = owns (c : Thread nD τ) (ms0_2 t) fullShare ((dat0 V c).after 2 t) from by
    unfold Dat.leavesExact; rfl, after0_2]
  rw [show (dat0 V c).leavesExact 3 t = owns (c : Thread nD τ) (ms0_3 t) fullShare ((dat0 V c).after 3 t) from by
    unfold Dat.leavesExact; rfl, after0_3]
  rw [show (dat0 V c).leavesExact 5 t = owns (c : Thread nD τ) (ms0_5 t) fullShare ((dat0 V c).after 5 t) from by
    unfold Dat.leavesExact; rfl, after0_5]
  have hN : t.val < 128 := lt_of_lt_of_eq t.isLt (show cfg0.N = 128 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    by_cases hz : t.val = 0
    · rw [Phi0_castSucc V c t, Phi0_zero V c _ _ hz, PhiA0_eq]
      iintro ⟨⟨⟨⟨%ds, HS⟩, Hb⟩, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
    · rw [Phi0_castSucc V c t, Phi0_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      iexact H5
  · have hz : t.val ≠ 0 := fun e => h0 (by rw [e])
    have hc0 : ¬cond0_0 (grid0.coords t) := fun h => h0 ((hcond0_0 t).mp h)
    rw [acc0_step V c t h0]
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, acc0_step V c t h0]
      rw [Phi0_castSucc V c t, Phi0_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1)]
      rw [Phi0_castSucc V c t, Phi0_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives that back: the accumulator's contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Hb⟩, Hg⟩
  isplitl [HS Hb]
  · isplitl [HS]; · iexists _; iexact HS
    iexact Hb
  iexact Hg

theorem hout0 (c : Dev nD) : (dat0 V c).Φ (Fin.last cfg0.N) ⊢ Pipeline.ΦA spec0 c :=
  Phi0_out V c _ (by rw [Fin.val_last]; have : cfg0.N = 128 := N_0; omega)

end Region0

end Cert.KernelIdeal.Gen

end
-- ==== Proof.KI.Region1.lean ====
import proofs.«114686_j10720238371126_2_alg».proof.Proof.Gen.KernelIdeal.Launch
import proofs.«114686_j10720238371126_2_alg».proof.Proof.Gen.KernelIdeal.Skeleton
import proofs.«114686_j10720238371126_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one aggregation layer, tiled

The kernel of this region walks an 8 × 8 grid (row tile i, reduction tile k; the point's number is 8 i + k). At a point it
projects the current 2048-row block of the features through the weights, multiplies the current 2048 × 2048 block of the
adjacency with that projection and ADDS the product to an accumulator kept in scratch between points: the accumulator is
reset to zero at k = 0, and at k = 7 the accumulator plus the bias row is stored into the output block, which is written
back there and nowhere else. Everything is stated at the contents `V` the region finds in the buffers. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is the first reduction tile" (k = 0), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last reduction tile" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- Away from the last reduction tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last reduction tile it is live. -/
theorem liveAt1_4 : ∀ t : Fin cfg1.N, cond1_1 (grid1.coords t) → cfg1.idle 4 (grid1.coords t) = false := by decide +kernel

/-- Each window's current staging memref at point `t`, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S2048x64 .f32 := Memref.whole cc1_scratch0

/-- What the region hands the body besides the windows: the accumulator at some contents, the other scoped buffers
    unopened, the generator register at some state. -/
theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's triple, case by case

On whole memrefs at given contents the body runs to the continuation with the four input buffers as they were, the
accumulator at the point's product added to what it held (to zero at k = 0), and the output block either untouched
or, at k = 7, at the accumulator plus the bias row. A whole-buffer store leaves its payload; a whole-buffer load
reads the contents. -/

theorem zero_off1 : (![0, 0] : Fin 2 → ℕ) = fun _ => 0 := by funext a; fin_cases a <;> rfl

set_option maxHeartbeats 4000000 in
/-- k = 0 (and not the last tile): the accumulator is reset, then holds the point's product added to zero. -/
theorem run1_A (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : cond1_0 i) (hc1 : ¬cond1_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k1_pay2 x1 x2 (k1_pay1 (F := F)) x0)) -∗ K ⟨⟩))
      ⊢ wp frame (wpE (defs₀ (F := F)) Variants.none c none) E (cc1__gcn_agg_kernel i arg2 harg2 arg3 harg3 arg4 harg4 arg5 harg5 arg6 harg6 arg7 harg7) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off1 inb_S2048x64_S2048x64_0_0 y⟩)]
  rw [View.canon_cons_unit_zero zero_off1]
  sl_unfold_run_names
  rw [View.readCov_unit_zero _ zero_off1]
  simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]

set_option maxHeartbeats 4000000 in
/-- 0 < k < 7: the accumulator holds the point's product added to what it held. -/
theorem run1_B (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond1_0 i) (hc1 : ¬cond1_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k1_pay2 x1 x2 xs x0)) -∗ K ⟨⟩))
      ⊢ wp frame (wpE (defs₀ (F := F)) Variants.none c none) E (cc1__gcn_agg_kernel i arg2 harg2 arg3 harg3 arg4 harg4 arg5 harg5 arg6 harg6 arg7 harg7) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off1 inb_S2048x64_S2048x64_0_0 y⟩)]
  rw [View.canon_cons_unit_zero zero_off1]
  simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]

set_option maxHeartbeats 4000000 in
/-- k = 7: the accumulator as in the middle tiles, and the output block at the accumulator plus the bias row. -/
theorem run1_C (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond1_0 i) (hc1 : cond1_1 i) (x0 : Vec F S2048x2048 .bf16) (x1 : Vec F S2048x64 .f32) (x2 : Vec F S64x64 .f32) (x3 : Vec F S1x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (k1_pay2 x1 x2 xs x0) x3) ∗ owns (c : Thread nD τ) arg7 fullShare (k1_pay2 x1 x2 xs x0)) -∗ K ⟨⟩))
      ⊢ wp frame (wpE (defs₀ (F := F)) Variants.none c none) E (cc1__gcn_agg_kernel i arg2 harg2 arg3 harg3 arg4 harg4 arg5 harg5 arg6 harg6 arg7 harg7) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero zero_off1 inb_S2048x64_S2048x64_0_0 y⟩)]
    rw [View.canon_cons_unit_zero zero_off1]
    sl_unfold_run_names
    rw [View.readCov_unit_zero _ zero_off1]
    simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]
  iexists _; isplitr
  swap; · iexact H5
  ipureintro
  sl_unfold_run_names
  rw [View.read_writes_eq_canon _ _ _ (fun y => ⟨_, List.mem_cons_self .., View.mem_set_unit_zero zero_off1 inb_S2048x64_S2048x64_0_0 y⟩)]
  rw [View.canon_cons_unit_zero zero_off1]
  simp only [View.readAt_eq_ld, View.ld_unit_zero (S := S2048x64) zero_off1, View.ld_unit_zero (S := S64x64) zero_off1, View.ld_unit_zero (S := S2048x2048) zero_off1, View.ld_unit_zero (S := S2048x64) zero_off1, View.ld_unit_zero (S := S1x64) zero_off1]

/-! ## What the accumulator holds after each point -/

/-- The accumulator after the body at position `n`: the point's product added to zero at the first reduction tile of a
    row tile, and to what the point before left otherwise. -/
def acc1 (c : Dev nD) : (n : ℕ) → n < cfg1.N → Vec F S2048x64 .f32
  | 0, hn => k1_pay2 (iblk1 V c 1 ⟨0, hn⟩) (iblk1 V c 2 ⟨0, hn⟩) (k1_pay1 (F := F)) (iblk1 V c 0 ⟨0, hn⟩)
  | n + 1, hn => k1_pay2 (iblk1 V c 1 ⟨n + 1, hn⟩) (iblk1 V c 2 ⟨n + 1, hn⟩)
      (if (n + 1) % 8 = 0 then (k1_pay1 (F := F)) else acc1 c n (Nat.lt_of_succ_lt hn)) (iblk1 V c 0 ⟨n + 1, hn⟩)

theorem acc1_first (c : Dev nD) (t : Fin cfg1.N) (h0 : t.val % 8 = 0) :
    acc1 V c t.val t.isLt = k1_pay2 (iblk1 V c 1 t) (iblk1 V c 2 t) (k1_pay1 (F := F)) (iblk1 V c 0 t) := by
  obtain ⟨n, hn⟩ := t
  cases n with
  | zero => rfl
  | succ n =>
    have e : acc1 V c (n + 1) hn = k1_pay2 (iblk1 V c 1 ⟨n + 1, hn⟩) (iblk1 V c 2 ⟨n + 1, hn⟩)
      (if (n + 1) % 8 = 0 then (k1_pay1 (F := F)) else acc1 V c n (Nat.lt_of_succ_lt hn)) (iblk1 V c 0 ⟨n + 1, hn⟩) := rfl
    exact e.trans (by rw [if_pos h0])

theorem acc1_step (c : Dev nD) (t : Fin cfg1.N) (h0 : ¬t.val % 8 = 0) :
    acc1 V c t.val t.isLt = k1_pay2 (iblk1 V c 1 t) (iblk1 V c 2 t) (acc1 V c (t.val - 1) (Nat.lt_of_le_of_lt (Nat.sub_le _ _) t.isLt)) (iblk1 V c 0 t) := by
  obtain ⟨n, hn⟩ := t
  cases n with
  | zero => exact absurd (Nat.zero_mod _) h0
  | succ n =>
    have e : acc1 V c (n + 1) hn = k1_pay2 (iblk1 V c 1 ⟨n + 1, hn⟩) (iblk1 V c 2 ⟨n + 1, hn⟩)
      (if (n + 1) % 8 = 0 then (k1_pay1 (F := F)) else acc1 V c n (Nat.lt_of_succ_lt hn)) (iblk1 V c 0 ⟨n + 1, hn⟩) := rfl
    exact e.trans (by rw [if_neg h0]; rfl)

/-- The region's invariant before position `n`: before the first point what the region was handed; afterwards the
    accumulator at what the point before left, the other scoped buffers unopened, the generator register at some state. -/
def Phi1 (c : Dev nD) : (n : ℕ) → n ≤ cfg1.N → sProp 𝕄
  | 0, _ => Pipeline.ΦA spec1 c
  | n + 1, hn => iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r)) := rfl

theorem Phi1_pos (c : Dev nD) (n : ℕ) (h : n ≤ cfg1.N) (hz : n ≠ 0) :
    Phi1 V c n h = iprop(iprop(iprop(owns (c : Thread nD τ) scM1 fullShare (acc1 V c (n - 1) (by omega))) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- After the body at point `t`: each input's buffer at its block; the output's at the accumulator plus the bias row
    (consulted only where the block is written back, k = 7); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (acc1 V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  rw [show (dat1 V c).leavesExact 2 t = owns (c : Thread nD τ) (ms1_2 t) fullShare ((dat1 V c).after 2 t) from by
    unfold Dat.leavesExact; rfl, after1_2]
  rw [show (dat1 V c).leavesExact 3 t = owns (c : Thread nD τ) (ms1_3 t) fullShare ((dat1 V c).after 3 t) from by
    unfold Dat.leavesExact; rfl, after1_3]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_first V c t h0]
    by_cases hz : t.val = 0
    · rw [Phi1_castSucc V c t, Phi1_zero V c _ _ hz, PhiA1_eq]
      iintro ⟨⟨⟨⟨%ds, HS⟩, Hb⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond1_0 (grid1.coords t) := fun h => h0 ((hcond1_0 t).mp h)
    rw [acc1_step V c t h0]
    by_cases h1 : t.val % 8 = 7
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, acc1_step V c t h0]
      rw [Phi1_castSucc V c t, Phi1_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      rw [Phi1_castSucc V c t, Phi1_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives that back: the accumulator's contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨HS, Hb⟩, Hg⟩
  isplitl [HS Hb]
  · isplitl [HS]; · iexists _; iexact HS
    iexact Hb
  iexact Hg

theorem hout1 (c : Dev nD) : (dat1 V c).Φ (Fin.last cfg1.N) ⊢ Pipeline.ΦA spec1 c :=
  Phi1_out V c _ (by rw [Fin.val_last]; have : cfg1.N = 64 := N_1; omega)

end Region1

end Cert.KernelIdeal.Gen

end
-- ==== Proof.KI.Region2.lean ====
import proofs.«114686_j10720238371126_2_alg».proof.Proof.Gen.KernelIdeal.Launch
import proofs.«114686_j10720238371126_2_alg».proof.Proof.Gen.KernelIdeal.Skeleton
import proofs.«114686_j10720238371126_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one aggregation layer, tiled

The kernel of this region walks an 8 × 8 grid (row tile i, reduction tile k; the point's number is 8 i + k). At a point it
projects the current 2048-row block of the features through the weights, multiplies the current 2048 × 2048 block of the
adjacency with that projection and ADDS the product to an accumulator kept in scratch between points: the accumulator is
reset to zero at k = 0, and at k = 7 the accumulator plus the bias row is stored into the output block, which is written
back there and nowhere else. Everything is stated at the contents `V` the region finds in the buffers. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- "This is the first reduction tile" (k = 0), as the body computes it. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- "This is the last reduction tile" (k = 7). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- Away from the last reduction tile the output window is idle and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last reduction tile it is live. -/
theorem liveAt2_4 : ∀ t : Fin cfg2.N, cond2_1 (grid2.coords t) → cfg2.idle 4 (grid2.coords t) = false := by decide +kernel

/-- Each window's current staging memref at point `t`, and its wholeness. -/
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x64 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2 : Memref sig .tc .vmem S2048x64 .f32 := Memref.whole cc2_scratch0

/-- What the region hands the body besides the windows: the accumulator at some contents, the other scoped buffers
    unopened, the generator register at some state. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's triple, case by case

On whole memrefs at given contents the body runs to the continuation with the four input buffers as they were, the
accumulator at the point's product added to what it held (to zero at k = 0), and the output block either untouched
or, at k = 7, at the accumulator plus the bias row. A whole-buffer store leaves its payload; a whole-buffer load
reads the contents. -/

theorem zero_off2 : (![0, 0] : Fin 2 → ℕ) = fun _ => 0 := by funext a; fin_cases a <;> rfl

set_option maxHeartbeats 4000000 in
/-- k = 0 (and not the last tile): the accumulator is reset, then holds the point's product added to zero. -/
theorem run2_A (c : Dev nD) (i : grid2.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : cond2_0 i) (hc1 : ¬cond2_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k2_pay2 x1 x2 (k2_pay1 (F := F)) x0)) -∗ K ⟨⟩))
      ⊢ wp frame (wpE (defs₀ (F := F)) Variants.none c none) E (cc2__gcn_agg_kernel i arg2 harg2 arg3 harg3 arg4 harg4 arg5 harg5 arg6 harg6 arg7 harg7) K := by
  simp only [cc2__gcn_agg_kernel_eq_skeleton]; unfold cc2__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off2 inb_S2048x64_S2048x64_0_0 y⟩)]
  rw [View.canon_cons_unit_zero zero_off2]
  sl_unfold_run_names
  rw [View.readCov_unit_zero _ zero_off2]
  simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]

set_option maxHeartbeats 4000000 in
/-- 0 < k < 7: the accumulator holds the point's product added to what it held. -/
theorem run2_B (c : Dev nD) (i : grid2.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond2_0 i) (hc1 : ¬cond2_1 i) (x0 : Vec F S2048x2048 .bf16) (x1 : Vec F S2048x64 .f32) (x2 : Vec F S64x64 .f32) (x3 : Vec F S1x64 .f32) (xi : Vec F S2048x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k2_pay2 x1 x2 xs x0)) -∗ K ⟨⟩))
      ⊢ wp frame (wpE (defs₀ (F := F)) Variants.none c none) E (cc2__gcn_agg_kernel i arg2 harg2 arg3 harg3 arg4 harg4 arg5 harg5 arg6 harg6 arg7 harg7) K := by
  simp only [cc2__gcn_agg_kernel_eq_skeleton]; unfold cc2__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off2 inb_S2048x64_S2048x64_0_0 y⟩)]
  rw [View.canon_cons_unit_zero zero_off2]
  simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]

set_option maxHeartbeats 4000000 in
/-- k = 7: the accumulator as in the middle tiles, and the output block at the accumulator plus the bias row. -/
theorem run2_C (c : Dev nD) (i : grid2.Coords) (arg2 : Memref sig .tc .vmem S2048x2048 .bf16) (harg2 : arg2.IsWhole) (arg3 : Memref sig .tc .vmem S2048x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2048x64 .f32) (harg7 : arg7.IsWhole)
    (hc0 : ¬cond2_0 i) (hc1 : cond2_1 i) (x0 : Vec F S2048x2048 .bf16) (x1 : Vec F S2048x64 .f32) (x2 : Vec F S64x64 .f32) (x3 : Vec F S1x64 .f32) (xs : Vec F S2048x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay3 (k2_pay2 x1 x2 xs x0) x3) ∗ owns (c : Thread nD τ) arg7 fullShare (k2_pay2 x1 x2 xs x0)) -∗ K ⟨⟩))
      ⊢ wp frame (wpE (defs₀ (F := F)) Variants.none c none) E (cc2__gcn_agg_kernel i arg2 harg2 arg3 harg3 arg4 harg4 arg5 harg5 arg6 harg6 arg7 harg7) K := by
  simp only [cc2__gcn_agg_kernel_eq_skeleton]; unfold cc2__gcn_agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero zero_off2 inb_S2048x64_S2048x64_0_0 y⟩)]
    rw [View.canon_cons_unit_zero zero_off2]
    sl_unfold_run_names
    rw [View.readCov_unit_zero _ zero_off2]
    simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]
  iexists _; isplitr
  swap; · iexact H5
  ipureintro
  sl_unfold_run_names
  rw [View.read_writes_eq_canon _ _ _ (fun y => ⟨_, List.mem_cons_self .., View.mem_set_unit_zero zero_off2 inb_S2048x64_S2048x64_0_0 y⟩)]
  rw [View.canon_cons_unit_zero zero_off2]
  simp only [View.readAt_eq_ld, View.ld_unit_zero (S := S2048x64) zero_off2, View.ld_unit_zero (S := S64x64) zero_off2, View.ld_unit_zero (S := S2048x2048) zero_off2, View.ld_unit_zero (S := S2048x64) zero_off2, View.ld_unit_zero (S := S1x64) zero_off2]

/-! ## What the accumulator holds after each point -/

/-- The accumulator after the body at position `n`: the point's product added to zero at the first reduction tile of a
    row tile, and to what the point before left otherwise. -/
def acc2 (c : Dev nD) : (n : ℕ) → n < cfg2.N → Vec F S2048x64 .f32
  | 0, hn => k2_pay2 (iblk2 V c 1 ⟨0, hn⟩) (iblk2 V c 2 ⟨0, hn⟩) (k2_pay1 (F := F)) (iblk2 V c 0 ⟨0, hn⟩)
  | n + 1, hn => k2_pay2 (iblk2 V c 1 ⟨n + 1, hn⟩) (iblk2 V c 2 ⟨n + 1, hn⟩)
      (if (n + 1) % 8 = 0 then (k2_pay1 (F := F)) else acc2 c n (Nat.lt_of_succ_lt hn)) (iblk2 V c 0 ⟨n + 1, hn⟩)

theorem acc2_first (c : Dev nD) (t : Fin cfg2.N) (h0 : t.val % 8 = 0) :
    acc2 V c t.val t.isLt = k2_pay2 (iblk2 V c 1 t) (iblk2 V c 2 t) (k2_pay1 (F := F)) (iblk2 V c 0 t) := by
  obtain ⟨n, hn⟩ := t
  cases n with
  | zero => rfl
  | succ n =>
    have e : acc2 V c (n + 1) hn = k2_pay2 (iblk2 V c 1 ⟨n + 1, hn⟩) (iblk2 V c 2 ⟨n + 1, hn⟩)
      (if (n + 1) % 8 = 0 then (k2_pay1 (F := F)) else acc2 V c n (Nat.lt_of_succ_lt hn)) (iblk2 V c 0 ⟨n + 1, hn⟩) := rfl
    exact e.trans (by rw [if_pos h0])

theorem acc2_step (c : Dev nD) (t : Fin cfg2.N) (h0 : ¬t.val % 8 = 0) :
    acc2 V c t.val t.isLt = k2_pay2 (iblk2 V c 1 t) (iblk2 V c 2 t) (acc2 V c (t.val - 1) (Nat.lt_of_le_of_lt (Nat.sub_le _ _) t.isLt)) (iblk2 V c 0 t) := by
  obtain ⟨n, hn⟩ := t
  cases n with
  | zero => exact absurd (Nat.zero_mod _) h0
  | succ n =>
    have e : acc2 V c (n + 1) hn = k2_pay2 (iblk2 V c 1 ⟨n + 1, hn⟩) (iblk2 V c 2 ⟨n + 1, hn⟩)
      (if (n + 1) % 8 = 0 then (k2_pay1 (F := F)) else acc2 V c n (Nat.lt_of_succ_lt hn)) (iblk2 V c 0 ⟨n + 1, hn⟩) := rfl
    exact e.trans (by rw [if_neg h0]; rfl)

/-- The region's invariant before position `n`: before the first point what the region was handed; afterwards the
    accumulator at what the point before left, the other scoped buffers unopened, the generator register at some state. -/
def Phi2 (c : Dev nD) : (n : ℕ) → n ≤ cfg2.N → sProp 𝕄
  | 0, _ => Pipeline.ΦA spec2 c
  | n + 1, hn => iprop(iprop(iprop(owns (c : Thread nD τ) scM2 fullShare (acc2 V c n hn)) ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2 fullShare (acc2 V c n hn)) ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(iprop(owns (c : Thread nD τ) scM2 fullShare (acc2 V c (n - 1) (by omega))) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- After the body at point `t`: each input's buffer at its block; the output's at the accumulator plus the bias row
    (consulted only where the block is written back, k = 7); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt) (iblk2 V c 3 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay3 (acc2 V c t.val t.isLt) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rfl, after2_0]
  rw [show (dat2 V c).leavesExact 1 t = owns (c : Thread nD τ) (ms2_1 t) fullShare ((dat2 V c).after 1 t) from by
    unfold Dat.leavesExact; rfl, after2_1]
  rw [show (dat2 V c).leavesExact 2 t = owns (c : Thread nD τ) (ms2_2 t) fullShare ((dat2 V c).after 2 t) from by
    unfold Dat.leavesExact; rfl, after2_2]
  rw [show (dat2 V c).leavesExact 3 t = owns (c : Thread nD τ) (ms2_3 t) fullShare ((dat2 V c).after 3 t) from by
    unfold Dat.leavesExact; rfl, after2_3]
  have hN : t.val < 64 := lt_of_lt_of_eq t.isLt (show cfg2.N = 64 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 4 t (idleAt2_4 t hc1) (noFlush2_4 t hc1)]
    rw [acc2_first V c t h0]
    by_cases hz : t.val = 0
    · rw [Phi2_castSucc V c t, Phi2_zero V c _ _ hz, PhiA2_eq]
      iintro ⟨⟨⟨⟨%ds, HS⟩, Hb⟩, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, Phi2_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run2_A c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond2_0 (grid2.coords t) := fun h => h0 ((hcond2_0 t).mp h)
    rw [acc2_step V c t h0]
    by_cases h1 : t.val % 8 = 7
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4, acc2_step V c t h0]
      rw [Phi2_castSucc V c t, Phi2_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run2_C c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      rw [Phi2_castSucc V c t, Phi2_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run2_B c (grid2.coords t) (ms2_0 t) (hs2_0 t) (ms2_1 t) (hs2_1 t) (ms2_2 t) (hs2_2 t) (ms2_3 t) (hs2_3 t) (ms2_4 t) (hs2_4 t) scM2 (Memref.isWhole_whole _) hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives that back: the accumulator's contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, Hb⟩, Hg⟩
  isplitl [HS Hb]
  · isplitl [HS]; · iexists _; iexact HS
    iexact Hb
  iexact Hg

theorem hout2 (c : Dev nD) : (dat2 V c).Φ (Fin.last cfg2.N) ⊢ Pipeline.ΦA spec2 c :=
  Phi2_out V c _ (by rw [Fin.val_last]; have : cfg2.N = 64 := N_2; omega)

end Region2

end Cert.KernelIdeal.Gen

end
-- ==== Proof.KI.Region3.lean ====
import proofs.«114686_j10720238371126_2_alg».proof.Proof.Gen.KernelIdeal.Launch
import proofs.«114686_j10720238371126_2_alg».proof.Proof.Gen.KernelIdeal.Skeleton
import proofs.«114686_j10720238371126_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one aggregation layer, tiled

The kernel of this region walks an 8 × 8 grid (row tile i, reduction tile k; the point's number is 8 i + k). At a point it
projects the current 2048-row block of the features through the weights, multiplies the current 2048 × 2048 block of the
adjacency with that projection and ADDS the product to an accumulator kept in scratch between points: the accumulator is
reset to zero at k = 0, and at k = 7 the accumulator plus the bias row is stored into the output block, which is written
back there and nowhere else. Everything is stated at the contents `V` the region finds in the buffers. -/

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- "This is the first reduction tile" (k = 0), as the body computes it. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- "This is the last reduction tile" (k = 7). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- Away from the last reduction tile the output window is idle and is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last reduction tile it is live. -/
theorem liveAt3_4 : ∀ t : Fin cfg3.N, cond3_1 (grid3.coords t) → cfg3.idle 4 (grid3.coords t) = false := by decide +kernel

/-- Each window's current staging memref at point `t`, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x16 .f32 := win3_4.stage (cfg3.slots t 4)
abbrev hs3_4 (t : Fin cfg3.N) : (ms3_4 t).IsWhole := hstage3_4 ((cfg3.slots t 4).cast nbuf3_4)
/-- The accumulator: a whole scoped buffer of the kernel's own. -/
abbrev scM3 : Memref sig .tc .vmem S2048x16 .f32 := Memref.whole cc3_scratch0

/-- What the region hands the body besides the windows: the accumulator at some contents, the other scoped buffers
    unopened, the generator register at some state. -/
theorem PhiA3_eq (c : Dev nD) :
    (Pipeline.ΦA spec3 c : sProp 𝕄)
      = iprop(iprop(iprop((∃ d, owns (c : Thread nD τ) scM3 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case

On whole memrefs at given contents the body runs to the continuation with the four input buffers as they were, the
accumulator at the point's product added to what it held (to zero at k = 0), and the output block either untouched
or, at k = 7, at the accumulator plus the bias row. A whole-buffer store leaves its payload; a whole-buffer load
reads the contents. -/

theorem zero_off3 : (![0, 0] : Fin 2 → ℕ) = fun _ => 0 := by funext a; fin_cases a <;> rfl

set_option maxHeartbeats 4000000 in
/-- k = 0 (and not the last tile): the accumulator is reset, then holds the point's product added to zero. -/
theorem run3_A (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S2048x16 .f32) (harg6 : arg6.IsWhole) (arg7 : Memref sig .tc .vmem S2048x16 .f32) (harg7 : arg7.IsWhole)
    (hc0 : cond3_0 i) (hc1 : ¬cond3_1 i) (x0 : Vec F S2048x2048 .bf16) (x1 : Vec F S2048x64 .f32) (x2 : Vec F S64x16 .f32) (x3 : Vec F S1x16 .f32) (xi : Vec F S2048x16 .f32) (xs : Vec F S2048x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k3_pay2 x1 x2 (k3_pay1 (F := F)) x0)) -∗ K ⟨⟩))
      ⊢ wp frame (wpE (defs₀ (F := F)) Variants.none c none) E (cc3__gcn_agg_kernel i arg2 harg2 arg3 harg3 arg4 harg4 arg5 harg5 arg6 harg6 arg7 harg7) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off3 inb_S2048x16_S2048x16_0_0 y⟩)]
  rw [View.canon_cons_unit_zero zero_off3]
  sl_unfold_run_names
  rw [View.readCov_unit_zero _ zero_off3]
  simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]

set_option maxHeartbeats 4000000 in
/-- 0 < k < 7: the accumulator holds the point's product added to what it held. -/
theorem run3_B (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S2048x16 .f32) (harg6 : arg6.IsWhole) (arg7 : Memref sig .tc .vmem S2048x16 .f32) (harg7 : arg7.IsWhole)
    (hc0 : ¬cond3_0 i) (hc1 : ¬cond3_1 i) (x0 : Vec F S2048x2048 .bf16) (x1 : Vec F S2048x64 .f32) (x2 : Vec F S64x16 .f32) (x3 : Vec F S1x16 .f32) (xi : Vec F S2048x16 .f32) (xs : Vec F S2048x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare (k3_pay2 x1 x2 xs x0)) -∗ K ⟨⟩))
      ⊢ wp frame (wpE (defs₀ (F := F)) Variants.none c none) E (cc3__gcn_agg_kernel i arg2 harg2 arg3 harg3 arg4 harg4 arg5 harg5 arg6 harg6 arg7 harg7) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero zero_off3 inb_S2048x16_S2048x16_0_0 y⟩)]
  rw [View.canon_cons_unit_zero zero_off3]
  simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]

set_option maxHeartbeats 4000000 in
/-- k = 7: the accumulator as in the middle tiles, and the output block at the accumulator plus the bias row. -/
theorem run3_C (c : Dev nD) (i : grid3.Coords) (arg2 : Memref sig .tc .vmem S2048x2048 .bf16) (harg2 : arg2.IsWhole) (arg3 : Memref sig .tc .vmem S2048x64 .f32) (harg3 : arg3.IsWhole) (arg4 : Memref sig .tc .vmem S64x16 .f32) (harg4 : arg4.IsWhole) (arg5 : Memref sig .tc .vmem S1x16 .f32) (harg5 : arg5.IsWhole) (arg6 : Memref sig .tc .vmem S2048x16 .f32) (harg6 : arg6.IsWhole) (arg7 : Memref sig .tc .vmem S2048x16 .f32) (harg7 : arg7.IsWhole)
    (hc0 : ¬cond3_0 i) (hc1 : cond3_1 i) (x0 : Vec F S2048x2048 .bf16) (x1 : Vec F S2048x64 .f32) (x2 : Vec F S64x16 .f32) (x3 : Vec F S1x16 .f32) (xs : Vec F S2048x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k3_pay3 (k3_pay2 x1 x2 xs x0) x3) ∗ owns (c : Thread nD τ) arg7 fullShare (k3_pay2 x1 x2 xs x0)) -∗ K ⟨⟩))
      ⊢ wp frame (wpE (defs₀ (F := F)) Variants.none c none) E (cc3__gcn_agg_kernel i arg2 harg2 arg3 harg3 arg4 harg4 arg5 harg5 arg6 harg6 arg7 harg7) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero zero_off3 inb_S2048x16_S2048x16_0_0 y⟩)]
    rw [View.canon_cons_unit_zero zero_off3]
    sl_unfold_run_names
    rw [View.readCov_unit_zero _ zero_off3]
    simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]
  iexists _; isplitr
  swap; · iexact H5
  ipureintro
  sl_unfold_run_names
  rw [View.read_writes_eq_canon _ _ _ (fun y => ⟨_, List.mem_cons_self .., View.mem_set_unit_zero zero_off3 inb_S2048x16_S2048x16_0_0 y⟩)]
  rw [View.canon_cons_unit_zero zero_off3]
  simp only [View.readAt_eq_ld, View.ld_unit_zero (S := S2048x64) zero_off3, View.ld_unit_zero (S := S64x16) zero_off3, View.ld_unit_zero (S := S2048x2048) zero_off3, View.ld_unit_zero (S := S2048x16) zero_off3, View.ld_unit_zero (S := S1x16) zero_off3]

/-! ## What the accumulator holds after each point -/

/-- The accumulator after the body at position `n`: the point's product added to zero at the first reduction tile of a
    row tile, and to what the point before left otherwise. -/
def acc3 (c : Dev nD) : (n : ℕ) → n < cfg3.N → Vec F S2048x16 .f32
  | 0, hn => k3_pay2 (iblk3 V c 1 ⟨0, hn⟩) (iblk3 V c 2 ⟨0, hn⟩) (k3_pay1 (F := F)) (iblk3 V c 0 ⟨0, hn⟩)
  | n + 1, hn => k3_pay2 (iblk3 V c 1 ⟨n + 1, hn⟩) (iblk3 V c 2 ⟨n + 1, hn⟩)
      (if (n + 1) % 8 = 0 then (k3_pay1 (F := F)) else acc3 c n (Nat.lt_of_succ_lt hn)) (iblk3 V c 0 ⟨n + 1, hn⟩)

theorem acc3_first (c : Dev nD) (t : Fin cfg3.N) (h0 : t.val % 8 = 0) :
    acc3 V c t.val t.isLt = k3_pay2 (iblk3 V c 1 t) (iblk3 V c 2 t) (k3_pay1 (F := F)) (iblk3 V c 0 t) := by
  obtain ⟨n, hn⟩ := t
  cases n with
  | zero => rfl
  | succ n =>
    have e : acc3 V c (n + 1) hn = k3_pay2 (iblk3 V c 1 ⟨n + 1, hn⟩) (iblk3 V c 2 ⟨n + 1, hn⟩)
      (if (n + 1) % 8 = 0 then (k3_pay1 (F := F)) else acc3 V c n (Nat.lt_of_succ_lt hn)) (iblk3 V c 0 ⟨n + 1, hn⟩) := rfl
    exact e.trans (by rw [if_pos h0])

theorem acc3_step (c : Dev nD) (t : Fin cfg3.N) (h0 : ¬t.val % 8 = 0) :
    acc3 V c t.val t.isLt = k3_pay2 (iblk3 V c 1 t) (iblk3 V c 2 t) (acc3 V c (t.val - 1) (Nat.lt_of_le_of_lt (Nat.sub_le _ _) t.isLt)) (iblk3 V c 0 t) := by
  obtain ⟨n, hn⟩ := t
  cases n with
  | zero => exact absurd (Nat.zero_mod _) h0
  | succ n =>
    have e : acc3 V c (n + 1) hn = k3_pay2 (iblk3 V c 1 ⟨n + 1, hn⟩) (iblk3 V c 2 ⟨n + 1, hn⟩)
      (if (n + 1) % 8 = 0 then (k3_pay1 (F := F)) else acc3 V c n (Nat.lt_of_succ_lt hn)) (iblk3 V c 0 ⟨n + 1, hn⟩) := rfl
    exact e.trans (by rw [if_neg h0]; rfl)

/-- The region's invariant before position `n`: before the first point what the region was handed; afterwards the
    accumulator at what the point before left, the other scoped buffers unopened, the generator register at some state. -/
def Phi3 (c : Dev nD) : (n : ℕ) → n ≤ cfg3.N → sProp 𝕄
  | 0, _ => Pipeline.ΦA spec3 c
  | n + 1, hn => iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(iprop(owns (c : Thread nD τ) scM3 fullShare (acc3 V c (n - 1) (by omega))) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- After the body at point `t`: each input's buffer at its block; the output's at the accumulator plus the bias row
    (consulted only where the block is written back, k = 7); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (acc3 V c t.val t.isLt) (iblk3 V c 3 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay3 (acc3 V c t.val t.isLt) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' buffers hold their blocks; the point's position in its row tile says which case
    runs; the invariant hands the body the accumulator at what the point before left (at anything at the very first
    point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rfl, after3_0]
  rw [show (dat3 V c).leavesExact 1 t = owns (c : Thread nD τ) (ms3_1 t) fullShare ((dat3 V c).after 1 t) from by
    unfold Dat.leavesExact; rfl, after3_1]
  rw [show (dat3 V c).leavesExact 2 t = owns (c : Thread nD τ) (ms3_2 t) fullShare ((dat3 V c).after 2 t) from by
    unfold Dat.leavesExact; rfl, after3_2]
  rw [show (dat3 V c).leavesExact 3 t = owns (c : Thread nD τ) (ms3_3 t) fullShare ((dat3 V c).after 3 t) from by
    unfold Dat.leavesExact; rfl, after3_3]
  have hN : t.val < 64 := lt_of_lt_of_eq t.isLt (show cfg3.N = 64 from N_3)
  by_cases h0 : t.val % 8 = 0
  · have h1 : ¬t.val % 8 = 7 := by omega
    have hc0 : cond3_0 (grid3.coords t) := (hcond3_0 t).mpr h0
    have hc1 : ¬cond3_1 (grid3.coords t) := fun h => h1 ((hcond3_1 t).mp h)
    rw [Dat.leavesExact_idle (dat3 V c) 4 t (idleAt3_4 t hc1) (noFlush3_4 t hc1)]
    rw [acc3_first V c t h0]
    by_cases hz : t.val = 0
    · rw [Phi3_castSucc V c t, Phi3_zero V c _ _ hz, PhiA3_eq]
      iintro ⟨⟨⟨⟨%ds, HS⟩, Hb⟩, Hg⟩, Ho, ⟨%d0, H0⟩, ⟨%d1, H1⟩, ⟨%d2, H2⟩, ⟨%d3, H3⟩, ⟨%d4, H4⟩⟩
      iapply (run3_A c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [Phi3_castSucc V c t, Phi3_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run3_A c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond3_0 (grid3.coords t) := fun h => h0 ((hcond3_0 t).mp h)
    rw [acc3_step V c t h0]
    by_cases h1 : t.val % 8 = 7
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4, acc3_step V c t h0]
      rw [Phi3_castSucc V c t, Phi3_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run3_C c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      rw [Phi3_castSucc V c t, Phi3_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (run3_B c (grid3.coords t) (ms3_0 t) (hs3_0 t) (ms3_1 t) (hs3_1 t) (ms3_2 t) (hs3_2 t) (ms3_3 t) (hs3_3 t) (ms3_4 t) (hs3_4 t) scM3 (Memref.isWhole_whole _) hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives that back: the accumulator's contents are forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨HS, Hb⟩, Hg⟩
  isplitl [HS Hb]
  · isplitl [HS]; · iexists _; iexact HS
    iexact Hb
  iexact Hg

theorem hout3 (c : Dev nD) : (dat3 V c).Φ (Fin.last cfg3.N) ⊢ Pipeline.ΦA spec3 c :=
  Phi3_out V c _ (by rw [Fin.val_last]; have : cfg3.N = 64 := N_3; omega)

end Region3

end Cert.KernelIdeal.Gen

end
-- ==== Proof.KI.Run.lean ====
/-
  THE RUN of @main: four host stretches and four kernel regions, in @main's order,

      hostOps0 ; region 0 ; hostOps1 ; region 1 ; hostOps2 ; region 2 ; hostOps3 ; region 3.

  The contents of a core's unscoped buffers are followed through the eight segments as a fold from the launch
  memory (W0 … W8): a host stretch rewrites the buffers its operations write (StableHlo.after), a region leaves each
  of its windowed arrays at what its write-backs have folded into it by the last grid point and every other buffer
  as it found it (Pipeline.withArrays). Each region's proof data are taken at the contents the region is ENTERED
  with, so the four regions' halves — stated at an arbitrary entry contents — are instantiated at W1, W3, W5, W7.

  The thread state between two segments is: every unscoped buffer whole at the boundary's contents, the core's
  generator register at some state, and the core owing nothing. A region borrows its arrays out of the unscoped
  buffers at entry and returns them at exit; its invariant takes the generator register and the scoped scratch at
  the first point and gives them back at the last.

  The run's conclusion: the program terminates without fault and every unscoped buffer ends at W8. From that, the
  eight arguments end as launched (no stretch writes one; a region only reads one, through an input window, or does
  not touch it), and the result buffer ends at region 3's last output array.
-/
import proofs.«114686_j10720238371126_2_alg».proof.Proof.KI.Region0
import proofs.«114686_j10720238371126_2_alg».proof.Proof.KI.Region1
import proofs.«114686_j10720238371126_2_alg».proof.Proof.KI.Region2
import proofs.«114686_j10720238371126_2_alg».proof.Proof.KI.Region3
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a host stretch leaves alone

A stretch's operations each write one buffer (their result); any other buffer reads the same before and after. -/

/-- `hostOps0` writes `main_v0` only. -/
theorem keeps0 (W : Valuation τ sig (Elt F)) (b : Ref sig .tc) (hb : b ∉ ([main_v0] : List (Ref sig .tc))) :
    StableHlo.after hostOps0 W (Proc.devRef .tc b) = W (Proc.devRef .tc b) := by
  refine StableHlo.after_of_forall_not_mem (b := Proc.devRef .tc b) _ _ (List.forall_iff_forall_mem.mp ?_)
  simp only [hostOps0, List.Forall, StableHlo.unary_writes, StableHlo.reshape_writes, Finset.mem_singleton]
  simp only [List.mem_cons, List.not_mem_nil, or_false, not_or] at hb
  exact StableHlo.devRef_ne_of_ne hb
/-- `hostOps1` writes `main_v2`, `main_v3`, `main_v4`, `main_v5`, `main_v6` only. -/
theorem keeps1 (W : Valuation τ sig (Elt F)) (b : Ref sig .tc) (hb : b ∉ ([main_v2, main_v3, main_v4, main_v5, main_v6] : List (Ref sig .tc))) :
    StableHlo.after hostOps1 W (Proc.devRef .tc b) = W (Proc.devRef .tc b) := by
  refine StableHlo.after_of_forall_not_mem (b := Proc.devRef .tc b) _ _ (List.forall_iff_forall_mem.mp ?_)
  simp only [hostOps1, List.Forall, StableHlo.unary_writes, StableHlo.reshape_writes, Finset.mem_singleton]
  simp only [List.mem_cons, List.not_mem_nil, or_false, not_or] at hb
  exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩
/-- `hostOps2` writes `main_v8`, `main_v9`, `main_v10`, `main_v11`, `main_v12` only. -/
theorem keeps2 (W : Valuation τ sig (Elt F)) (b : Ref sig .tc) (hb : b ∉ ([main_v8, main_v9, main_v10, main_v11, main_v12] : List (Ref sig .tc))) :
    StableHlo.after hostOps2 W (Proc.devRef .tc b) = W (Proc.devRef .tc b) := by
  refine StableHlo.after_of_forall_not_mem (b := Proc.devRef .tc b) _ _ (List.forall_iff_forall_mem.mp ?_)
  simp only [hostOps2, List.Forall, StableHlo.unary_writes, StableHlo.reshape_writes, Finset.mem_singleton]
  simp only [List.mem_cons, List.not_mem_nil, or_false, not_or] at hb
  exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩
/-- `hostOps3` writes `main_v14` only. -/
theorem keeps3 (W : Valuation τ sig (Elt F)) (b : Ref sig .tc) (hb : b ∉ ([main_v14] : List (Ref sig .tc))) :
    StableHlo.after hostOps3 W (Proc.devRef .tc b) = W (Proc.devRef .tc b) := by
  refine StableHlo.after_of_forall_not_mem (b := Proc.devRef .tc b) _ _ (List.forall_iff_forall_mem.mp ?_)
  simp only [hostOps3, List.Forall, StableHlo.unary_writes, StableHlo.reshape_writes, Finset.mem_singleton]
  simp only [List.mem_cons, List.not_mem_nil, or_false, not_or] at hb
  exact StableHlo.devRef_ne_of_ne hb

/-! ## The buffer contents at the nine segment boundaries -/

/-- The launch state: the given memory, every semaphore at zero, the given generator registers. -/
abbrev launchSt : MemSt nD τ sig (Elt F) := ⟨m, fun _ => 0, ρ⟩
/-- Core `c`'s buffers at launch. -/
abbrev W0 : Dev nD → Valuation τ sig (Elt F) := fun c b => (launchSt m ρ).mem ((c : Dev nD), b)

/-- After `hostOps0`: what region 0 is entered with. -/
abbrev W1 : Dev nD → Valuation τ sig (Elt F) := fun c => StableHlo.after hostOps0 (W0 m ρ c)
/-- The same, read at the TensorCore's references: the entry contents region 0's proof data are taken at. -/
abbrev V1 : (c : Dev nD) → (b : Ref sig .tc) → Buf (Elt F) ((c : Thread nD τ).loc b) := fun c b => W1 m ρ c b
/-- When region 0 returns: each of its arrays at what the pipeline has folded into it by the last point (an input's
    array is never written, so it is as entered), every other buffer as entered. -/
def W2 (c : Dev nD) : Valuation τ sig (Elt F) :=
  Pipeline.withArrays spec0 c (W1 m ρ c) fun w => (dat0 (V1 m ρ) c).arrAt w cfg0.N
/-- `W2` at one of region 0's arrays. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- `W2` at a buffer that is none of region 0's arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
/-- The two facts the exit's reassembly of the unscoped buffers asks for: the arrays hold the pipeline's final
    contents, the rest holds what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: what region 1 is entered with. -/
abbrev W3 : Dev nD → Valuation τ sig (Elt F) := fun c => StableHlo.after hostOps1 (W2 m ρ c)
/-- The same, read at the TensorCore's references: the entry contents region 1's proof data are taken at. -/
abbrev V3 : (c : Dev nD) → (b : Ref sig .tc) → Buf (Elt F) ((c : Thread nD τ).loc b) := fun c b => W3 m ρ c b
/-- When region 1 returns: each of its arrays at what the pipeline has folded into it by the last point (an input's
    array is never written, so it is as entered), every other buffer as entered. -/
def W4 (c : Dev nD) : Valuation τ sig (Elt F) :=
  Pipeline.withArrays spec1 c (W3 m ρ c) fun w => (dat1 (V3 m ρ) c).arrAt w cfg1.N
/-- `W4` at one of region 1's arrays. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- `W4` at a buffer that is none of region 1's arrays. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents at the TensorCore's references. -/
abbrev V4 : (c : Dev nD) → (b : Ref sig .tc) → Buf (Elt F) ((c : Thread nD τ).loc b) := fun c b => W4 m ρ c b
/-- The two facts the exit's reassembly of the unscoped buffers asks for: the arrays hold the pipeline's final
    contents, the rest holds what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: what region 2 is entered with. -/
abbrev W5 : Dev nD → Valuation τ sig (Elt F) := fun c => StableHlo.after hostOps2 (W4 m ρ c)
/-- The same, read at the TensorCore's references: the entry contents region 2's proof data are taken at. -/
abbrev V5 : (c : Dev nD) → (b : Ref sig .tc) → Buf (Elt F) ((c : Thread nD τ).loc b) := fun c b => W5 m ρ c b
/-- When region 2 returns: each of its arrays at what the pipeline has folded into it by the last point (an input's
    array is never written, so it is as entered), every other buffer as entered. -/
def W6 (c : Dev nD) : Valuation τ sig (Elt F) :=
  Pipeline.withArrays spec2 c (W5 m ρ c) fun w => (dat2 (V5 m ρ) c).arrAt w cfg2.N
/-- `W6` at one of region 2's arrays. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- `W6` at a buffer that is none of region 2's arrays. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Region 2's exit contents at the TensorCore's references. -/
abbrev V6 : (c : Dev nD) → (b : Ref sig .tc) → Buf (Elt F) ((c : Thread nD τ).loc b) := fun c b => W6 m ρ c b
/-- The two facts the exit's reassembly of the unscoped buffers asks for: the arrays hold the pipeline's final
    contents, the rest holds what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: what region 3 is entered with. -/
abbrev W7 : Dev nD → Valuation τ sig (Elt F) := fun c => StableHlo.after hostOps3 (W6 m ρ c)
/-- The same, read at the TensorCore's references: the entry contents region 3's proof data are taken at. -/
abbrev V7 : (c : Dev nD) → (b : Ref sig .tc) → Buf (Elt F) ((c : Thread nD τ).loc b) := fun c b => W7 m ρ c b
/-- When region 3 returns: each of its arrays at what the pipeline has folded into it by the last point (an input's
    array is never written, so it is as entered), every other buffer as entered. -/
def W8 (c : Dev nD) : Valuation τ sig (Elt F) :=
  Pipeline.withArrays spec3 c (W7 m ρ c) fun w => (dat3 (V7 m ρ) c).arrAt w cfg3.N
/-- `W8` at one of region 3's arrays. -/
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
/-- `W8` at a buffer that is none of region 3's arrays. -/
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- Region 3's exit contents at the TensorCore's references. -/
abbrev V8 : (c : Dev nD) → (b : Ref sig .tc) → Buf (Elt F) ((c : Thread nD τ).loc b) := fun c b => W8 m ρ c b
/-- The two facts the exit's reassembly of the unscoped buffers asks for: the arrays hold the pipeline's final
    contents, the rest holds what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No host operation writes an argument, and a region either reads it through an input window — whose array the
pipeline never writes, so the fold leaves it at its entry contents — or has it among the buffers that bypass the
region. So `W8` at an argument walks back, boundary by boundary, to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := keeps3 _ main_arg0 (by decide)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) := W4_of_ne m ρ c main_arg0 (by decide)
    _ = W2 m ρ c (Proc.devRef .tc main_arg0) := keeps1 _ main_arg0 (by decide)
    _ = W1 m ρ c (Proc.devRef .tc main_arg0) :=
          (W2_arr m ρ c 1).trans (((dat0 (V1 m ρ) c).arrAt_in 1 rfl _).trans (A_eq0 (V1 m ρ) c 1))
    _ = W0 m ρ c (Proc.devRef .tc main_arg0) := keeps0 _ main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := keeps3 _ main_arg1 (by decide)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) :=
          (W2_arr m ρ c 0).trans (((dat0 (V1 m ρ) c).arrAt_in 0 rfl _).trans (A_eq0 (V1 m ρ) c 0))
    _ = W0 m ρ c (Proc.devRef .tc main_arg1) := keeps0 _ main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := keeps3 _ main_arg2 (by decide)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) :=
          (W2_arr m ρ c 2).trans (((dat0 (V1 m ρ) c).arrAt_in 2 rfl _).trans (A_eq0 (V1 m ρ) c 2))
    _ = W0 m ρ c (Proc.devRef .tc main_arg2) := keeps0 _ main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := keeps3 _ main_arg3 (by decide)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := W2_of_ne m ρ c main_arg3 (by decide)
    _ = W0 m ρ c (Proc.devRef .tc main_arg3) := keeps0 _ main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := keeps3 _ main_arg4 (by decide)
    _ = W5 m ρ c (Proc.devRef .tc main_arg4) := W6_of_ne m ρ c main_arg4 (by decide)
    _ = W4 m ρ c (Proc.devRef .tc main_arg4) := keeps2 _ main_arg4 (by decide)
    _ = W3 m ρ c (Proc.devRef .tc main_arg4) := W4_of_ne m ρ c main_arg4 (by decide)
    _ = W2 m ρ c (Proc.devRef .tc main_arg4) := keeps1 _ main_arg4 (by decide)
    _ = W1 m ρ c (Proc.devRef .tc main_arg4) := W2_of_ne m ρ c main_arg4 (by decide)
    _ = W0 m ρ c (Proc.devRef .tc main_arg4) := keeps0 _ main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := keeps3 _ main_arg5 (by decide)
    _ = W5 m ρ c (Proc.devRef .tc main_arg5) := W6_of_ne m ρ c main_arg5 (by decide)
    _ = W4 m ρ c (Proc.devRef .tc main_arg5) := keeps2 _ main_arg5 (by decide)
    _ = W3 m ρ c (Proc.devRef .tc main_arg5) := W4_of_ne m ρ c main_arg5 (by decide)
    _ = W2 m ρ c (Proc.devRef .tc main_arg5) := keeps1 _ main_arg5 (by decide)
    _ = W1 m ρ c (Proc.devRef .tc main_arg5) := W2_of_ne m ρ c main_arg5 (by decide)
    _ = W0 m ρ c (Proc.devRef .tc main_arg5) := keeps0 _ main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) :=
          (W8_arr m ρ c 2).trans (((dat3 (V7 m ρ) c).arrAt_in 2 rfl _).trans (A_eq3 (V7 m ρ) c 2))
    _ = W6 m ρ c (Proc.devRef .tc main_arg6) := keeps3 _ main_arg6 (by decide)
    _ = W5 m ρ c (Proc.devRef .tc main_arg6) := W6_of_ne m ρ c main_arg6 (by decide)
    _ = W4 m ρ c (Proc.devRef .tc main_arg6) := keeps2 _ main_arg6 (by decide)
    _ = W3 m ρ c (Proc.devRef .tc main_arg6) := W4_of_ne m ρ c main_arg6 (by decide)
    _ = W2 m ρ c (Proc.devRef .tc main_arg6) := keeps1 _ main_arg6 (by decide)
    _ = W1 m ρ c (Proc.devRef .tc main_arg6) := W2_of_ne m ρ c main_arg6 (by decide)
    _ = W0 m ρ c (Proc.devRef .tc main_arg6) := keeps0 _ main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := keeps3 _ main_arg7 (by decide)
    _ = W5 m ρ c (Proc.devRef .tc main_arg7) := W6_of_ne m ρ c main_arg7 (by decide)
    _ = W4 m ρ c (Proc.devRef .tc main_arg7) := keeps2 _ main_arg7 (by decide)
    _ = W3 m ρ c (Proc.devRef .tc main_arg7) := W4_of_ne m ρ c main_arg7 (by decide)
    _ = W2 m ρ c (Proc.devRef .tc main_arg7) := keeps1 _ main_arg7 (by decide)
    _ = W1 m ρ c (Proc.devRef .tc main_arg7) := W2_of_ne m ρ c main_arg7 (by decide)
    _ = W0 m ρ c (Proc.devRef .tc main_arg7) := keeps0 _ main_arg7 (by decide)
    _ = m ((c : Thread nD τ).loc main_arg7) := rfl

/-- The result buffer ends at region 3's output array as the pipeline leaves it. -/
theorem W8_result (c : Dev nD) : W8 m ρ c (Proc.devRef .tc main_v15) = (dat3 (V7 m ρ) c).arrAt 4 cfg3.N :=
  W8_arr m ρ c 4

/-! ## The proof data of the four pipelines, and the thread state -/

/-- No pipeline prefetches a table: the admissible table contents are the trivial ones. -/
abbrev adm : (p : Fin 4) → (pcfgs (F := F) p).Adm := fun p => (cfgs p).toPCfg_adm
/-- Every pipeline's proof data, region K's at the contents region K is entered with. Written as a literal
    `match` so that the family at a numeral reduces to that region's data. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything, so no pair of cells is given a level. -/
abbrev L : GSem nD τ sig → Finset Unit := fun _ => ∅
abbrev lv : GSem nD τ sig → Unit → ℕ := fun _ _ => 0
/-- What every segment carries beside the unscoped buffers: the generator register at some state (a region's
    invariant takes it at the first point and returns it at the last) and the core owing nothing. -/
abbrev R (c : Dev nD) : sProp 𝕄 := iprop((∃ r, prngReg c r) ∗ ∃ W, owes (c : Thread nD τ) (0 : CellTallies nD τ sig Unit) W)
/-- A host stretch as a segment over the unscoped buffers: entered with them at `W`, it leaves them at
    `StableHlo.after ops (W c)`, which is the next boundary's contents by definition; `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The regions as segments

The same four steps for each region K, entered with the unscoped buffers at `W(2K+1)` and left with them at `W(2K+2)`.
ENTRY: the region's arrays are split out of the unscoped buffers (the rest bypasses the region); there is no
prefetched table; the `owes` at zero is the proof data's first tally; the generator register goes to the invariant.
FIRST POINT: the class's invariant (scratch at some contents, generator register at some state) is assembled and
turned into the region's own invariant at point 0 (`hinK`: there the scratch accumulator holds anything).
LAST POINT: the region's own invariant gives the class's back (`houtK`), which is taken apart again.
EXIT: the arrays at their final contents and the bypassing buffers are the unscoped buffers at the exit contents. -/

-- applying a library lemma stated over the pinned configuration `pin pcs a p` to the printed configuration needs
-- unification to unfold plain definitions inside a metavariable's type
set_option backward.isDefEq.respectTransparency.types false in
/-- REGION 0 (custom_call 0): from every unscoped buffer at `W1` to every unscoped buffer at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed configuration needs
-- unification to unfold plain definitions inside a metavariable's type
set_option backward.isDefEq.respectTransparency.types false in
/-- REGION 1 (custom_call 1): from every unscoped buffer at `W3` to every unscoped buffer at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed configuration needs
-- unification to unfold plain definitions inside a metavariable's type
set_option backward.isDefEq.respectTransparency.types false in
/-- REGION 2 (custom_call 2): from every unscoped buffer at `W5` to every unscoped buffer at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed configuration needs
-- unification to unfold plain definitions inside a metavariable's type
set_option backward.isDefEq.respectTransparency.types false in
/-- REGION 3 (custom_call 3): from every unscoped buffer at `W7` to every unscoped buffer at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The state region 3 leaves is the last thread state beside the core owing nothing (the same three parts, regrouped). -/
theorem last_state (c : Dev nD) :
    iprop(StableHlo.held (c : Thread nD τ) (Pipeline.ucRefs τ sig) (W8 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as segments, and the launch -/

/-- @main's eight segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items (`main_chain`), and the segments' run unfolds to
    the same chain (checked by definitional unfolding). -/
theorem main_run (c : Dev nD) : main (F := F) c = Pipeline.Seg.run (segs m ρ) := (main_chain c).trans (by chain_rfl)

-- the launch theorem's implicit arguments are found by unifying its conclusion with the statement, which needs
-- unfolding plain definitions inside a metavariable's type
set_option backward.isDefEq.respectTransparency.types false in
/-- THE RUN: at the compiled mesh, from any memory with every semaphore at zero, every weakly fair execution of @main
    on the TensorCores terminates without fault, and in every final state each unscoped buffer of each core holds
    `W8`: the launch, then the eight segments in order, the last thread state read against the final memory. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: @main runs, and its eight argument arrays end as launched — each is an unscoped buffer, which ends at
    `W8`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_main m ρ)

end Cert.KernelIdeal.Gen

end
-- ==== Proof.KI.Chain.lean ====
/-
  WHAT EACH REGION FINDS in the arrays it reads, in terms of the launch memory and of the earlier regions' outputs.

  Each statement walks one buffer back through the segment boundaries: a host stretch leaves a buffer it does not write
  alone and puts its operation's value into the one it writes; a region leaves a buffer that is none of its arrays alone,
  leaves an input window's array as it found it (the pipeline only reads it), and leaves an output's array at what its
  write-backs folded into it by the last grid point.

  Region 0 reads the node features, the adjacency and the first weights as launched, and the first bias reshaped to a
  row. Regions 1 and 2 read the adjacency copy region 0 wrote, the previous region's output, and one layer's weights and
  bias cut out of the stacked arguments. Region 3 reads the same adjacency copy, region 2's output, the last weights as
  launched and the last bias reshaped to a row.
-/
import proofs.«114686_j10720238371126_2_alg».proof.Proof.KI.Run
import Idealize.ShloMosaic.Lib.StableHlo.Run

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-! ## What each host stretch computes, from any contents `W` -/

/-- `hostOps0`: the first bias as a row. -/
theorem host0_v0 (W : Valuation τ sig (Elt F)) :
    (StableHlo.after hostOps0 W (Proc.devRef .tc main_v0) : S1x64.Idx → Elt F .f32)
      = shapeCast S1x64 (W (Proc.devRef .tc main_arg3) : S64.Idx → Elt F .f32) shapeCasts_S64_S1x64 := by
  after_results; rfl

/-- `hostOps1`: layer 0 of the stacked biases, as a row (cut out, flattened, made a row again). -/
theorem host1_v4 (W : Valuation τ sig (Elt F)) :
    (StableHlo.after hostOps1 W (Proc.devRef .tc main_v4) : S1x64.Idx → Elt F .f32)
      = shapeCast S1x64 (shapeCast S64 (extractStridedSlice S1x64 ![0, 0] (W (Proc.devRef .tc main_arg5) : S2x64.Idx → Elt F .f32) slices_S2x64_S1x64_0_0)
          shapeCasts_S1x64_S64) shapeCasts_S64_S1x64 := by
  after_results; rfl
/-- `hostOps1`: layer 0 of the stacked weights, as a matrix. -/
theorem host1_v6 (W : Valuation τ sig (Elt F)) :
    (StableHlo.after hostOps1 W (Proc.devRef .tc main_v6) : S64x64.Idx → Elt F .f32)
      = shapeCast S64x64 (extractStridedSlice S1x64x64 ![0, 0, 0] (W (Proc.devRef .tc main_arg4) : S2x64x64.Idx → Elt F .f32) slices_S2x64x64_S1x64x64_0_0_0)
          shapeCasts_S1x64x64_S64x64 := by
  after_results; rfl

/-- `hostOps2`: layer 1 of the stacked biases, as a row. -/
theorem host2_v10 (W : Valuation τ sig (Elt F)) :
    (StableHlo.after hostOps2 W (Proc.devRef .tc main_v10) : S1x64.Idx → Elt F .f32)
      = shapeCast S1x64 (shapeCast S64 (extractStridedSlice S1x64 ![1, 0] (W (Proc.devRef .tc main_arg5) : S2x64.Idx → Elt F .f32) slices_S2x64_S1x64_1_0)
          shapeCasts_S1x64_S64) shapeCasts_S64_S1x64 := by
  after_results; rfl
/-- `hostOps2`: layer 1 of the stacked weights, as a matrix. -/
theorem host2_v12 (W : Valuation τ sig (Elt F)) :
    (StableHlo.after hostOps2 W (Proc.devRef .tc main_v12) : S64x64.Idx → Elt F .f32)
      = shapeCast S64x64 (extractStridedSlice S1x64x64 ![1, 0, 0] (W (Proc.devRef .tc main_arg4) : S2x64x64.Idx → Elt F .f32) slices_S2x64x64_S1x64x64_1_0_0)
          shapeCasts_S1x64x64_S64x64 := by
  after_results; rfl

/-- `hostOps3`: the last bias as a row. -/
theorem host3_v14 (W : Valuation τ sig (Elt F)) :
    (StableHlo.after hostOps3 W (Proc.devRef .tc main_v14) : S1x16.Idx → Elt F .f32)
      = shapeCast S1x16 (W (Proc.devRef .tc main_arg7) : S16.Idx → Elt F .f32) shapeCasts_S16_S1x16 := by
  after_results; rfl

/-! ## The arguments a later stretch reads are still as launched when it reads them -/

theorem W2_main_arg4 (c : Dev nD) : W2 m ρ c (Proc.devRef .tc main_arg4) = m ((c : Thread nD τ).loc main_arg4) :=
  (W2_of_ne m ρ c main_arg4 (by decide)).trans ((keeps0 _ main_arg4 (by decide)).trans rfl)
theorem W2_main_arg5 (c : Dev nD) : W2 m ρ c (Proc.devRef .tc main_arg5) = m ((c : Thread nD τ).loc main_arg5) :=
  (W2_of_ne m ρ c main_arg5 (by decide)).trans ((keeps0 _ main_arg5 (by decide)).trans rfl)
theorem W4_main_arg4 (c : Dev nD) : W4 m ρ c (Proc.devRef .tc main_arg4) = m ((c : Thread nD τ).loc main_arg4) :=
  (W4_of_ne m ρ c main_arg4 (by decide)).trans ((keeps1 _ main_arg4 (by decide)).trans (W2_main_arg4 m ρ c))
theorem W4_main_arg5 (c : Dev nD) : W4 m ρ c (Proc.devRef .tc main_arg5) = m ((c : Thread nD τ).loc main_arg5) :=
  (W4_of_ne m ρ c main_arg5 (by decide)).trans ((keeps1 _ main_arg5 (by decide)).trans (W2_main_arg5 m ρ c))
theorem W6_main_arg6 (c : Dev nD) : W6 m ρ c (Proc.devRef .tc main_arg6) = m ((c : Thread nD τ).loc main_arg6) :=
  (W6_of_ne m ρ c main_arg6 (by decide)).trans <| (keeps2 _ main_arg6 (by decide)).trans <|
    (W4_of_ne m ρ c main_arg6 (by decide)).trans <| (keeps1 _ main_arg6 (by decide)).trans <|
    (W2_of_ne m ρ c main_arg6 (by decide)).trans <| (keeps0 _ main_arg6 (by decide)).trans rfl
theorem W6_main_arg7 (c : Dev nD) : W6 m ρ c (Proc.devRef .tc main_arg7) = m ((c : Thread nD τ).loc main_arg7) :=
  (W6_of_ne m ρ c main_arg7 (by decide)).trans <| (keeps2 _ main_arg7 (by decide)).trans <|
    (W4_of_ne m ρ c main_arg7 (by decide)).trans <| (keeps1 _ main_arg7 (by decide)).trans <|
    (W2_of_ne m ρ c main_arg7 (by decide)).trans <| (keeps0 _ main_arg7 (by decide)).trans rfl

/-! ## Region 0's inputs -/

/-- The node features, as launched. -/
theorem V1_x (c : Dev nD) : V1 m ρ c main_arg0 = m ((c : Thread nD τ).loc main_arg0) :=
  (keeps0 _ main_arg0 (by decide)).trans rfl
/-- The adjacency, as launched. -/
theorem V1_adj (c : Dev nD) : V1 m ρ c main_arg1 = m ((c : Thread nD τ).loc main_arg1) :=
  (keeps0 _ main_arg1 (by decide)).trans rfl
/-- The first weights, as launched. -/
theorem V1_w (c : Dev nD) : V1 m ρ c main_arg2 = m ((c : Thread nD τ).loc main_arg2) :=
  (keeps0 _ main_arg2 (by decide)).trans rfl
/-- The first bias, reshaped to a row. -/
theorem V1_b (c : Dev nD) : (V1 m ρ c main_v0 : S1x64.Idx → Elt F .f32)
    = shapeCast S1x64 (m ((c : Thread nD τ).loc main_arg3) : S64.Idx → Elt F .f32) shapeCasts_S64_S1x64 :=
  host0_v0 (W0 m ρ c)

/-! ## Region 1's inputs -/

/-- The adjacency copy: region 0's second output. -/
theorem V3_adj (c : Dev nD) : V3 m ρ c main_v1_1 = (dat0 (V1 m ρ) c).arrAt 5 cfg0.N :=
  (keeps1 _ main_v1_1 (by decide)).trans (W2_arr m ρ c 5)
/-- The features: region 0's first output. -/
theorem V3_feat (c : Dev nD) : V3 m ρ c main_v1_0 = (dat0 (V1 m ρ) c).arrAt 4 cfg0.N :=
  (keeps1 _ main_v1_0 (by decide)).trans (W2_arr m ρ c 4)
/-- The weights: layer 0 of the stacked weights as launched. -/
theorem V3_w (c : Dev nD) : (V3 m ρ c main_v6 : S64x64.Idx → Elt F .f32)
    = shapeCast S64x64 (extractStridedSlice S1x64x64 ![0, 0, 0] (m ((c : Thread nD τ).loc main_arg4) : S2x64x64.Idx → Elt F .f32) slices_S2x64x64_S1x64x64_0_0_0)
        shapeCasts_S1x64x64_S64x64 :=
  (host1_v6 (W2 m ρ c)).trans (by rw [W2_main_arg4 m ρ c])
/-- The bias: layer 0 of the stacked biases as launched, as a row. -/
theorem V3_b (c : Dev nD) : (V3 m ρ c main_v4 : S1x64.Idx → Elt F .f32)
    = shapeCast S1x64 (shapeCast S64 (extractStridedSlice S1x64 ![0, 0] (m ((c : Thread nD τ).loc main_arg5) : S2x64.Idx → Elt F .f32) slices_S2x64_S1x64_0_0)
        shapeCasts_S1x64_S64) shapeCasts_S64_S1x64 :=
  (host1_v4 (W2 m ρ c)).trans (by rw [W2_main_arg5 m ρ c])

/-! ## Region 2's inputs -/

/-- The adjacency copy: still region 0's second output (region 1 only reads it). -/
theorem V5_adj (c : Dev nD) : V5 m ρ c main_v1_1 = (dat0 (V1 m ρ) c).arrAt 5 cfg0.N :=
  (keeps2 _ main_v1_1 (by decide)).trans <| (W4_arr m ρ c 0).trans <|
    ((dat1 (V3 m ρ) c).arrAt_in 0 rfl _).trans <| (A_eq1 (V3 m ρ) c 0).trans (V3_adj m ρ c)
/-- The features: region 1's output. -/
theorem V5_feat (c : Dev nD) : V5 m ρ c main_v7 = (dat1 (V3 m ρ) c).arrAt 4 cfg1.N :=
  (keeps2 _ main_v7 (by decide)).trans (W4_arr m ρ c 4)
/-- The weights: layer 1 of the stacked weights as launched. -/
theorem V5_w (c : Dev nD) : (V5 m ρ c main_v12 : S64x64.Idx → Elt F .f32)
    = shapeCast S64x64 (extractStridedSlice S1x64x64 ![1, 0, 0] (m ((c : Thread nD τ).loc main_arg4) : S2x64x64.Idx → Elt F .f32) slices_S2x64x64_S1x64x64_1_0_0)
        shapeCasts_S1x64x64_S64x64 :=
  (host2_v12 (W4 m ρ c)).trans (by rw [W4_main_arg4 m ρ c])
/-- The bias: layer 1 of the stacked biases as launched, as a row. -/
theorem V5_b (c : Dev nD) : (V5 m ρ c main_v10 : S1x64.Idx → Elt F .f32)
    = shapeCast S1x64 (shapeCast S64 (extractStridedSlice S1x64 ![1, 0] (m ((c : Thread nD τ).loc main_arg5) : S2x64.Idx → Elt F .f32) slices_S2x64_S1x64_1_0)
        shapeCasts_S1x64_S64) shapeCasts_S64_S1x64 :=
  (host2_v10 (W4 m ρ c)).trans (by rw [W4_main_arg5 m ρ c])

/-! ## Region 3's inputs -/

/-- The adjacency copy: still region 0's second output (regions 1 and 2 only read it). -/
theorem V7_adj (c : Dev nD) : V7 m ρ c main_v1_1 = (dat0 (V1 m ρ) c).arrAt 5 cfg0.N :=
  (keeps3 _ main_v1_1 (by decide)).trans <| (W6_arr m ρ c 0).trans <|
    ((dat2 (V5 m ρ) c).arrAt_in 0 rfl _).trans <| (A_eq2 (V5 m ρ) c 0).trans (V5_adj m ρ c)
/-- The features: region 2's output. -/
theorem V7_feat (c : Dev nD) : V7 m ρ c main_v13 = (dat2 (V5 m ρ) c).arrAt 4 cfg2.N :=
  (keeps3 _ main_v13 (by decide)).trans (W6_arr m ρ c 4)
/-- The last weights, as launched. -/
theorem V7_w (c : Dev nD) : V7 m ρ c main_arg6 = m ((c : Thread nD τ).loc main_arg6) :=
  (keeps3 _ main_arg6 (by decide)).trans (W6_main_arg6 m ρ c)
/-- The last bias, reshaped to a row. -/
theorem V7_b (c : Dev nD) : (V7 m ρ c main_v14 : S1x16.Idx → Elt F .f32)
    = shapeCast S1x16 (m ((c : Thread nD τ).loc main_arg7) : S16.Idx → Elt F .f32) shapeCasts_S16_S1x16 :=
  (host3_v14 (W6 m ρ c)).trans (by rw [W6_main_arg7 m ρ c])

end Cert.KernelIdeal.Gen

end
-- ==== Proof.KI.HostAt.lean ====
/-
  The kernel program's host operations before each region, read at an index.

  Before the regions the program only re-lays its small operands: a bias vector gets a leading unit axis; the stacked
  hidden weights and biases are cut to one slice along their leading axis, and the slice's leading unit axis is dropped
  (and, for the bias, put back as the row axis). Read at an index these are the operand at the evident index: the bias
  row at q is the bias at q, slice l of the stacked weights at (d, q) is the stack at (l, d, q), slice l of the stacked
  biases at q is the stack at (l, q). Stated for any element type.
-/
import proofs.«114686_j10720238371126_2_alg».proof.Proof.Gen.KernelIdeal
import Idealize.ShloMosaic.Lib.ValueIdx
import Idealize.ShloMosaic.Lib.ValueLayout
import Idealize.ShloMosaic.Lib.Pipeline.Value

noncomputable section

namespace Cert.KernelIdeal.HostAt

open Cert.KernelIdeal Cert.KernelIdeal.Gen Idealize.ShloMosaic Idealize.ShloMosaic.ValueIdx

variable {α : Type}

/-- The input layer's bias as a row: at (0, q) the bias at q. -/
theorem bias_in_at (v : S64.Idx → α) (q : Fin 64) :
    shapeCast S1x64 v shapeCasts_S64_S1x64 (ix2 (0 : Fin 1) q) = v (ix1 q) :=
  shapeCast_a_1a_apply v shapeCasts_S64_S1x64 0 q

/-- The output layer's bias as a row: at (0, q) the bias at q. -/
theorem bias_out_at (v : S16.Idx → α) (q : Fin 16) :
    shapeCast S1x16 v shapeCasts_S16_S1x16 (ix2 (0 : Fin 1) q) = v (ix1 q) :=
  shapeCast_a_1a_apply v shapeCasts_S16_S1x16 0 q

/-- Slice 0 of the stacked hidden weights, its unit axis dropped: at (d, q) the stack at (0, d, q). -/
theorem w_hidden0_at (Wh : S2x64x64.Idx → α) (d q : Fin 64) :
    shapeCast S64x64 (extractStridedSlice S1x64x64 ![0, 0, 0] Wh slices_S2x64x64_S1x64x64_0_0_0)
        shapeCasts_S1x64x64_S64x64 (ix2 d q)
      = Wh (ix3 (0 : Fin 2) d q) :=
  (shapeCast_1ab_ab_apply _ shapeCasts_S1x64x64_S64x64 d q).trans
    (extractStridedSlice_apply ![0, 0, 0] Wh slices_S2x64x64_S1x64x64_0_0_0 (ix3 (0 : Fin 1) d q)
      (ix3 (0 : Fin 2) d q) (fun a => match a with
        | ⟨0, _⟩ => rfl
        | ⟨1, _⟩ => (Nat.zero_add _).symm
        | ⟨2, _⟩ => (Nat.zero_add _).symm))

/-- Slice 1 of the stacked hidden weights, its unit axis dropped: at (d, q) the stack at (1, d, q). -/
theorem w_hidden1_at (Wh : S2x64x64.Idx → α) (d q : Fin 64) :
    shapeCast S64x64 (extractStridedSlice S1x64x64 ![1, 0, 0] Wh slices_S2x64x64_S1x64x64_1_0_0)
        shapeCasts_S1x64x64_S64x64 (ix2 d q)
      = Wh (ix3 (1 : Fin 2) d q) :=
  (shapeCast_1ab_ab_apply _ shapeCasts_S1x64x64_S64x64 d q).trans
    (extractStridedSlice_apply ![1, 0, 0] Wh slices_S2x64x64_S1x64x64_1_0_0 (ix3 (0 : Fin 1) d q)
      (ix3 (1 : Fin 2) d q) (fun a => match a with
        | ⟨0, _⟩ => rfl
        | ⟨1, _⟩ => (Nat.zero_add _).symm
        | ⟨2, _⟩ => (Nat.zero_add _).symm))

/-- Slice 0 of the stacked hidden biases as a row: at (0, q) the stack at (0, q). -/
theorem b_hidden0_at (bh : S2x64.Idx → α) (q : Fin 64) :
    shapeCast S1x64 (shapeCast S64 (extractStridedSlice S1x64 ![0, 0] bh slices_S2x64_S1x64_0_0) shapeCasts_S1x64_S64)
        shapeCasts_S64_S1x64 (ix2 (0 : Fin 1) q)
      = bh (ix2 (0 : Fin 2) q) :=
  (shapeCast_a_1a_apply _ shapeCasts_S64_S1x64 0 q).trans
    ((shapeCast_1a_a_apply _ shapeCasts_S1x64_S64 q).trans
      (slice2_axis0_apply 0 bh slices_S2x64_S1x64_0_0 (0 : Fin 1) q (0 : Fin 2) rfl))

/-- Slice 1 of the stacked hidden biases as a row: at (0, q) the stack at (1, q). -/
theorem b_hidden1_at (bh : S2x64.Idx → α) (q : Fin 64) :
    shapeCast S1x64 (shapeCast S64 (extractStridedSlice S1x64 ![1, 0] bh slices_S2x64_S1x64_1_0) shapeCasts_S1x64_S64)
        shapeCasts_S64_S1x64 (ix2 (0 : Fin 1) q)
      = bh (ix2 (1 : Fin 2) q) :=
  (shapeCast_a_1a_apply _ shapeCasts_S64_S1x64 0 q).trans
    ((shapeCast_1a_a_apply _ shapeCasts_S1x64_S64 q).trans
      (slice2_axis0_apply 1 bh slices_S2x64_S1x64_1_0 (0 : Fin 1) q (1 : Fin 2) rfl))

end Cert.KernelIdeal.HostAt

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.KI.Payloads.lean ====
/-
  The kernel bodies' arithmetic read one element at a time, over the extended reals.

  Every body of this program is one of three kinds of value. The accumulator's first value is the zero splat. A step
  of the accumulation adds to the accumulator the product of an adjacency block with the projected features, the
  projection itself a product of a feature block with the weights: at (p, q) that is the accumulator there plus
  ∑ j, adj(p, j) * ∑ d, h(j, d) * W(d, q). The narrowing of an operand before a product changes nothing over the
  extended reals, and a product into the zero accumulator is the plain sum. The last value adds the bias row,
  broadcast over the rows, to the accumulator.
-/
import proofs.«114686_j10720238371126_2_alg».proof.Proof.Gen.KernelIdeal.Skeleton
import proofs.«114686_j10720238371126_2_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx

/-! ## `cc0__gcn_agg_first_kernel`: the input layer -/

/-- The accumulator's first value: zero everywhere. -/
theorem k0_pay1_apply (p : Fin 1024) (q : Fin 64) : k0_pay1 (F := Ideal) (ix2 p q) = 0 := by
  unfold k0_pay1
  simp only [shapeCast_self]
  exact Ideal.ofBits_zero_f32

/-- The adjacency block narrowed for the product: unchanged over the extended reals. -/
theorem k0_pay2_apply (v3 : Vec Ideal S1024x2048 .f32) (p : Fin 1024) (j : Fin 2048) :
    k0_pay2 v3 (ix2 p j) = v3 (ix2 p j) := by
  unfold k0_pay2
  exact truncf_apply _ _ _

/-- One step of the accumulation at (p, q): the accumulator plus the adjacency block's row p against the projected
    features' column q. -/
theorem k0_pay3_apply (v3 : Vec Ideal S1024x2048 .f32) (v6 : Vec Ideal S2048x128 .f32) (v8 : Vec Ideal S128x64 .f32)
    (v12 : Vec Ideal S1024x64 .f32) (p : Fin 1024) (q : Fin 64) :
    k0_pay3 v3 v6 v8 v12 (ix2 p q)
      = v12 (ix2 p q) + ∑ j : Fin 2048, v3 (ix2 p j) * ∑ d : Fin 128, v6 (ix2 j d) * v8 (ix2 d q) := by
  unfold k0_pay3
  simp only [shapeCast_self]
  rw [addf_apply]
  refine congrArg (v12 (ix2 p q) + ·) ?_
  refine (Cert.LibMatmulAt.matmul_zero_apply dot_S1024x2048_S2048x64_S1024x64_1_0_0_1_n_n rfl rfl rfl rfl rfl rfl none _ _ p q).trans ?_
  refine Finset.sum_congr rfl fun j _ => ?_
  rw [k0_pay2_apply, truncf_apply]
  refine congrArg (v3 (ix2 p j) * ·) ?_
  exact Cert.LibMatmulAt.matmul_zero_apply dot_S2048x128_S128x64_S2048x64_1_0_0_1_n_n rfl rfl rfl rfl rfl rfl none _ _ j q

/-- The last value at (p, q): the accumulator plus the bias row at q. -/
theorem k0_pay4_apply (v21 : Vec Ideal S1024x64 .f32) (v22 : Vec Ideal S1x64 .f32) (p : Fin 1024) (q : Fin 64) :
    k0_pay4 v21 v22 (ix2 p q) = v21 (ix2 p q) + v22 (ix2 0 q) := by
  unfold k0_pay4
  simp only [shapeCast_self]
  rw [addf_apply, broadcastTo_1b_ab_apply]

/-! ## `cc1__gcn_agg_kernel`: the first hidden layer -/

/-- The accumulator's first value: zero everywhere. -/
theorem k1_pay1_apply (p : Fin 2048) (q : Fin 64) : k1_pay1 (F := Ideal) (ix2 p q) = 0 := by
  unfold k1_pay1
  simp only [shapeCast_self]
  exact Ideal.ofBits_zero_f32

/-- One step of the accumulation at (p, q): the accumulator plus the adjacency block's row p against the projected
    features' column q. -/
theorem k1_pay2_apply (v3 : Vec Ideal S2048x64 .f32) (v6 : Vec Ideal S64x64 .f32) (v11 : Vec Ideal S2048x64 .f32)
    (v12 : Vec Ideal S2048x2048 .bf16) (p : Fin 2048) (q : Fin 64) :
    k1_pay2 v3 v6 v11 v12 (ix2 p q)
      = v11 (ix2 p q) + ∑ j : Fin 2048, v12 (ix2 p j) * ∑ d : Fin 64, v3 (ix2 j d) * v6 (ix2 d q) := by
  unfold k1_pay2
  simp only [shapeCast_self]
  rw [addf_apply]
  refine congrArg (v11 (ix2 p q) + ·) ?_
  refine (Cert.LibMatmulAt.matmul_zero_apply dot_S2048x2048_S2048x64_S2048x64_1_0_0_1_n_n rfl rfl rfl rfl rfl rfl none _ _ p q).trans ?_
  refine Finset.sum_congr rfl fun j _ => ?_
  rw [truncf_apply]
  refine congrArg (v12 (ix2 p j) * ·) ?_
  exact Cert.LibMatmulAt.matmul_zero_apply dot_S2048x64_S64x64_S2048x64_1_0_0_1_n_n rfl rfl rfl rfl rfl rfl none _ _ j q

/-- The last value at (p, q): the accumulator plus the bias row at q. -/
theorem k1_pay3_apply (v22 : Vec Ideal S2048x64 .f32) (v23 : Vec Ideal S1x64 .f32) (p : Fin 2048) (q : Fin 64) :
    k1_pay3 v22 v23 (ix2 p q) = v22 (ix2 p q) + v23 (ix2 0 q) := by
  unfold k1_pay3
  simp only [shapeCast_self]
  rw [addf_apply, broadcastTo_1b_ab_apply]

/-! ## `cc2__gcn_agg_kernel`: the second hidden layer -/

/-- The accumulator's first value: zero everywhere. -/
theorem k2_pay1_apply (p : Fin 2048) (q : Fin 64) : k2_pay1 (F := Ideal) (ix2 p q) = 0 := by
  unfold k2_pay1
  simp only [shapeCast_self]
  exact Ideal.ofBits_zero_f32

/-- One step of the accumulation at (p, q): the accumulator plus the adjacency block's row p against the projected
    features' column q. -/
theorem k2_pay2_apply (v3 : Vec Ideal S2048x64 .f32) (v6 : Vec Ideal S64x64 .f32) (v11 : Vec Ideal S2048x64 .f32)
    (v12 : Vec Ideal S2048x2048 .bf16) (p : Fin 2048) (q : Fin 64) :
    k2_pay2 v3 v6 v11 v12 (ix2 p q)
      = v11 (ix2 p q) + ∑ j : Fin 2048, v12 (ix2 p j) * ∑ d : Fin 64, v3 (ix2 j d) * v6 (ix2 d q) := by
  unfold k2_pay2
  simp only [shapeCast_self]
  rw [addf_apply]
  refine congrArg (v11 (ix2 p q) + ·) ?_
  refine (Cert.LibMatmulAt.matmul_zero_apply dot_S2048x2048_S2048x64_S2048x64_1_0_0_1_n_n rfl rfl rfl rfl rfl rfl none _ _ p q).trans ?_
  refine Finset.sum_congr rfl fun j _ => ?_
  rw [truncf_apply]
  refine congrArg (v12 (ix2 p j) * ·) ?_
  exact Cert.LibMatmulAt.matmul_zero_apply dot_S2048x64_S64x64_S2048x64_1_0_0_1_n_n rfl rfl rfl rfl rfl rfl none _ _ j q

/-- The last value at (p, q): the accumulator plus the bias row at q. -/
theorem k2_pay3_apply (v22 : Vec Ideal S2048x64 .f32) (v23 : Vec Ideal S1x64 .f32) (p : Fin 2048) (q : Fin 64) :
    k2_pay3 v22 v23 (ix2 p q) = v22 (ix2 p q) + v23 (ix2 0 q) := by
  unfold k2_pay3
  simp only [shapeCast_self]
  rw [addf_apply, broadcastTo_1b_ab_apply]

/-! ## `cc3__gcn_agg_kernel`: the output layer -/

/-- The accumulator's first value: zero everywhere. -/
theorem k3_pay1_apply (p : Fin 2048) (q : Fin 16) : k3_pay1 (F := Ideal) (ix2 p q) = 0 := by
  unfold k3_pay1
  simp only [shapeCast_self]
  exact Ideal.ofBits_zero_f32

/-- One step of the accumulation at (p, q): the accumulator plus the adjacency block's row p against the projected
    features' column q. -/
theorem k3_pay2_apply (v3 : Vec Ideal S2048x64 .f32) (v6 : Vec Ideal S64x16 .f32) (v10 : Vec Ideal S2048x16 .f32)
    (v11 : Vec Ideal S2048x2048 .bf16) (p : Fin 2048) (q : Fin 16) :
    k3_pay2 v3 v6 v10 v11 (ix2 p q)
      = v10 (ix2 p q) + ∑ j : Fin 2048, v11 (ix2 p j) * ∑ d : Fin 64, v3 (ix2 j d) * v6 (ix2 d q) := by
  unfold k3_pay2
  simp only [shapeCast_self]
  rw [addf_apply]
  refine congrArg (v10 (ix2 p q) + ·) ?_
  refine (Cert.LibMatmulAt.matmul_zero_apply dot_S2048x2048_S2048x16_S2048x16_1_0_0_1_n_n rfl rfl rfl rfl rfl rfl none _ _ p q).trans ?_
  refine Finset.sum_congr rfl fun j _ => ?_
  rw [truncf_apply]
  refine congrArg (v11 (ix2 p j) * ·) ?_
  exact Cert.LibMatmulAt.matmul_zero_apply dot_S2048x64_S64x16_S2048x16_1_0_0_1_n_n rfl rfl rfl rfl rfl rfl none _ _ j q

/-- The last value at (p, q): the accumulator plus the bias row at q. -/
theorem k3_pay3_apply (v21 : Vec Ideal S2048x16 .f32) (v22 : Vec Ideal S1x16 .f32) (p : Fin 2048) (q : Fin 16) :
    k3_pay3 v21 v22 (ix2 p q) = v21 (ix2 p q) + v22 (ix2 0 q) := by
  unfold k3_pay3
  simp only [shapeCast_self]
  rw [addf_apply, broadcastTo_1b_ab_apply]

end Cert.KernelIdeal.PayloadAt

end
-- ==== Proof.Spec.lean ====
/-
  The network both programs compute, over the extended reals and over plain coordinates: four graph-convolution
  layers, each  adj · (h · W) + b  — entry (r, q) of a layer is  (∑ j, adj r j * ∑ d, h j d * W d q) + b q —,
  the hidden layers' weights and biases the two slices of the stacked arrays.
-/
import Idealize.ShloMosaic.PureOps.Ideal
import Idealize.ShloMosaic.Lib.ValueIdx

noncomputable section

namespace Cert.GcnSpec

open Idealize.ShloMosaic

/-- One graph-convolution layer: entry (r, q) is the sum over the nodes j of adj(r, j) times the projected feature
    (h · W)(j, q), plus the bias b(q). -/
def layer {D C : ℕ} (adj : Fin 16384 → Fin 16384 → EReal) (h : Fin 16384 → Fin D → EReal)
    (W : Fin D → Fin C → EReal) (b : Fin C → EReal) : Fin 16384 → Fin C → EReal :=
  fun r q => (∑ j : Fin 16384, adj r j * ∑ d : Fin D, h j d * W d q) + b q

/-- The four layers chained: input layer, the two hidden layers, output layer. -/
def net (x : Fin 16384 → Fin 128 → EReal) (adj : Fin 16384 → Fin 16384 → EReal)
    (Win : Fin 128 → Fin 64 → EReal) (bin : Fin 64 → EReal)
    (Wh : Fin 2 → Fin 64 → Fin 64 → EReal) (bh : Fin 2 → Fin 64 → EReal)
    (Wout : Fin 64 → Fin 16 → EReal) (bout : Fin 16 → EReal) : Fin 16384 → Fin 16 → EReal :=
  layer adj (layer adj (layer adj (layer adj x Win bin) (Wh 0) (bh 0)) (Wh 1) (bh 1)) Wout bout

end Cert.GcnSpec

end
-- ==== Proof.TileSum.lean ====
/-
  Sums over the 16384 nodes taken tile by tile.

  The kernels accumulate a layer's sum over the nodes in eight tiles of 2048 nodes: an accumulator that starts at the
  first tile's partial sum and adds one tile's partial sum at each step holds, after the eighth step, the sum of the
  eight partial sums; and the sum over k of the sums over the k-th tile is the sum over all the nodes. Addition of
  extended reals is commutative and associative, so no finiteness is needed.
-/
import proofs.«114686_j10720238371126_2_alg».proof.Proof.Spec
import Mathlib.Algebra.BigOperators.Fin
import Mathlib.Logic.Equiv.Fin.Basic

noncomputable section

namespace Cert.GcnSpec

open Idealize.ShloMosaic

/-- Node j of tile k: the node 2048 k + j. -/
def tileIdx (k : Fin 8) (j : Fin 2048) : Fin 16384 := ⟨2048 * k.val + j.val, by omega⟩

/-! ## An accumulator over eight steps -/

/-- An accumulator that starts, at its first point n0, at zero plus the first term and at each later point adds that
    point's term to its previous value holds, m points later, the sum of the first m + 1 terms. -/
theorem accum_upto (a s : ℕ → EReal) (n0 : ℕ) (h0 : a n0 = 0 + s 0)
    (hs : ∀ m, m ≠ 0 → m < 8 → a (n0 + m) = a (n0 + m - 1) + s m) :
    ∀ m, m < 8 → a (n0 + m) = ∑ k : Fin (m + 1), s k.val
  | 0, _ => by
    rw [Nat.add_zero, h0, zero_add, Fin.sum_univ_one]
    rfl
  | m + 1, hm => by
    have hstep := hs (m + 1) (by omega) hm
    rw [show n0 + (m + 1) - 1 = n0 + m by omega] at hstep
    rw [hstep, accum_upto a s n0 h0 hs m (by omega), Fin.sum_univ_castSucc (n := m + 1)]
    rfl

/-- The same for terms indexed by the eight tiles: after the eighth point the accumulator holds the sum of the eight
    terms. -/
theorem accum_eight (a : ℕ → EReal) (S : Fin 8 → EReal) (n0 : ℕ) (h0 : a n0 = 0 + S 0)
    (hs : ∀ k : Fin 8, k.val ≠ 0 → a (n0 + k.val) = a (n0 + k.val - 1) + S k) :
    a (n0 + 7) = ∑ k : Fin 8, S k := by
  have h := accum_upto a (fun n => if hn : n < 8 then S ⟨n, hn⟩ else 0) n0
    (by rw [h0]; rfl)
    (fun m hm0 hm => by rw [dif_pos hm]; exact hs ⟨m, hm⟩ hm0) 7 (by omega)
  rw [h]
  exact Finset.sum_congr rfl fun k _ => dif_pos k.isLt

/-- An accumulator over all the points that restarts at each multiple of eight (zero plus the point's term) and
    otherwise adds the point's term to its previous value holds, at the last point of a group of eight, the sum of the
    group's eight terms. -/
theorem tile_accum (a s : ℕ → EReal) (h0 : ∀ n, n % 8 = 0 → a n = 0 + s n)
    (hs : ∀ n, n % 8 ≠ 0 → a n = a (n - 1) + s n) (i : ℕ) :
    a (8 * i + 7) = ∑ k : Fin 8, s (8 * i + k.val) :=
  accum_eight a (fun k => s (8 * i + k.val)) (8 * i) (h0 (8 * i) (by omega))
    (fun k hk => hs (8 * i + k.val) (by have := k.isLt; omega))

/-! ## The eight tiles cover the nodes -/

/-- The sum over the eight tiles of the sums over a tile's 2048 nodes is the sum over the 16384 nodes. -/
theorem sum_tiles (f : Fin 16384 → EReal) :
    (∑ k : Fin 8, ∑ j : Fin 2048, f (tileIdx k j)) = ∑ j : Fin 16384, f j := by
  refine Eq.trans ?_ (Equiv.sum_comp (finProdFinEquiv (m := 8) (n := 2048)) f)
  rw [Fintype.sum_prod_type]
  refine Finset.sum_congr rfl fun k _ => Finset.sum_congr rfl fun j _ => congrArg f (Fin.ext ?_)
  show 2048 * k.val + j.val = j.val + 2048 * k.val
  omega

/-- A layer of the specification with its sum over the nodes taken tile by tile. -/
theorem layer_tiled {D C : ℕ} (adj : Fin 16384 → Fin 16384 → EReal) (h : Fin 16384 → Fin D → EReal)
    (W : Fin D → Fin C → EReal) (b : Fin C → EReal) (r : Fin 16384) (q : Fin C) :
    (∑ k : Fin 8, ∑ j : Fin 2048, adj r (tileIdx k j) * ∑ d : Fin D, h (tileIdx k j) d * W d q) + b q
      = layer adj h W b r q :=
  congrArg (· + b q) (sum_tiles fun j => adj r j * ∑ d : Fin D, h j d * W d q)

/-! ## A layer from its accumulator -/

/-- The entry (r, q) of a layer from the accumulator's values along the eight points of a row tile: if the accumulator
    starts at zero plus the first tile's partial sum and adds the k-th tile's partial sum at the k-th point, then its
    last value plus the bias is the specification's layer. -/
theorem tile_layer {D C : ℕ} (adj : Fin 16384 → Fin 16384 → EReal) (h : Fin 16384 → Fin D → EReal)
    (W : Fin D → Fin C → EReal) (b : Fin C → EReal) (r : Fin 16384) (q : Fin C) (a : ℕ → EReal) (n0 : ℕ)
    (h0 : a n0 = 0 + ∑ j : Fin 2048, adj r (tileIdx 0 j) * ∑ d : Fin D, h (tileIdx 0 j) d * W d q)
    (hs : ∀ k : Fin 8, k.val ≠ 0 → a (n0 + k.val) = a (n0 + k.val - 1)
      + ∑ j : Fin 2048, adj r (tileIdx k j) * ∑ d : Fin D, h (tileIdx k j) d * W d q) :
    a (n0 + 7) + b q = layer adj h W b r q := by
  rw [accum_eight a (fun k => ∑ j : Fin 2048, adj r (tileIdx k j) * ∑ d : Fin D, h (tileIdx k j) d * W d q) n0 h0 hs]
  exact layer_tiled adj h W b r q

end Cert.GcnSpec

end
-- ==== Proof.KI.Value0.lean ====
/-
  What region 0 leaves in its output array, as one function of the arrays it finds: one layer of the network,
  adj · (h · W) + b, and in its second output the adjacency itself (narrowed: unchanged over the extended reals). The accumulator's entry at a fixed (row, column) along the eight points of a row tile starts
  at zero plus the first tile's partial sum and adds one tile's partial sum per point; at the eighth point the
  block written back is that sum plus the bias, which is the layer's entry, its sum over the nodes taken tile by tile.
-/
import proofs.«114686_j10720238371126_2_alg».proof.Proof.KI.Region0
import proofs.«114686_j10720238371126_2_alg».proof.Proof.KI.Payloads
import proofs.«114686_j10720238371126_2_alg».proof.Proof.TileSum

set_option maxRecDepth 16384

noncomputable section

namespace Cert.KernelIdeal.Gen

open Idealize.ShloMosaic Idealize.ShloMosaic.TcCoe Idealize.SL.Sem Idealize.ShloMosaic.ValueIdx
open Cert.KernelIdeal.PayloadAt Cert.GcnSpec
open Idealize.ShloMosaic.Pipeline (Dat)

section Value0

variable (V : (c : Dev nD) → (b : Ref sig .tc) → Buf (Elt Ideal) ((c : Thread nD τ).loc b))

/-- The four arrays the region reads, over plain coordinates. -/
def adjOf0 (c : Dev nD) : Fin 16384 → Fin 16384 → EReal := fun r j => (V c main_arg1 : Vec Ideal S16384x16384 .f32) (ix2 r j)
def featOf0 (c : Dev nD) : Fin 16384 → Fin 128 → EReal := fun j d => (V c main_arg0 : Vec Ideal S16384x128 .f32) (ix2 j d)
def wOf0 (c : Dev nD) : Fin 128 → Fin 64 → EReal := fun d q => (V c main_arg2 : Vec Ideal S128x64 .f32) (ix2 d q)
def bOf0 (c : Dev nD) : Fin 64 → EReal := fun q => (V c main_v0 : Vec Ideal S1x64 .f32) (ix2 0 q)

/-- The array the region leaves in its output: one layer of what it finds. -/
def out0 (c : Dev nD) : Vec Ideal S16384x64 .f32 := fun i =>
  layer (adjOf0 V c) (featOf0 V c) (wOf0 V c) (bOf0 V c) (i 0) (i 1)

/-- The printed index maps over the grid: point t = 8 i + k reads adjacency block (i, k), feature block (k, 0), the
    whole weights and bias, and owns output block (i, 0). -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-! ## The blocks, typed by their literal shapes, and read at an index -/

def blkA0 (c : Dev nD) (t : Fin cfg0.N) : Vec Ideal S1024x2048 .f32 := iblk0 V c 0 t
def blkH0 (c : Dev nD) (t : Fin cfg0.N) : Vec Ideal S2048x128 .f32 := iblk0 V c 1 t
def blkW0 (c : Dev nD) (t : Fin cfg0.N) : Vec Ideal S128x64 .f32 := iblk0 V c 2 t
def blkB0 (c : Dev nD) (t : Fin cfg0.N) : Vec Ideal S1x64 .f32 := iblk0 V c 3 t

set_option maxHeartbeats 1000000 in
theorem blkA0_at (c : Dev nD) (t : Fin cfg0.N) (p : Fin 1024) (j : Fin 2048) (r s : Fin 16384)
    (hr : r.val = 1024 * (t.val / 8) + p.val) (hs : s.val = 2048 * (t.val % 8) + j.val) :
    blkA0 V c t (ix2 p j) = adjOf0 V c r s := by
  obtain ⟨e0, e1, -⟩ := idx_facts0 t
  show V c main_arg1 (((cfg0.win 0).blk t).view.emb (ix2 p j)) = V c main_arg1 (ix2 r s)
  refine congrArg _ ?_
  funext a; apply Fin.ext
  match a with
  | ⟨0, _⟩ => show win0_0.index t (0 : Fin 2) * 1024 + 1 * p.val = r.val; omega
  | ⟨1, _⟩ => show win0_0.index t (1 : Fin 2) * 2048 + 1 * j.val = s.val; omega

set_option maxHeartbeats 1000000 in
theorem blkH0_at (c : Dev nD) (t : Fin cfg0.N) (j : Fin 2048) (d : Fin 128) (s : Fin 16384)
    (hs : s.val = 2048 * (t.val % 8) + j.val) :
    blkH0 V c t (ix2 j d) = featOf0 V c s d := by
  obtain ⟨-, -, e2, e3, -⟩ := idx_facts0 t
  show V c main_arg0 (((cfg0.win 1).blk t).view.emb (ix2 j d)) = V c main_arg0 (ix2 s d)
  refine congrArg _ ?_
  funext a; apply Fin.ext
  match a with
  | ⟨0, _⟩ => show win0_1.index t (0 : Fin 2) * 2048 + 1 * j.val = s.val; omega
  | ⟨1, _⟩ => show win0_1.index t (1 : Fin 2) * 128 + 1 * d.val = d.val; omega

set_option maxHeartbeats 1000000 in
theorem blkW0_at (c : Dev nD) (t : Fin cfg0.N) (d : Fin 128) (q : Fin 64) :
    blkW0 V c t (ix2 d q) = wOf0 V c d q := by
  obtain ⟨-, -, -, -, e4, e5, -⟩ := idx_facts0 t
  show V c main_arg2 (((cfg0.win 2).blk t).view.emb (ix2 d q)) = V c main_arg2 (ix2 d q)
  refine congrArg _ ?_
  funext a; apply Fin.ext
  match a with
  | ⟨0, _⟩ => show win0_2.index t (0 : Fin 2) * 128 + 1 * d.val = d.val; omega
  | ⟨1, _⟩ => show win0_2.index t (1 : Fin 2) * 64 + 1 * q.val = q.val; omega

set_option maxHeartbeats 1000000 in
theorem blkB0_at (c : Dev nD) (t : Fin cfg0.N) (q : Fin 64) :
    blkB0 V c t (ix2 0 q) = bOf0 V c q := by
  obtain ⟨-, -, -, -, -, -, e6, e7, -⟩ := idx_facts0 t
  show V c main_v0 (((cfg0.win 3).blk t).view.emb (ix2 0 q)) = V c main_v0 (ix2 0 q)
  refine congrArg _ ?_
  funext a; apply Fin.ext
  match a with
  | ⟨0, _⟩ => show win0_3.index t (0 : Fin 2) * 1 + 1 * 0 = 0; omega
  | ⟨1, _⟩ => show win0_3.index t (1 : Fin 2) * 64 + 1 * q.val = q.val; omega

/-! ## The accumulator along a row tile -/

/-- The accumulator's recursion over the typed blocks. -/
theorem acc0_first' (c : Dev nD) (t : Fin cfg0.N) (h0 : t.val % 8 = 0) :
    acc0 V c t.val t.isLt = k0_pay3 (blkA0 V c t) (blkH0 V c t) (blkW0 V c t) (k0_pay1 (F := Ideal)) :=
  acc0_first V c t h0
theorem acc0_step' (c : Dev nD) (t : Fin cfg0.N) (h0 : ¬t.val % 8 = 0) :
    acc0 V c t.val t.isLt = k0_pay3 (blkA0 V c t) (blkH0 V c t) (blkW0 V c t) (acc0 V c (t.val - 1) (Nat.lt_of_le_of_lt (Nat.sub_le _ _) t.isLt)) :=
  acc0_step V c t h0

/-- The accumulator's entry (p, q) after position n (zero past the grid). -/
def accAt0 (c : Dev nD) (p : Fin 1024) (q : Fin 64) (n : ℕ) : EReal :=
  if h : n < cfg0.N then acc0 V c n h (ix2 p q) else 0

theorem accAt0_of_lt (c : Dev nD) (p : Fin 1024) (q : Fin 64) (n : ℕ) (h : n < cfg0.N) :
    accAt0 V c p q n = acc0 V c n h (ix2 p q) := dif_pos h

/-- One tile's partial sum at a point, in the arrays' coordinates. -/
theorem tile_term0 (c : Dev nD) (t : Fin cfg0.N) (p : Fin 1024) (q : Fin 64) (r : Fin 16384) (k : Fin 8)
    (hr : r.val = 1024 * (t.val / 8) + p.val) (hk : k.val = t.val % 8) :
    (∑ j : Fin 2048, blkA0 V c t (ix2 p j) * ∑ d : Fin 128, blkH0 V c t (ix2 j d) * blkW0 V c t (ix2 d q))
      = ∑ j : Fin 2048, adjOf0 V c r (tileIdx k j) * ∑ d : Fin 128, featOf0 V c (tileIdx k j) d * wOf0 V c d q := by
  refine Finset.sum_congr rfl fun j _ => ?_
  have hs : (tileIdx k j).val = 2048 * (t.val % 8) + j.val := by show 2048 * k.val + j.val = _; omega
  rw [blkA0_at V c t p j r (tileIdx k j) hr hs]
  refine congrArg (adjOf0 V c r (tileIdx k j) * ·) ?_
  refine Finset.sum_congr rfl fun d _ => ?_
  rw [blkH0_at V c t j d (tileIdx k j) hs, blkW0_at V c t d q]

/-- The accumulator at the first point of a row tile: zero plus the first tile's partial sum. -/
theorem accAt0_first (c : Dev nD) (p : Fin 1024) (q : Fin 64) (r : Fin 16384) (i : ℕ) (hi : i < 16)
    (hr : r.val = 1024 * i + p.val) :
    accAt0 V c p q (8 * i) = 0 + ∑ j : Fin 2048, adjOf0 V c r (tileIdx 0 j) * ∑ d : Fin 128, featOf0 V c (tileIdx 0 j) d * wOf0 V c d q := by
  have hlt : 8 * i < cfg0.N := by rw [show cfg0.N = 128 from N_0]; omega
  rw [accAt0_of_lt V c p q _ hlt]
  have e := acc0_first' V c ⟨8 * i, hlt⟩ (by show 8 * i % 8 = 0; omega)
  rw [show acc0 V c (8 * i) hlt = _ from e, k0_pay3_apply, k0_pay1_apply]
  refine congrArg (0 + ·) ?_
  exact tile_term0 V c ⟨8 * i, hlt⟩ p q r 0 (by show r.val = 1024 * (8 * i / 8) + p.val; omega) (by show (0 : Fin 8).val = 8 * i % 8; simp)

/-- At a later point of the row tile: what the point before left plus this tile's partial sum. -/
theorem accAt0_step (c : Dev nD) (p : Fin 1024) (q : Fin 64) (r : Fin 16384) (i : ℕ) (hi : i < 16)
    (hr : r.val = 1024 * i + p.val) (k : Fin 8) (hk : k.val ≠ 0) :
    accAt0 V c p q (8 * i + k.val) = accAt0 V c p q (8 * i + k.val - 1)
      + ∑ j : Fin 2048, adjOf0 V c r (tileIdx k j) * ∑ d : Fin 128, featOf0 V c (tileIdx k j) d * wOf0 V c d q := by
  have hk8 := k.isLt
  have hlt : 8 * i + k.val < cfg0.N := by rw [show cfg0.N = 128 from N_0]; omega
  have hlt' : 8 * i + k.val - 1 < cfg0.N := by omega
  rw [accAt0_of_lt V c p q _ hlt, accAt0_of_lt V c p q _ hlt']
  have e := acc0_step' V c ⟨8 * i + k.val, hlt⟩ (by show ¬(8 * i + k.val) % 8 = 0; omega)
  rw [show acc0 V c (8 * i + k.val) hlt = _ from e, k0_pay3_apply]
  refine congrArg₂ (· + ·) rfl ?_
  exact tile_term0 V c ⟨8 * i + k.val, hlt⟩ p q r k (by show r.val = 1024 * ((8 * i + k.val) / 8) + p.val; omega) (by show k.val = (8 * i + k.val) % 8; omega)

set_option maxHeartbeats 1000000 in
/-- WHAT A FLUSHING POINT WRITES BACK is its block of the layer. -/
theorem flushed0_eq (c : Dev nD) (t : Fin cfg0.N) (hf : (cfg0.win 4).flush t = true) :
    (dat0 V c).flushed 4 t = ((cfg0.win 4).blk t).view.read (Elt Ideal) (out0 V c) := by
  have h7 : t.val % 8 = 7 := (flush0_4 t).mp hf
  have hN : t.val < 128 := lt_of_lt_of_eq t.isLt (show cfg0.N = 128 from N_0)
  obtain ⟨-, -, -, -, -, -, -, -, e8, e9⟩ := idx_facts0 t
  show (cfg0.win 4).cut (grid0.coords t) ((dat0 V c).after 4 t) = _
  rw [after0_4]
  funext y
  obtain ⟨p, q, rfl⟩ : ∃ (p : Fin 1024) (q : Fin 64), y = ix2 p q := ⟨y 0, y 1, eq_ix2 (n0 := 1024) (n1 := 64) y⟩
  have hrlt : 1024 * (t.val / 8) + p.val < 16384 := by have := p.isLt; omega
  have hemb : ((cfg0.win 4).blk t).view.emb (ix2 p q) = ix2 (⟨1024 * (t.val / 8) + p.val, hrlt⟩ : Fin 16384) q := by
    funext a; apply Fin.ext
    match a with
    | ⟨0, _⟩ => show win0_4.index t (0 : Fin 2) * 1024 + 1 * p.val = 1024 * (t.val / 8) + p.val; omega
    | ⟨1, _⟩ => show win0_4.index t (1 : Fin 2) * 64 + 1 * q.val = q.val; omega
  show k0_pay4 (acc0 V c t.val t.isLt) (blkB0 V c t) (ix2 p q) = out0 V c (((cfg0.win 4).blk t).view.emb (ix2 p q))
  rw [hemb, k0_pay4_apply, blkB0_at V c t q, ← accAt0_of_lt V c p q t.val t.isLt]
  have e : t.val = 8 * (t.val / 8) + 7 := by omega
  rw [show accAt0 V c p q t.val = accAt0 V c p q (8 * (t.val / 8) + 7) from congrArg _ e]
  exact tile_layer (adjOf0 V c) (featOf0 V c) (wOf0 V c) (bOf0 V c) ⟨1024 * (t.val / 8) + p.val, hrlt⟩ q (accAt0 V c p q) (8 * (t.val / 8))
    (accAt0_first V c p q _ (t.val / 8) (by omega) rfl)
    (fun k hk => accAt0_step V c p q _ (t.val / 8) (by omega) rfl k hk)

/-- An index of the output array is in point t's block iff each coordinate is in the block's range on its axis. -/
theorem mem_blk0 (t : Fin cfg0.N) (i : S16384x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1_0).slice (win0_4.rect t)).set ↔ _
  rw [View.set_slice_whole, Rect.mem_set_unit]
  exact Iff.rfl

/-- Every index of the output array lies in the block of the last point of its row tile, which is written back. -/
theorem cover0 (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  have hlt : 8 * ((i 0).val / 1024) + 7 < cfg0.N := by rw [show cfg0.N = 128 from N_0]; omega
  refine ⟨⟨8 * ((i 0).val / 1024) + 7, hlt⟩, (flush0_4 _).mpr (by show (8 * ((i 0).val / 1024) + 7) % 8 = 7; omega), ?_⟩
  obtain ⟨-, -, -, -, -, -, -, -, e8, e9⟩ := idx_facts0 ⟨8 * ((i 0).val / 1024) + 7, hlt⟩
  rw [mem_blk0]
  intro a
  match a with
  | ⟨0, _⟩ =>
    show win0_4.index ⟨8 * ((i 0).val / 1024) + 7, hlt⟩ (0 : Fin 2) * 1024 ≤ (i 0).val ∧ (i 0).val < win0_4.index ⟨8 * ((i 0).val / 1024) + 7, hlt⟩ (0 : Fin 2) * 1024 + 1024
    rw [e8]; show (8 * ((i 0).val / 1024) + 7) / 8 * 1024 ≤ (i 0).val ∧ (i 0).val < (8 * ((i 0).val / 1024) + 7) / 8 * 1024 + 1024
    omega
  | ⟨1, _⟩ =>
    show win0_4.index ⟨8 * ((i 0).val / 1024) + 7, hlt⟩ (1 : Fin 2) * 64 ≤ (i 1).val ∧ (i 1).val < win0_4.index ⟨8 * ((i 0).val / 1024) + 7, hlt⟩ (1 : Fin 2) * 64 + 64
    rw [e9]; omega

/-- THE OUTPUT ARRAY after the region: the layer of what the region found. -/
theorem final0 (c : Dev nD) : (dat0 V c).arrAt 4 cfg0.N = out0 V c :=
  (dat0 V c).arrAt_eq_of_cover 4 (out0 V c) (fun t hf => flushed0_eq V c t hf) (cover0)

/-! ## The second output: the adjacency, copied block by block -/

/-- The printed index map of the second output over the grid: block (i, k) at point 8 i + k, as the adjacency's. -/
theorem idx_facts0_5 : ∀ t : Fin cfg0.N,
    win0_5.index t (0 : Fin 2) = t.val / 8 ∧ win0_5.index t (1 : Fin 2) = t.val % 8
    ∧ win0_0.index t (0 : Fin 2) = t.val / 8 ∧ win0_0.index t (1 : Fin 2) = t.val % 8 :=
  (by decide +kernel : ∀ t : Fin grid0.N, _)

/-- What the region leaves in the second output: the adjacency it found. -/
def out0_5 (c : Dev nD) : Vec Ideal S16384x16384 .bf16 := fun i => (V c main_arg1 : Vec Ideal S16384x16384 .f32) i

set_option maxHeartbeats 1000000 in
theorem flushed0_5_eq (c : Dev nD) (t : Fin cfg0.N) :
    (dat0 V c).flushed 5 t = ((cfg0.win 5).blk t).view.read (Elt Ideal) (out0_5 V c) := by
  obtain ⟨e0, e1, e2, e3⟩ := idx_facts0_5 t
  show (cfg0.win 5).cut (grid0.coords t) ((dat0 V c).after 5 t) = _
  rw [after0_5]
  funext y
  obtain ⟨p, j, rfl⟩ : ∃ (p : Fin 1024) (j : Fin 2048), y = ix2 p j := ⟨y 0, y 1, eq_ix2 (n0 := 1024) (n1 := 2048) y⟩
  show k0_pay2 (blkA0 V c t) (ix2 p j) = out0_5 V c (((cfg0.win 5).blk t).view.emb (ix2 p j))
  rw [k0_pay2_apply]
  show V c main_arg1 (((cfg0.win 0).blk t).view.emb (ix2 p j)) = V c main_arg1 (((cfg0.win 5).blk t).view.emb (ix2 p j))
  refine congrArg _ ?_
  funext a; apply Fin.ext
  match a with
  | ⟨0, _⟩ => show win0_0.index t (0 : Fin 2) * 1024 + 1 * p.val = win0_5.index t (0 : Fin 2) * 1024 + 1 * p.val; omega
  | ⟨1, _⟩ => show win0_0.index t (1 : Fin 2) * 2048 + 1 * j.val = win0_5.index t (1 : Fin 2) * 2048 + 1 * j.val; omega

theorem mem_blk0_5 (t : Fin cfg0.N) (i : S16384x16384.Idx) :
    i ∈ ((cfg0.win 5).blk t).view.set ↔ ∀ a : Fin 2, win0_5.index t a * S1024x2048.size a ≤ (i a).val ∧ (i a).val < win0_5.index t a * S1024x2048.size a + S1024x2048.size a := by
  show i ∈ ((View.whole main_v1_1).slice (win0_5.rect t)).set ↔ _
  rw [View.set_slice_whole, Rect.mem_set_unit]
  exact Iff.rfl

theorem cover0_5 (i : S16384x16384.Idx) :
    ∃ t : Fin cfg0.N, (cfg0.win 5).flush t = true ∧ i ∈ ((cfg0.win 5).blk t).view.set := by
  have hi0 : (i 0).val < 16384 := (i 0).isLt
  have hi1 : (i 1).val < 16384 := (i 1).isLt
  have hlt : 8 * ((i 0).val / 1024) + (i 1).val / 2048 < cfg0.N := by rw [show cfg0.N = 128 from N_0]; omega
  refine ⟨⟨8 * ((i 0).val / 1024) + (i 1).val / 2048, hlt⟩, flush0_5 _, ?_⟩
  obtain ⟨e0, e1, -, -⟩ := idx_facts0_5 ⟨8 * ((i 0).val / 1024) + (i 1).val / 2048, hlt⟩
  rw [mem_blk0_5]
  intro a
  match a with
  | ⟨0, _⟩ =>
    show win0_5.index ⟨8 * ((i 0).val / 1024) + (i 1).val / 2048, hlt⟩ (0 : Fin 2) * 1024 ≤ (i 0).val ∧ (i 0).val < win0_5.index ⟨8 * ((i 0).val / 1024) + (i 1).val / 2048, hlt⟩ (0 : Fin 2) * 1024 + 1024
    rw [e0]; show (8 * ((i 0).val / 1024) + (i 1).val / 2048) / 8 * 1024 ≤ (i 0).val ∧ (i 0).val < (8 * ((i 0).val / 1024) + (i 1).val / 2048) / 8 * 1024 + 1024
    omega
  | ⟨1, _⟩ =>
    show win0_5.index ⟨8 * ((i 0).val / 1024) + (i 1).val / 2048, hlt⟩ (1 : Fin 2) * 2048 ≤ (i 1).val ∧ (i 1).val < win0_5.index ⟨8 * ((i 0).val / 1024) + (i 1).val / 2048, hlt⟩ (1 : Fin 2) * 2048 + 2048
    rw [e1]; show (8 * ((i 0).val / 1024) + (i 1).val / 2048) % 8 * 2048 ≤ (i 1).val ∧ (i 1).val < (8 * ((i 0).val / 1024) + (i 1).val / 2048) % 8 * 2048 + 2048
    omega

/-- THE SECOND OUTPUT after the region: the adjacency the region found. -/
theorem final0_5 (c : Dev nD) : (dat0 V c).arrAt 5 cfg0.N = out0_5 V c :=
  (dat0 V c).arrAt_eq_of_cover 5 (out0_5 V c) (fun t _ => flushed0_5_eq V c t) (cover0_5)

end Value0

end Cert.KernelIdeal.Gen

end
-- ==== Proof.KI.Value1.lean ====
/-
  What region 1 leaves in its output array, as one function of the arrays it finds: one layer of the network,
  adj · (h · W) + b. The accumulator's entry at a fixed (row, column) along the eight points of a row tile starts
  at zero plus the first tile's partial sum and adds one tile's partial sum per point; at the eighth point the
  block written back is that sum plus the bias, which is the layer's entry, its sum over the nodes taken tile by tile.
-/
import proofs.«114686_j10720238371126_2_alg».proof.Proof.KI.Region1
import proofs.«114686_j10720238371126_2_alg».proof.Proof.KI.Payloads
import proofs.«114686_j10720238371126_2_alg».proof.Proof.TileSum

set_option maxRecDepth 16384

noncomputable section

namespace Cert.KernelIdeal.Gen

open Idealize.ShloMosaic Idealize.ShloMosaic.TcCoe Idealize.SL.Sem Idealize.ShloMosaic.ValueIdx
open Cert.KernelIdeal.PayloadAt Cert.GcnSpec
open Idealize.ShloMosaic.Pipeline (Dat)

section Value1

variable (V : (c : Dev nD) → (b : Ref sig .tc) → Buf (Elt Ideal) ((c : Thread nD τ).loc b))

/-- The four arrays the region reads, over plain coordinates. -/
def adjOf1 (c : Dev nD) : Fin 16384 → Fin 16384 → EReal := fun r j => (V c main_v1_1 : Vec Ideal S16384x16384 .bf16) (ix2 r j)
def featOf1 (c : Dev nD) : Fin 16384 → Fin 64 → EReal := fun j d => (V c main_v1_0 : Vec Ideal S16384x64 .f32) (ix2 j d)
def wOf1 (c : Dev nD) : Fin 64 → Fin 64 → EReal := fun d q => (V c main_v6 : Vec Ideal S64x64 .f32) (ix2 d q)
def bOf1 (c : Dev nD) : Fin 64 → EReal := fun q => (V c main_v4 : Vec Ideal S1x64 .f32) (ix2 0 q)

/-- The array the region leaves in its output: one layer of what it finds. -/
def out1 (c : Dev nD) : Vec Ideal S16384x64 .f32 := fun i =>
  layer (adjOf1 V c) (featOf1 V c) (wOf1 V c) (bOf1 V c) (i 0) (i 1)

/-- The printed index maps over the grid: point t = 8 i + k reads adjacency block (i, k), feature block (k, 0), the
    whole weights and bias, and owns output block (i, 0). -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0 :=
  (by decide +kernel : ∀ t : Fin grid1.N, _)

/-! ## The blocks, typed by their literal shapes, and read at an index -/

def blkA1 (c : Dev nD) (t : Fin cfg1.N) : Vec Ideal S2048x2048 .bf16 := iblk1 V c 0 t
def blkH1 (c : Dev nD) (t : Fin cfg1.N) : Vec Ideal S2048x64 .f32 := iblk1 V c 1 t
def blkW1 (c : Dev nD) (t : Fin cfg1.N) : Vec Ideal S64x64 .f32 := iblk1 V c 2 t
def blkB1 (c : Dev nD) (t : Fin cfg1.N) : Vec Ideal S1x64 .f32 := iblk1 V c 3 t

set_option maxHeartbeats 1000000 in
theorem blkA1_at (c : Dev nD) (t : Fin cfg1.N) (p j : Fin 2048) (r s : Fin 16384)
    (hr : r.val = 2048 * (t.val / 8) + p.val) (hs : s.val = 2048 * (t.val % 8) + j.val) :
    blkA1 V c t (ix2 p j) = adjOf1 V c r s := by
  obtain ⟨e0, e1, -⟩ := idx_facts1 t
  show V c main_v1_1 (((cfg1.win 0).blk t).view.emb (ix2 p j)) = V c main_v1_1 (ix2 r s)
  refine congrArg _ ?_
  funext a; apply Fin.ext
  match a with
  | ⟨0, _⟩ => show win1_0.index t (0 : Fin 2) * 2048 + 1 * p.val = r.val; omega
  | ⟨1, _⟩ => show win1_0.index t (1 : Fin 2) * 2048 + 1 * j.val = s.val; omega

set_option maxHeartbeats 1000000 in
theorem blkH1_at (c : Dev nD) (t : Fin cfg1.N) (j : Fin 2048) (d : Fin 64) (s : Fin 16384)
    (hs : s.val = 2048 * (t.val % 8) + j.val) :
    blkH1 V c t (ix2 j d) = featOf1 V c s d := by
  obtain ⟨-, -, e2, e3, -⟩ := idx_facts1 t
  show V c main_v1_0 (((cfg1.win 1).blk t).view.emb (ix2 j d)) = V c main_v1_0 (ix2 s d)
  refine congrArg _ ?_
  funext a; apply Fin.ext
  match a with
  | ⟨0, _⟩ => show win1_1.index t (0 : Fin 2) * 2048 + 1 * j.val = s.val; omega
  | ⟨1, _⟩ => show win1_1.index t (1 : Fin 2) * 64 + 1 * d.val = d.val; omega

set_option maxHeartbeats 1000000 in
theorem blkW1_at (c : Dev nD) (t : Fin cfg1.N) (d : Fin 64) (q : Fin 64) :
    blkW1 V c t (ix2 d q) = wOf1 V c d q := by
  obtain ⟨-, -, -, -, e4, e5, -⟩ := idx_facts1 t
  show V c main_v6 (((cfg1.win 2).blk t).view.emb (ix2 d q)) = V c main_v6 (ix2 d q)
  refine congrArg _ ?_
  funext a; apply Fin.ext
  match a with
  | ⟨0, _⟩ => show win1_2.index t (0 : Fin 2) * 64 + 1 * d.val = d.val; omega
  | ⟨1, _⟩ => show win1_2.index t (1 : Fin 2) * 64 + 1 * q.val = q.val; omega

set_option maxHeartbeats 1000000 in
theorem blkB1_at (c : Dev nD) (t : Fin cfg1.N) (q : Fin 64) :
    blkB1 V c t (ix2 0 q) = bOf1 V c q := by
  obtain ⟨-, -, -, -, -, -, e6, e7, -⟩ := idx_facts1 t
  show V c main_v4 (((cfg1.win 3).blk t).view.emb (ix2 0 q)) = V c main_v4 (ix2 0 q)
  refine congrArg _ ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-! ## The accumulator along a row tile -/

/-- The accumulator's recursion over the typed blocks. -/
theorem acc1_first' (c : Dev nD) (t : Fin cfg1.N) (h0 : t.val % 8 = 0) :
    acc1 V c t.val t.isLt = k1_pay2 (blkH1 V c t) (blkW1 V c t) (k1_pay1 (F := Ideal)) (blkA1 V c t) :=
  acc1_first V c t h0
theorem acc1_step' (c : Dev nD) (t : Fin cfg1.N) (h0 : ¬t.val % 8 = 0) :
    acc1 V c t.val t.isLt = k1_pay2 (blkH1 V c t) (blkW1 V c t) (acc1 V c (t.val - 1) (Nat.lt_of_le_of_lt (Nat.sub_le _ _) t.isLt)) (blkA1 V c t) :=
  acc1_step V c t h0

/-- The accumulator's entry (p, q) after position n (zero past the grid). -/
def accAt1 (c : Dev nD) (p : Fin 2048) (q : Fin 64) (n : ℕ) : EReal :=
  if h : n < cfg1.N then acc1 V c n h (ix2 p q) else 0

theorem accAt1_of_lt (c : Dev nD) (p : Fin 2048) (q : Fin 64) (n : ℕ) (h : n < cfg1.N) :
    accAt1 V c p q n = acc1 V c n h (ix2 p q) := dif_pos h

/-- One tile's partial sum at a point, in the arrays' coordinates. -/
theorem tile_term1 (c : Dev nD) (t : Fin cfg1.N) (p : Fin 2048) (q : Fin 64) (r : Fin 16384) (k : Fin 8)
    (hr : r.val = 2048 * (t.val / 8) + p.val) (hk : k.val = t.val % 8) :
    (∑ j : Fin 2048, blkA1 V c t (ix2 p j) * ∑ d : Fin 64, blkH1 V c t (ix2 j d) * blkW1 V c t (ix2 d q))
      = ∑ j : Fin 2048, adjOf1 V c r (tileIdx k j) * ∑ d : Fin 64, featOf1 V c (tileIdx k j) d * wOf1 V c d q := by
  refine Finset.sum_congr rfl fun j _ => ?_
  have hs : (tileIdx k j).val = 2048 * (t.val % 8) + j.val := by show 2048 * k.val + j.val = _; omega
  rw [blkA1_at V c t p j r (tileIdx k j) hr hs]
  refine congrArg (adjOf1 V c r (tileIdx k j) * ·) ?_
  refine Finset.sum_congr rfl fun d _ => ?_
  rw [blkH1_at V c t j d (tileIdx k j) hs, blkW1_at V c t d q]

/-- The accumulator at the first point of a row tile: zero plus the first tile's partial sum. -/
theorem accAt1_first (c : Dev nD) (p : Fin 2048) (q : Fin 64) (r : Fin 16384) (i : ℕ) (hi : i < 8)
    (hr : r.val = 2048 * i + p.val) :
    accAt1 V c p q (8 * i) = 0 + ∑ j : Fin 2048, adjOf1 V c r (tileIdx 0 j) * ∑ d : Fin 64, featOf1 V c (tileIdx 0 j) d * wOf1 V c d q := by
  have hlt : 8 * i < cfg1.N := by rw [show cfg1.N = 64 from N_1]; omega
  rw [accAt1_of_lt V c p q _ hlt]
  have e := acc1_first' V c ⟨8 * i, hlt⟩ (by show 8 * i % 8 = 0; omega)
  rw [show acc1 V c (8 * i) hlt = _ from e, k1_pay2_apply, k1_pay1_apply]
  refine congrArg (0 + ·) ?_
  exact tile_term1 V c ⟨8 * i, hlt⟩ p q r 0 (by show r.val = 2048 * (8 * i / 8) + p.val; omega) (by show (0 : Fin 8).val = 8 * i % 8; simp)

/-- At a later point of the row tile: what the point before left plus this tile's partial sum. -/
theorem accAt1_step (c : Dev nD) (p : Fin 2048) (q : Fin 64) (r : Fin 16384) (i : ℕ) (hi : i < 8)
    (hr : r.val = 2048 * i + p.val) (k : Fin 8) (hk : k.val ≠ 0) :
    accAt1 V c p q (8 * i + k.val) = accAt1 V c p q (8 * i + k.val - 1)
      + ∑ j : Fin 2048, adjOf1 V c r (tileIdx k j) * ∑ d : Fin 64, featOf1 V c (tileIdx k j) d * wOf1 V c d q := by
  have hk8 := k.isLt
  have hlt : 8 * i + k.val < cfg1.N := by rw [show cfg1.N = 64 from N_1]; omega
  have hlt' : 8 * i + k.val - 1 < cfg1.N := by omega
  rw [accAt1_of_lt V c p q _ hlt, accAt1_of_lt V c p q _ hlt']
  have e := acc1_step' V c ⟨8 * i + k.val, hlt⟩ (by show ¬(8 * i + k.val) % 8 = 0; omega)
  rw [show acc1 V c (8 * i + k.val) hlt = _ from e, k1_pay2_apply]
  refine congrArg₂ (· + ·) rfl ?_
  exact tile_term1 V c ⟨8 * i + k.val, hlt⟩ p q r k (by show r.val = 2048 * ((8 * i + k.val) / 8) + p.val; omega) (by show k.val = (8 * i + k.val) % 8; omega)

set_option maxHeartbeats 1000000 in
/-- WHAT A FLUSHING POINT WRITES BACK is its block of the layer. -/
theorem flushed1_eq (c : Dev nD) (t : Fin cfg1.N) (hf : (cfg1.win 4).flush t = true) :
    (dat1 V c).flushed 4 t = ((cfg1.win 4).blk t).view.read (Elt Ideal) (out1 V c) := by
  have h7 : t.val % 8 = 7 := (flush1_4 t).mp hf
  have hN : t.val < 64 := lt_of_lt_of_eq t.isLt (show cfg1.N = 64 from N_1)
  obtain ⟨-, -, -, -, -, -, -, -, e8, e9⟩ := idx_facts1 t
  show (cfg1.win 4).cut (grid1.coords t) ((dat1 V c).after 4 t) = _
  rw [after1_4]
  funext y
  obtain ⟨p, q, rfl⟩ : ∃ (p : Fin 2048) (q : Fin 64), y = ix2 p q := ⟨y 0, y 1, eq_ix2 (n0 := 2048) (n1 := 64) y⟩
  have hrlt : 2048 * (t.val / 8) + p.val < 16384 := by have := p.isLt; omega
  have hemb : ((cfg1.win 4).blk t).view.emb (ix2 p q) = ix2 (⟨2048 * (t.val / 8) + p.val, hrlt⟩ : Fin 16384) q := by
    funext a; apply Fin.ext
    match a with
    | ⟨0, _⟩ => show win1_4.index t (0 : Fin 2) * 2048 + 1 * p.val = 2048 * (t.val / 8) + p.val; omega
    | ⟨1, _⟩ => show win1_4.index t (1 : Fin 2) * 64 + 1 * q.val = q.val; omega
  show k1_pay3 (acc1 V c t.val t.isLt) (blkB1 V c t) (ix2 p q) = out1 V c (((cfg1.win 4).blk t).view.emb (ix2 p q))
  rw [hemb, k1_pay3_apply, blkB1_at V c t q, ← accAt1_of_lt V c p q t.val t.isLt]
  have e : t.val = 8 * (t.val / 8) + 7 := by omega
  rw [show accAt1 V c p q t.val = accAt1 V c p q (8 * (t.val / 8) + 7) from congrArg _ e]
  exact tile_layer (adjOf1 V c) (featOf1 V c) (wOf1 V c) (bOf1 V c) ⟨2048 * (t.val / 8) + p.val, hrlt⟩ q (accAt1 V c p q) (8 * (t.val / 8))
    (accAt1_first V c p q _ (t.val / 8) (by omega) rfl)
    (fun k hk => accAt1_step V c p q _ (t.val / 8) (by omega) rfl k hk)

/-- An index of the output array is in point t's block iff each coordinate is in the block's range on its axis. -/
theorem mem_blk1 (t : Fin cfg1.N) (i : S16384x64.Idx) :
    i ∈ ((cfg1.win 4).blk t).view.set ↔ ∀ a : Fin 2, win1_4.index t a * S2048x64.size a ≤ (i a).val ∧ (i a).val < win1_4.index t a * S2048x64.size a + S2048x64.size a := by
  show i ∈ ((View.whole main_v7).slice (win1_4.rect t)).set ↔ _
  rw [View.set_slice_whole, Rect.mem_set_unit]
  exact Iff.rfl

/-- Every index of the output array lies in the block of the last point of its row tile, which is written back. -/
theorem cover1 (i : S16384x64.Idx) :
    ∃ t : Fin cfg1.N, (cfg1.win 4).flush t = true ∧ i ∈ ((cfg1.win 4).blk t).view.set := by
  have hi0 : (i 0).val < 16384 := (i 0).isLt
  have hi1 : (i 1).val < 64 := (i 1).isLt
  have hlt : 8 * ((i 0).val / 2048) + 7 < cfg1.N := by rw [show cfg1.N = 64 from N_1]; omega
  refine ⟨⟨8 * ((i 0).val / 2048) + 7, hlt⟩, (flush1_4 _).mpr (by show (8 * ((i 0).val / 2048) + 7) % 8 = 7; omega), ?_⟩
  obtain ⟨-, -, -, -, -, -, -, -, e8, e9⟩ := idx_facts1 ⟨8 * ((i 0).val / 2048) + 7, hlt⟩
  rw [mem_blk1]
  intro a
  match a with
  | ⟨0, _⟩ =>
    show win1_4.index ⟨8 * ((i 0).val / 2048) + 7, hlt⟩ (0 : Fin 2) * 2048 ≤ (i 0).val ∧ (i 0).val < win1_4.index ⟨8 * ((i 0).val / 2048) + 7, hlt⟩ (0 : Fin 2) * 2048 + 2048
    rw [e8]; show (8 * ((i 0).val / 2048) + 7) / 8 * 2048 ≤ (i 0).val ∧ (i 0).val < (8 * ((i 0).val / 2048) + 7) / 8 * 2048 + 2048
    omega
  | ⟨1, _⟩ =>
    show win1_4.index ⟨8 * ((i 0).val / 2048) + 7, hlt⟩ (1 : Fin 2) * 64 ≤ (i 1).val ∧ (i 1).val < win1_4.index ⟨8 * ((i 0).val / 2048) + 7, hlt⟩ (1 : Fin 2) * 64 + 64
    rw [e9]; omega

/-- THE OUTPUT ARRAY after the region: the layer of what the region found. -/
theorem final1 (c : Dev nD) : (dat1 V c).arrAt 4 cfg1.N = out1 V c :=
  (dat1 V c).arrAt_eq_of_cover 4 (out1 V c) (fun t hf => flushed1_eq V c t hf) (cover1)

end Value1

end Cert.KernelIdeal.Gen

end
-- ==== Proof.KI.Value2.lean ====
/-
  What region 2 leaves in its output array, as one function of the arrays it finds: one layer of the network,
  adj · (h · W) + b. The accumulator's entry at a fixed (row, column) along the eight points of a row tile starts
  at zero plus the first tile's partial sum and adds one tile's partial sum per point; at the eighth point the
  block written back is that sum plus the bias, which is the layer's entry, its sum over the nodes taken tile by tile.
-/
import proofs.«114686_j10720238371126_2_alg».proof.Proof.KI.Region2
import proofs.«114686_j10720238371126_2_alg».proof.Proof.KI.Payloads
import proofs.«114686_j10720238371126_2_alg».proof.Proof.TileSum

set_option maxRecDepth 16384

noncomputable section

namespace Cert.KernelIdeal.Gen

open Idealize.ShloMosaic Idealize.ShloMosaic.TcCoe Idealize.SL.Sem Idealize.ShloMosaic.ValueIdx
open Cert.KernelIdeal.PayloadAt Cert.GcnSpec
open Idealize.ShloMosaic.Pipeline (Dat)

section Value2

variable (V : (c : Dev nD) → (b : Ref sig .tc) → Buf (Elt Ideal) ((c : Thread nD τ).loc b))

/-- The four arrays the region reads, over plain coordinates. -/
def adjOf2 (c : Dev nD) : Fin 16384 → Fin 16384 → EReal := fun r j => (V c main_v1_1 : Vec Ideal S16384x16384 .bf16) (ix2 r j)
def featOf2 (c : Dev nD) : Fin 16384 → Fin 64 → EReal := fun j d => (V c main_v7 : Vec Ideal S16384x64 .f32) (ix2 j d)
def wOf2 (c : Dev nD) : Fin 64 → Fin 64 → EReal := fun d q => (V c main_v12 : Vec Ideal S64x64 .f32) (ix2 d q)
def bOf2 (c : Dev nD) : Fin 64 → EReal := fun q => (V c main_v10 : Vec Ideal S1x64 .f32) (ix2 0 q)

/-- The array the region leaves in its output: one layer of what it finds. -/
def out2 (c : Dev nD) : Vec Ideal S16384x64 .f32 := fun i =>
  layer (adjOf2 V c) (featOf2 V c) (wOf2 V c) (bOf2 V c) (i 0) (i 1)

/-- The printed index maps over the grid: point t = 8 i + k reads adjacency block (i, k), feature block (k, 0), the
    whole weights and bias, and owns output block (i, 0). -/
theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val / 8 ∧ win2_4.index t (1 : Fin 2) = 0 :=
  (by decide +kernel : ∀ t : Fin grid2.N, _)

/-! ## The blocks, typed by their literal shapes, and read at an index -/

def blkA2 (c : Dev nD) (t : Fin cfg2.N) : Vec Ideal S2048x2048 .bf16 := iblk2 V c 0 t
def blkH2 (c : Dev nD) (t : Fin cfg2.N) : Vec Ideal S2048x64 .f32 := iblk2 V c 1 t
def blkW2 (c : Dev nD) (t : Fin cfg2.N) : Vec Ideal S64x64 .f32 := iblk2 V c 2 t
def blkB2 (c : Dev nD) (t : Fin cfg2.N) : Vec Ideal S1x64 .f32 := iblk2 V c 3 t

set_option maxHeartbeats 1000000 in
theorem blkA2_at (c : Dev nD) (t : Fin cfg2.N) (p j : Fin 2048) (r s : Fin 16384)
    (hr : r.val = 2048 * (t.val / 8) + p.val) (hs : s.val = 2048 * (t.val % 8) + j.val) :
    blkA2 V c t (ix2 p j) = adjOf2 V c r s := by
  obtain ⟨e0, e1, -⟩ := idx_facts2 t
  show V c main_v1_1 (((cfg2.win 0).blk t).view.emb (ix2 p j)) = V c main_v1_1 (ix2 r s)
  refine congrArg _ ?_
  funext a; apply Fin.ext
  match a with
  | ⟨0, _⟩ => show win2_0.index t (0 : Fin 2) * 2048 + 1 * p.val = r.val; omega
  | ⟨1, _⟩ => show win2_0.index t (1 : Fin 2) * 2048 + 1 * j.val = s.val; omega

set_option maxHeartbeats 1000000 in
theorem blkH2_at (c : Dev nD) (t : Fin cfg2.N) (j : Fin 2048) (d : Fin 64) (s : Fin 16384)
    (hs : s.val = 2048 * (t.val % 8) + j.val) :
    blkH2 V c t (ix2 j d) = featOf2 V c s d := by
  obtain ⟨-, -, e2, e3, -⟩ := idx_facts2 t
  show V c main_v7 (((cfg2.win 1).blk t).view.emb (ix2 j d)) = V c main_v7 (ix2 s d)
  refine congrArg _ ?_
  funext a; apply Fin.ext
  match a with
  | ⟨0, _⟩ => show win2_1.index t (0 : Fin 2) * 2048 + 1 * j.val = s.val; omega
  | ⟨1, _⟩ => show win2_1.index t (1 : Fin 2) * 64 + 1 * d.val = d.val; omega

set_option maxHeartbeats 1000000 in
theorem blkW2_at (c : Dev nD) (t : Fin cfg2.N) (d : Fin 64) (q : Fin 64) :
    blkW2 V c t (ix2 d q) = wOf2 V c d q := by
  obtain ⟨-, -, -, -, e4, e5, -⟩ := idx_facts2 t
  show V c main_v12 (((cfg2.win 2).blk t).view.emb (ix2 d q)) = V c main_v12 (ix2 d q)
  refine congrArg _ ?_
  funext a; apply Fin.ext
  match a with
  | ⟨0, _⟩ => show win2_2.index t (0 : Fin 2) * 64 + 1 * d.val = d.val; omega
  | ⟨1, _⟩ => show win2_2.index t (1 : Fin 2) * 64 + 1 * q.val = q.val; omega

set_option maxHeartbeats 1000000 in
theorem blkB2_at (c : Dev nD) (t : Fin cfg2.N) (q : Fin 64) :
    blkB2 V c t (ix2 0 q) = bOf2 V c q := by
  obtain ⟨-, -, -, -, -, -, e6, e7, -⟩ := idx_facts2 t
  show V c main_v10 (((cfg2.win 3).blk t).view.emb (ix2 0 q)) = V c main_v10 (ix2 0 q)
  refine congrArg _ ?_
  funext a; apply Fin.ext
  match a with
  | ⟨0, _⟩ => show win2_3.index t (0 : Fin 2) * 1 + 1 * 0 = 0; omega
  | ⟨1, _⟩ => show win2_3.index t (1 : Fin 2) * 64 + 1 * q.val = q.val; omega

/-! ## The accumulator along a row tile -/

/-- The accumulator's recursion over the typed blocks. -/
theorem acc2_first' (c : Dev nD) (t : Fin cfg2.N) (h0 : t.val % 8 = 0) :
    acc2 V c t.val t.isLt = k2_pay2 (blkH2 V c t) (blkW2 V c t) (k2_pay1 (F := Ideal)) (blkA2 V c t) :=
  acc2_first V c t h0
theorem acc2_step' (c : Dev nD) (t : Fin cfg2.N) (h0 : ¬t.val % 8 = 0) :
    acc2 V c t.val t.isLt = k2_pay2 (blkH2 V c t) (blkW2 V c t) (acc2 V c (t.val - 1) (Nat.lt_of_le_of_lt (Nat.sub_le _ _) t.isLt)) (blkA2 V c t) :=
  acc2_step V c t h0

/-- The accumulator's entry (p, q) after position n (zero past the grid). -/
def accAt2 (c : Dev nD) (p : Fin 2048) (q : Fin 64) (n : ℕ) : EReal :=
  if h : n < cfg2.N then acc2 V c n h (ix2 p q) else 0

theorem accAt2_of_lt (c : Dev nD) (p : Fin 2048) (q : Fin 64) (n : ℕ) (h : n < cfg2.N) :
    accAt2 V c p q n = acc2 V c n h (ix2 p q) := dif_pos h

/-- One tile's partial sum at a point, in the arrays' coordinates. -/
theorem tile_term2 (c : Dev nD) (t : Fin cfg2.N) (p : Fin 2048) (q : Fin 64) (r : Fin 16384) (k : Fin 8)
    (hr : r.val = 2048 * (t.val / 8) + p.val) (hk : k.val = t.val % 8) :
    (∑ j : Fin 2048, blkA2 V c t (ix2 p j) * ∑ d : Fin 64, blkH2 V c t (ix2 j d) * blkW2 V c t (ix2 d q))
      = ∑ j : Fin 2048, adjOf2 V c r (tileIdx k j) * ∑ d : Fin 64, featOf2 V c (tileIdx k j) d * wOf2 V c d q := by
  refine Finset.sum_congr rfl fun j _ => ?_
  have hs : (tileIdx k j).val = 2048 * (t.val % 8) + j.val := by show 2048 * k.val + j.val = _; omega
  rw [blkA2_at V c t p j r (tileIdx k j) hr hs]
  refine congrArg (adjOf2 V c r (tileIdx k j) * ·) ?_
  refine Finset.sum_congr rfl fun d _ => ?_
  rw [blkH2_at V c t j d (tileIdx k j) hs, blkW2_at V c t d q]

/-- The accumulator at the first point of a row tile: zero plus the first tile's partial sum. -/
theorem accAt2_first (c : Dev nD) (p : Fin 2048) (q : Fin 64) (r : Fin 16384) (i : ℕ) (hi : i < 8)
    (hr : r.val = 2048 * i + p.val) :
    accAt2 V c p q (8 * i) = 0 + ∑ j : Fin 2048, adjOf2 V c r (tileIdx 0 j) * ∑ d : Fin 64, featOf2 V c (tileIdx 0 j) d * wOf2 V c d q := by
  have hlt : 8 * i < cfg2.N := by rw [show cfg2.N = 64 from N_2]; omega
  rw [accAt2_of_lt V c p q _ hlt]
  have e := acc2_first' V c ⟨8 * i, hlt⟩ (by show 8 * i % 8 = 0; omega)
  rw [show acc2 V c (8 * i) hlt = _ from e, k2_pay2_apply, k2_pay1_apply]
  refine congrArg (0 + ·) ?_
  exact tile_term2 V c ⟨8 * i, hlt⟩ p q r 0 (by show r.val = 2048 * (8 * i / 8) + p.val; omega) (by show (0 : Fin 8).val = 8 * i % 8; simp)

/-- At a later point of the row tile: what the point before left plus this tile's partial sum. -/
theorem accAt2_step (c : Dev nD) (p : Fin 2048) (q : Fin 64) (r : Fin 16384) (i : ℕ) (hi : i < 8)
    (hr : r.val = 2048 * i + p.val) (k : Fin 8) (hk : k.val ≠ 0) :
    accAt2 V c p q (8 * i + k.val) = accAt2 V c p q (8 * i + k.val - 1)
      + ∑ j : Fin 2048, adjOf2 V c r (tileIdx k j) * ∑ d : Fin 64, featOf2 V c (tileIdx k j) d * wOf2 V c d q := by
  have hk8 := k.isLt
  have hlt : 8 * i + k.val < cfg2.N := by rw [show cfg2.N = 64 from N_2]; omega
  have hlt' : 8 * i + k.val - 1 < cfg2.N := by omega
  rw [accAt2_of_lt V c p q _ hlt, accAt2_of_lt V c p q _ hlt']
  have e := acc2_step' V c ⟨8 * i + k.val, hlt⟩ (by show ¬(8 * i + k.val) % 8 = 0; omega)
  rw [show acc2 V c (8 * i + k.val) hlt = _ from e, k2_pay2_apply]
  refine congrArg₂ (· + ·) rfl ?_
  exact tile_term2 V c ⟨8 * i + k.val, hlt⟩ p q r k (by show r.val = 2048 * ((8 * i + k.val) / 8) + p.val; omega) (by show k.val = (8 * i + k.val) % 8; omega)

set_option maxHeartbeats 1000000 in
/-- WHAT A FLUSHING POINT WRITES BACK is its block of the layer. -/
theorem flushed2_eq (c : Dev nD) (t : Fin cfg2.N) (hf : (cfg2.win 4).flush t = true) :
    (dat2 V c).flushed 4 t = ((cfg2.win 4).blk t).view.read (Elt Ideal) (out2 V c) := by
  have h7 : t.val % 8 = 7 := (flush2_4 t).mp hf
  have hN : t.val < 64 := lt_of_lt_of_eq t.isLt (show cfg2.N = 64 from N_2)
  obtain ⟨-, -, -, -, -, -, -, -, e8, e9⟩ := idx_facts2 t
  show (cfg2.win 4).cut (grid2.coords t) ((dat2 V c).after 4 t) = _
  rw [after2_4]
  funext y
  obtain ⟨p, q, rfl⟩ : ∃ (p : Fin 2048) (q : Fin 64), y = ix2 p q := ⟨y 0, y 1, eq_ix2 (n0 := 2048) (n1 := 64) y⟩
  have hrlt : 2048 * (t.val / 8) + p.val < 16384 := by have := p.isLt; omega
  have hemb : ((cfg2.win 4).blk t).view.emb (ix2 p q) = ix2 (⟨2048 * (t.val / 8) + p.val, hrlt⟩ : Fin 16384) q := by
    funext a; apply Fin.ext
    match a with
    | ⟨0, _⟩ => show win2_4.index t (0 : Fin 2) * 2048 + 1 * p.val = 2048 * (t.val / 8) + p.val; omega
    | ⟨1, _⟩ => show win2_4.index t (1 : Fin 2) * 64 + 1 * q.val = q.val; omega
  show k2_pay3 (acc2 V c t.val t.isLt) (blkB2 V c t) (ix2 p q) = out2 V c (((cfg2.win 4).blk t).view.emb (ix2 p q))
  rw [hemb, k2_pay3_apply, blkB2_at V c t q, ← accAt2_of_lt V c p q t.val t.isLt]
  have e : t.val = 8 * (t.val / 8) + 7 := by omega
  rw [show accAt2 V c p q t.val = accAt2 V c p q (8 * (t.val / 8) + 7) from congrArg _ e]
  exact tile_layer (adjOf2 V c) (featOf2 V c) (wOf2 V c) (bOf2 V c) ⟨2048 * (t.val / 8) + p.val, hrlt⟩ q (accAt2 V c p q) (8 * (t.val / 8))
    (accAt2_first V c p q _ (t.val / 8) (by omega) rfl)
    (fun k hk => accAt2_step V c p q _ (t.val / 8) (by omega) rfl k hk)

/-- An index of the output array is in point t's block iff each coordinate is in the block's range on its axis. -/
theorem mem_blk2 (t : Fin cfg2.N) (i : S16384x64.Idx) :
    i ∈ ((cfg2.win 4).blk t).view.set ↔ ∀ a : Fin 2, win2_4.index t a * S2048x64.size a ≤ (i a).val ∧ (i a).val < win2_4.index t a * S2048x64.size a + S2048x64.size a := by
  show i ∈ ((View.whole main_v13).slice (win2_4.rect t)).set ↔ _
  rw [View.set_slice_whole, Rect.mem_set_unit]
  exact Iff.rfl

/-- Every index of the output array lies in the block of the last point of its row tile, which is written back. -/
theorem cover2 (i : S16384x64.Idx) :
    ∃ t : Fin cfg2.N, (cfg2.win 4).flush t = true ∧ i ∈ ((cfg2.win 4).blk t).view.set := by
  have hi0 : (i 0).val < 16384 := (i 0).isLt
  have hi1 : (i 1).val < 64 := (i 1).isLt
  have hlt : 8 * ((i 0).val / 2048) + 7 < cfg2.N := by rw [show cfg2.N = 64 from N_2]; omega
  refine ⟨⟨8 * ((i 0).val / 2048) + 7, hlt⟩, (flush2_4 _).mpr (by show (8 * ((i 0).val / 2048) + 7) % 8 = 7; omega), ?_⟩
  obtain ⟨-, -, -, -, -, -, -, -, e8, e9⟩ := idx_facts2 ⟨8 * ((i 0).val / 2048) + 7, hlt⟩
  rw [mem_blk2]
  intro a
  match a with
  | ⟨0, _⟩ =>
    show win2_4.index ⟨8 * ((i 0).val / 2048) + 7, hlt⟩ (0 : Fin 2) * 2048 ≤ (i 0).val ∧ (i 0).val < win2_4.index ⟨8 * ((i 0).val / 2048) + 7, hlt⟩ (0 : Fin 2) * 2048 + 2048
    rw [e8]; show (8 * ((i 0).val / 2048) + 7) / 8 * 2048 ≤ (i 0).val ∧ (i 0).val < (8 * ((i 0).val / 2048) + 7) / 8 * 2048 + 2048
    omega
  | ⟨1, _⟩ =>
    show win2_4.index ⟨8 * ((i 0).val / 2048) + 7, hlt⟩ (1 : Fin 2) * 64 ≤ (i 1).val ∧ (i 1).val < win2_4.index ⟨8 * ((i 0).val / 2048) + 7, hlt⟩ (1 : Fin 2) * 64 + 64
    rw [e9]; omega

/-- THE OUTPUT ARRAY after the region: the layer of what the region found. -/
theorem final2 (c : Dev nD) : (dat2 V c).arrAt 4 cfg2.N = out2 V c :=
  (dat2 V c).arrAt_eq_of_cover 4 (out2 V c) (fun t hf => flushed2_eq V c t hf) (cover2)

end Value2

end Cert.KernelIdeal.Gen

end
-- ==== Proof.KI.Value3.lean ====
/-
  What region 3 leaves in its output array, as one function of the arrays it finds: one layer of the network,
  adj · (h · W) + b. The accumulator's entry at a fixed (row, column) along the eight points of a row tile starts
  at zero plus the first tile's partial sum and adds one tile's partial sum per point; at the eighth point the
  block written back is that sum plus the bias, which is the layer's entry, its sum over the nodes taken tile by tile.
-/
import proofs.«114686_j10720238371126_2_alg».proof.Proof.KI.Region3
import proofs.«114686_j10720238371126_2_alg».proof.Proof.KI.Payloads
import proofs.«114686_j10720238371126_2_alg».proof.Proof.TileSum

set_option maxRecDepth 16384

noncomputable section

namespace Cert.KernelIdeal.Gen

open Idealize.ShloMosaic Idealize.ShloMosaic.TcCoe Idealize.SL.Sem Idealize.ShloMosaic.ValueIdx
open Cert.KernelIdeal.PayloadAt Cert.GcnSpec
open Idealize.ShloMosaic.Pipeline (Dat)

section Value3

variable (V : (c : Dev nD) → (b : Ref sig .tc) → Buf (Elt Ideal) ((c : Thread nD τ).loc b))

/-- The four arrays the region reads, over plain coordinates. -/
def adjOf3 (c : Dev nD) : Fin 16384 → Fin 16384 → EReal := fun r j => (V c main_v1_1 : Vec Ideal S16384x16384 .bf16) (ix2 r j)
def featOf3 (c : Dev nD) : Fin 16384 → Fin 64 → EReal := fun j d => (V c main_v13 : Vec Ideal S16384x64 .f32) (ix2 j d)
def wOf3 (c : Dev nD) : Fin 64 → Fin 16 → EReal := fun d q => (V c main_arg6 : Vec Ideal S64x16 .f32) (ix2 d q)
def bOf3 (c : Dev nD) : Fin 16 → EReal := fun q => (V c main_v14 : Vec Ideal S1x16 .f32) (ix2 0 q)

/-- The array the region leaves in its output: one layer of what it finds. -/
def out3 (c : Dev nD) : Vec Ideal S16384x16 .f32 := fun i =>
  layer (adjOf3 V c) (featOf3 V c) (wOf3 V c) (bOf3 V c) (i 0) (i 1)

/-- The printed index maps over the grid: point t = 8 i + k reads adjacency block (i, k), feature block (k, 0), the
    whole weights and bias, and owns output block (i, 0). -/
theorem idx_facts3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val / 8 ∧ win3_4.index t (1 : Fin 2) = 0 :=
  (by decide +kernel : ∀ t : Fin grid3.N, _)

/-! ## The blocks, typed by their literal shapes, and read at an index -/

def blkA3 (c : Dev nD) (t : Fin cfg3.N) : Vec Ideal S2048x2048 .bf16 := iblk3 V c 0 t
def blkH3 (c : Dev nD) (t : Fin cfg3.N) : Vec Ideal S2048x64 .f32 := iblk3 V c 1 t
def blkW3 (c : Dev nD) (t : Fin cfg3.N) : Vec Ideal S64x16 .f32 := iblk3 V c 2 t
def blkB3 (c : Dev nD) (t : Fin cfg3.N) : Vec Ideal S1x16 .f32 := iblk3 V c 3 t

set_option maxHeartbeats 1000000 in
theorem blkA3_at (c : Dev nD) (t : Fin cfg3.N) (p j : Fin 2048) (r s : Fin 16384)
    (hr : r.val = 2048 * (t.val / 8) + p.val) (hs : s.val = 2048 * (t.val % 8) + j.val) :
    blkA3 V c t (ix2 p j) = adjOf3 V c r s := by
  obtain ⟨e0, e1, -⟩ := idx_facts3 t
  show V c main_v1_1 (((cfg3.win 0).blk t).view.emb (ix2 p j)) = V c main_v1_1 (ix2 r s)
  refine congrArg _ ?_
  funext a; apply Fin.ext
  match a with
  | ⟨0, _⟩ => show win3_0.index t (0 : Fin 2) * 2048 + 1 * p.val = r.val; omega
  | ⟨1, _⟩ => show win3_0.index t (1 : Fin 2) * 2048 + 1 * j.val = s.val; omega

set_option maxHeartbeats 1000000 in
theorem blkH3_at (c : Dev nD) (t : Fin cfg3.N) (j : Fin 2048) (d : Fin 64) (s : Fin 16384)
    (hs : s.val = 2048 * (t.val % 8) + j.val) :
    blkH3 V c t (ix2 j d) = featOf3 V c s d := by
  obtain ⟨-, -, e2, e3, -⟩ := idx_facts3 t
  show V c main_v13 (((cfg3.win 1).blk t).view.emb (ix2 j d)) = V c main_v13 (ix2 s d)
  refine congrArg _ ?_
  funext a; apply Fin.ext
  match a with
  | ⟨0, _⟩ => show win3_1.index t (0 : Fin 2) * 2048 + 1 * j.val = s.val; omega
  | ⟨1, _⟩ => show win3_1.index t (1 : Fin 2) * 64 + 1 * d.val = d.val; omega

set_option maxHeartbeats 1000000 in
theorem blkW3_at (c : Dev nD) (t : Fin cfg3.N) (d : Fin 64) (q : Fin 16) :
    blkW3 V c t (ix2 d q) = wOf3 V c d q := by
  obtain ⟨-, -, -, -, e4, e5, -⟩ := idx_facts3 t
  show V c main_arg6 (((cfg3.win 2).blk t).view.emb (ix2 d q)) = V c main_arg6 (ix2 d q)
  refine congrArg _ ?_
  funext a; apply Fin.ext
  match a with
  | ⟨0, _⟩ => show win3_2.index t (0 : Fin 2) * 64 + 1 * d.val = d.val; omega
  | ⟨1, _⟩ => show win3_2.index t (1 : Fin 2) * 16 + 1 * q.val = q.val; omega

set_option maxHeartbeats 1000000 in
theorem blkB3_at (c : Dev nD) (t : Fin cfg3.N) (q : Fin 16) :
    blkB3 V c t (ix2 0 q) = bOf3 V c q := by
  obtain ⟨-, -, -, -, -, -, e6, e7, -⟩ := idx_facts3 t
  show V c main_v14 (((cfg3.win 3).blk t).view.emb (ix2 0 q)) = V c main_v14 (ix2 0 q)
  refine congrArg _ ?_
  funext a; apply Fin.ext
  match a with
  | ⟨0, _⟩ => show win3_3.index t (0 : Fin 2) * 1 + 1 * 0 = 0; omega
  | ⟨1, _⟩ => show win3_3.index t (1 : Fin 2) * 16 + 1 * q.val = q.val; omega

/-! ## The accumulator along a row tile -/

/-- The accumulator's recursion over the typed blocks. -/
theorem acc3_first' (c : Dev nD) (t : Fin cfg3.N) (h0 : t.val % 8 = 0) :
    acc3 V c t.val t.isLt = k3_pay2 (blkH3 V c t) (blkW3 V c t) (k3_pay1 (F := Ideal)) (blkA3 V c t) :=
  acc3_first V c t h0
theorem acc3_step' (c : Dev nD) (t : Fin cfg3.N) (h0 : ¬t.val % 8 = 0) :
    acc3 V c t.val t.isLt = k3_pay2 (blkH3 V c t) (blkW3 V c t) (acc3 V c (t.val - 1) (Nat.lt_of_le_of_lt (Nat.sub_le _ _) t.isLt)) (blkA3 V c t) :=
  acc3_step V c t h0

/-- The accumulator's entry (p, q) after position n (zero past the grid). -/
def accAt3 (c : Dev nD) (p : Fin 2048) (q : Fin 16) (n : ℕ) : EReal :=
  if h : n < cfg3.N then acc3 V c n h (ix2 p q) else 0

theorem accAt3_of_lt (c : Dev nD) (p : Fin 2048) (q : Fin 16) (n : ℕ) (h : n < cfg3.N) :
    accAt3 V c p q n = acc3 V c n h (ix2 p q) := dif_pos h

/-- One tile's partial sum at a point, in the arrays' coordinates. -/
theorem tile_term3 (c : Dev nD) (t : Fin cfg3.N) (p : Fin 2048) (q : Fin 16) (r : Fin 16384) (k : Fin 8)
    (hr : r.val = 2048 * (t.val / 8) + p.val) (hk : k.val = t.val % 8) :
    (∑ j : Fin 2048, blkA3 V c t (ix2 p j) * ∑ d : Fin 64, blkH3 V c t (ix2 j d) * blkW3 V c t (ix2 d q))
      = ∑ j : Fin 2048, adjOf3 V c r (tileIdx k j) * ∑ d : Fin 64, featOf3 V c (tileIdx k j) d * wOf3 V c d q := by
  refine Finset.sum_congr rfl fun j _ => ?_
  have hs : (tileIdx k j).val = 2048 * (t.val % 8) + j.val := by show 2048 * k.val + j.val = _; omega
  rw [blkA3_at V c t p j r (tileIdx k j) hr hs]
  refine congrArg (adjOf3 V c r (tileIdx k j) * ·) ?_
  refine Finset.sum_congr rfl fun d _ => ?_
  rw [blkH3_at V c t j d (tileIdx k j) hs, blkW3_at V c t d q]

/-- The accumulator at the first point of a row tile: zero plus the first tile's partial sum. -/
theorem accAt3_first (c : Dev nD) (p : Fin 2048) (q : Fin 16) (r : Fin 16384) (i : ℕ) (hi : i < 8)
    (hr : r.val = 2048 * i + p.val) :
    accAt3 V c p q (8 * i) = 0 + ∑ j : Fin 2048, adjOf3 V c r (tileIdx 0 j) * ∑ d : Fin 64, featOf3 V c (tileIdx 0 j) d * wOf3 V c d q := by
  have hlt : 8 * i < cfg3.N := by rw [show cfg3.N = 64 from N_3]; omega
  rw [accAt3_of_lt V c p q _ hlt]
  have e := acc3_first' V c ⟨8 * i, hlt⟩ (by show 8 * i % 8 = 0; omega)
  rw [show acc3 V c (8 * i) hlt = _ from e, k3_pay2_apply, k3_pay1_apply]
  refine congrArg (0 + ·) ?_
  exact tile_term3 V c ⟨8 * i, hlt⟩ p q r 0 (by show r.val = 2048 * (8 * i / 8) + p.val; omega) (by show (0 : Fin 8).val = 8 * i % 8; simp)

/-- At a later point of the row tile: what the point before left plus this tile's partial sum. -/
theorem accAt3_step (c : Dev nD) (p : Fin 2048) (q : Fin 16) (r : Fin 16384) (i : ℕ) (hi : i < 8)
    (hr : r.val = 2048 * i + p.val) (k : Fin 8) (hk : k.val ≠ 0) :
    accAt3 V c p q (8 * i + k.val) = accAt3 V c p q (8 * i + k.val - 1)
      + ∑ j : Fin 2048, adjOf3 V c r (tileIdx k j) * ∑ d : Fin 64, featOf3 V c (tileIdx k j) d * wOf3 V c d q := by
  have hk8 := k.isLt
  have hlt : 8 * i + k.val < cfg3.N := by rw [show cfg3.N = 64 from N_3]; omega
  have hlt' : 8 * i + k.val - 1 < cfg3.N := by omega
  rw [accAt3_of_lt V c p q _ hlt, accAt3_of_lt V c p q _ hlt']
  have e := acc3_step' V c ⟨8 * i + k.val, hlt⟩ (by show ¬(8 * i + k.val) % 8 = 0; omega)
  rw [show acc3 V c (8 * i + k.val) hlt = _ from e, k3_pay2_apply]
  refine congrArg₂ (· + ·) rfl ?_
  exact tile_term3 V c ⟨8 * i + k.val, hlt⟩ p q r k (by show r.val = 2048 * ((8 * i + k.val) / 8) + p.val; omega) (by show k.val = (8 * i + k.val) % 8; omega)

set_option maxHeartbeats 1000000 in
/-- WHAT A FLUSHING POINT WRITES BACK is its block of the layer. -/
theorem flushed3_eq (c : Dev nD) (t : Fin cfg3.N) (hf : (cfg3.win 4).flush t = true) :
    (dat3 V c).flushed 4 t = ((cfg3.win 4).blk t).view.read (Elt Ideal) (out3 V c) := by
  have h7 : t.val % 8 = 7 := (flush3_4 t).mp hf
  have hN : t.val < 64 := lt_of_lt_of_eq t.isLt (show cfg3.N = 64 from N_3)
  obtain ⟨-, -, -, -, -, -, -, -, e8, e9⟩ := idx_facts3 t
  show (cfg3.win 4).cut (grid3.coords t) ((dat3 V c).after 4 t) = _
  rw [after3_4]
  funext y
  obtain ⟨p, q, rfl⟩ : ∃ (p : Fin 2048) (q : Fin 16), y = ix2 p q := ⟨y 0, y 1, eq_ix2 (n0 := 2048) (n1 := 16) y⟩
  have hrlt : 2048 * (t.val / 8) + p.val < 16384 := by have := p.isLt; omega
  have hemb : ((cfg3.win 4).blk t).view.emb (ix2 p q) = ix2 (⟨2048 * (t.val / 8) + p.val, hrlt⟩ : Fin 16384) q := by
    funext a; apply Fin.ext
    match a with
    | ⟨0, _⟩ => show win3_4.index t (0 : Fin 2) * 2048 + 1 * p.val = 2048 * (t.val / 8) + p.val; omega
    | ⟨1, _⟩ => show win3_4.index t (1 : Fin 2) * 16 + 1 * q.val = q.val; omega
  show k3_pay3 (acc3 V c t.val t.isLt) (blkB3 V c t) (ix2 p q) = out3 V c (((cfg3.win 4).blk t).view.emb (ix2 p q))
  rw [hemb, k3_pay3_apply, blkB3_at V c t q, ← accAt3_of_lt V c p q t.val t.isLt]
  have e : t.val = 8 * (t.val / 8) + 7 := by omega
  rw [show accAt3 V c p q t.val = accAt3 V c p q (8 * (t.val / 8) + 7) from congrArg _ e]
  exact tile_layer (adjOf3 V c) (featOf3 V c) (wOf3 V c) (bOf3 V c) ⟨2048 * (t.val / 8) + p.val, hrlt⟩ q (accAt3 V c p q) (8 * (t.val / 8))
    (accAt3_first V c p q _ (t.val / 8) (by omega) rfl)
    (fun k hk => accAt3_step V c p q _ (t.val / 8) (by omega) rfl k hk)

/-- An index of the output array is in point t's block iff each coordinate is in the block's range on its axis. -/
theorem mem_blk3 (t : Fin cfg3.N) (i : S16384x16.Idx) :
    i ∈ ((cfg3.win 4).blk t).view.set ↔ ∀ a : Fin 2, win3_4.index t a * S2048x16.size a ≤ (i a).val ∧ (i a).val < win3_4.index t a * S2048x16.size a + S2048x16.size a := by
  show i ∈ ((View.whole main_v15).slice (win3_4.rect t)).set ↔ _
  rw [View.set_slice_whole, Rect.mem_set_unit]
  exact Iff.rfl

/-- Every index of the output array lies in the block of the last point of its row tile, which is written back. -/
theorem cover3 (i : S16384x16.Idx) :
    ∃ t : Fin cfg3.N, (cfg3.win 4).flush t = true ∧ i ∈ ((cfg3.win 4).blk t).view.set := by
  have hi0 : (i 0).val < 16384 := (i 0).isLt
  have hi1 : (i 1).val < 16 := (i 1).isLt
  have hlt : 8 * ((i 0).val / 2048) + 7 < cfg3.N := by rw [show cfg3.N = 64 from N_3]; omega
  refine ⟨⟨8 * ((i 0).val / 2048) + 7, hlt⟩, (flush3_4 _).mpr (by show (8 * ((i 0).val / 2048) + 7) % 8 = 7; omega), ?_⟩
  obtain ⟨-, -, -, -, -, -, -, -, e8, e9⟩ := idx_facts3 ⟨8 * ((i 0).val / 2048) + 7, hlt⟩
  rw [mem_blk3]
  intro a
  match a with
  | ⟨0, _⟩ =>
    show win3_4.index ⟨8 * ((i 0).val / 2048) + 7, hlt⟩ (0 : Fin 2) * 2048 ≤ (i 0).val ∧ (i 0).val < win3_4.index ⟨8 * ((i 0).val / 2048) + 7, hlt⟩ (0 : Fin 2) * 2048 + 2048
    rw [e8]; show (8 * ((i 0).val / 2048) + 7) / 8 * 2048 ≤ (i 0).val ∧ (i 0).val < (8 * ((i 0).val / 2048) + 7) / 8 * 2048 + 2048
    omega
  | ⟨1, _⟩ =>
    show win3_4.index ⟨8 * ((i 0).val / 2048) + 7, hlt⟩ (1 : Fin 2) * 16 ≤ (i 1).val ∧ (i 1).val < win3_4.index ⟨8 * ((i 0).val / 2048) + 7, hlt⟩ (1 : Fin 2) * 16 + 16
    rw [e9]; omega

/-- THE OUTPUT ARRAY after the region: the layer of what the region found. -/
theorem final3 (c : Dev nD) : (dat3 V c).arrAt 4 cfg3.N = out3 V c :=
  (dat3 V c).arrAt_eq_of_cover 4 (out3 V c) (fun t hf => flushed3_eq V c t hf) (cover3)

end Value3

end Cert.KernelIdeal.Gen

end
-- ==== Proof.KI.Net.lean ====
/-
  The array the idealized kernel's program ends with, as the network of the specification applied to its eight
  argument arrays. Each region leaves one layer of what it finds (the first also the adjacency itself, for the later
  regions to read); what a region finds in the arrays it reads is, walking back through the boundaries, either an
  argument array, a slice or reshape of one (the hidden layers' weights and biases), or what the region before left.
  Chaining the four layers gives the network.
-/
import proofs.«114686_j10720238371126_2_alg».proof.Proof.KI.Run
import proofs.«114686_j10720238371126_2_alg».proof.Proof.KI.Chain
import proofs.«114686_j10720238371126_2_alg».proof.Proof.KI.HostAt
import proofs.«114686_j10720238371126_2_alg».proof.Proof.KI.Value0
import proofs.«114686_j10720238371126_2_alg».proof.Proof.KI.Value1
import proofs.«114686_j10720238371126_2_alg».proof.Proof.KI.Value2
import proofs.«114686_j10720238371126_2_alg».proof.Proof.KI.Value3

set_option maxRecDepth 16384

noncomputable section

namespace Cert.KernelIdeal.Gen

open Idealize.ShloMosaic Idealize.ShloMosaic.TcCoe Idealize.SL.Sem Idealize.ShloMosaic.ValueIdx
open Cert.GcnSpec Cert.KernelIdeal.HostAt
open Idealize.ShloMosaic.Pipeline (Dat)

section Net

variable (m : (ℓ : Loc nD τ sig) → Buf (Elt Ideal) ℓ) (ρ : Dev nD → PrngReg)

/-! ## The argument arrays over plain coordinates -/

def argX (c : Dev nD) : Fin 16384 → Fin 128 → EReal := fun a b => ((m ((c.tc : Thread nD τ).loc main_arg0)) : Vec Ideal S16384x128 .f32) (ix2 a b)
def argAdj (c : Dev nD) : Fin 16384 → Fin 16384 → EReal := fun a b => ((m ((c.tc : Thread nD τ).loc main_arg1)) : Vec Ideal S16384x16384 .f32) (ix2 a b)
def argWin (c : Dev nD) : Fin 128 → Fin 64 → EReal := fun a b => ((m ((c.tc : Thread nD τ).loc main_arg2)) : Vec Ideal S128x64 .f32) (ix2 a b)
def argBin (c : Dev nD) : Fin 64 → EReal := fun a => ((m ((c.tc : Thread nD τ).loc main_arg3)) : Vec Ideal S64 .f32) (ix1 a)
def argWh (c : Dev nD) : Fin 2 → Fin 64 → Fin 64 → EReal := fun l a b => ((m ((c.tc : Thread nD τ).loc main_arg4)) : Vec Ideal S2x64x64 .f32) (ix3 l a b)
def argBh (c : Dev nD) : Fin 2 → Fin 64 → EReal := fun l a => ((m ((c.tc : Thread nD τ).loc main_arg5)) : Vec Ideal S2x64 .f32) (ix2 l a)
def argWout (c : Dev nD) : Fin 64 → Fin 16 → EReal := fun a b => ((m ((c.tc : Thread nD τ).loc main_arg6)) : Vec Ideal S64x16 .f32) (ix2 a b)
def argBout (c : Dev nD) : Fin 16 → EReal := fun a => ((m ((c.tc : Thread nD τ).loc main_arg7)) : Vec Ideal S16 .f32) (ix1 a)

/-! ## Region 0: the input layer, and the adjacency handed on -/

theorem adj0 (c : Dev nD) : adjOf0 (V1 m ρ) c = argAdj m c := by
  funext r j; unfold adjOf0 argAdj; rw [V1_adj]
theorem feat0 (c : Dev nD) : featOf0 (V1 m ρ) c = argX m c := by
  funext j d; unfold featOf0 argX; rw [V1_x]
theorem w0 (c : Dev nD) : wOf0 (V1 m ρ) c = argWin m c := by
  funext d q; unfold wOf0 argWin; rw [V1_w]
theorem b0 (c : Dev nD) : bOf0 (V1 m ρ) c = argBin m c := by
  funext q; unfold bOf0 argBin; rw [V1_b]; exact bias_in_at _ q

/-- What region 0 leaves in its first output: the input layer of the arguments. -/
theorem lay0 (c : Dev nD) (r : Fin 16384) (q : Fin 64) :
    out0 (V1 m ρ) c (ix2 r q) = layer (argAdj m c) (argX m c) (argWin m c) (argBin m c) r q := by
  show layer (adjOf0 (V1 m ρ) c) (featOf0 (V1 m ρ) c) (wOf0 (V1 m ρ) c) (bOf0 (V1 m ρ) c) r q = _
  rw [adj0, feat0, w0, b0]

/-- The adjacency the later regions read is the argument's. -/
theorem adj_later (c : Dev nD) (r j : Fin 16384) :
    ((dat0 (V1 m ρ) c).arrAt 5 cfg0.N : Vec Ideal S16384x16384 .bf16) (ix2 r j) = argAdj m c r j := by
  rw [final0_5]; unfold out0_5 argAdj; rw [V1_adj]

/-! ## Region 1: the first hidden layer -/

theorem adj1 (c : Dev nD) : adjOf1 (V3 m ρ) c = argAdj m c := by
  funext r j; unfold adjOf1; rw [V3_adj]; exact adj_later m ρ c r j
theorem feat1 (c : Dev nD) : featOf1 (V3 m ρ) c = layer (argAdj m c) (argX m c) (argWin m c) (argBin m c) := by
  funext j d; unfold featOf1; rw [V3_feat, final0]; exact lay0 m ρ c j d
theorem w1 (c : Dev nD) : wOf1 (V3 m ρ) c = argWh m c 0 := by
  funext d q; unfold wOf1 argWh; rw [V3_w]; exact w_hidden0_at _ d q
theorem b1 (c : Dev nD) : bOf1 (V3 m ρ) c = argBh m c 0 := by
  funext q; unfold bOf1 argBh; rw [V3_b]; exact b_hidden0_at _ q

theorem lay1 (c : Dev nD) (r : Fin 16384) (q : Fin 64) :
    out1 (V3 m ρ) c (ix2 r q) = layer (argAdj m c) (layer (argAdj m c) (argX m c) (argWin m c) (argBin m c)) (argWh m c 0) (argBh m c 0) r q := by
  show layer (adjOf1 (V3 m ρ) c) (featOf1 (V3 m ρ) c) (wOf1 (V3 m ρ) c) (bOf1 (V3 m ρ) c) r q = _
  rw [adj1, feat1, w1, b1]

/-! ## Region 2: the second hidden layer -/

theorem adj2 (c : Dev nD) : adjOf2 (V5 m ρ) c = argAdj m c := by
  funext r j; unfold adjOf2; rw [V5_adj]; exact adj_later m ρ c r j
theorem feat2 (c : Dev nD) : featOf2 (V5 m ρ) c = layer (argAdj m c) (layer (argAdj m c) (argX m c) (argWin m c) (argBin m c)) (argWh m c 0) (argBh m c 0) := by
  funext j d; unfold featOf2; rw [V5_feat, final1]; exact lay1 m ρ c j d
theorem w2 (c : Dev nD) : wOf2 (V5 m ρ) c = argWh m c 1 := by
  funext d q; unfold wOf2 argWh; rw [V5_w]; exact w_hidden1_at _ d q
theorem b2 (c : Dev nD) : bOf2 (V5 m ρ) c = argBh m c 1 := by
  funext q; unfold bOf2 argBh; rw [V5_b]; exact b_hidden1_at _ q

theorem lay2 (c : Dev nD) (r : Fin 16384) (q : Fin 64) :
    out2 (V5 m ρ) c (ix2 r q) = layer (argAdj m c) (layer (argAdj m c) (layer (argAdj m c) (argX m c) (argWin m c) (argBin m c)) (argWh m c 0) (argBh m c 0)) (argWh m c 1) (argBh m c 1) r q := by
  show layer (adjOf2 (V5 m ρ) c) (featOf2 (V5 m ρ) c) (wOf2 (V5 m ρ) c) (bOf2 (V5 m ρ) c) r q = _
  rw [adj2, feat2, w2, b2]

/-! ## Region 3: the output layer -/

theorem adj3 (c : Dev nD) : adjOf3 (V7 m ρ) c = argAdj m c := by
  funext r j; unfold adjOf3; rw [V7_adj]; exact adj_later m ρ c r j
theorem feat3 (c : Dev nD) : featOf3 (V7 m ρ) c = layer (argAdj m c) (layer (argAdj m c) (layer (argAdj m c) (argX m c) (argWin m c) (argBin m c)) (argWh m c 0) (argBh m c 0)) (argWh m c 1) (argBh m c 1) := by
  funext j d; unfold featOf3; rw [V7_feat, final2]; exact lay2 m ρ c j d
theorem w3 (c : Dev nD) : wOf3 (V7 m ρ) c = argWout m c := by
  funext d q; unfold wOf3 argWout; rw [V7_w]
theorem b3 (c : Dev nD) : bOf3 (V7 m ρ) c = argBout m c := by
  funext q; unfold bOf3 argBout; rw [V7_b]; exact bias_out_at _ q

/-- THE RESULT: the array the program's last region leaves is the network of the arguments. -/
theorem result_eq (c : Dev nD) (r : Fin 16384) (q : Fin 16) :
    (W8 m ρ c (Proc.devRef .tc main_v15) : Vec Ideal S16384x16 .f32) (ix2 r q)
      = net (argX m c) (argAdj m c) (argWin m c) (argBin m c) (argWh m c) (argBh m c) (argWout m c) (argBout m c) r q := by
  rw [W8_result, final3]
  show layer (adjOf3 (V7 m ρ) c) (featOf3 (V7 m ρ) c) (wOf3 (V7 m ρ) c) (bOf3 (V7 m ρ) c) r q = _
  rw [adj3, feat3, w3, b3]
  rfl

/-- The network of the arguments as an array. -/
def netOut (c : Dev nD) : Vec Ideal S16384x16 .f32 := fun i =>
  net (argX m c) (argAdj m c) (argWin m c) (argBin m c) (argWh m c) (argBh m c) (argWout m c) (argBout m c) (i 0) (i 1)

theorem result_fun (c : Dev nD) : (W8 m ρ c (Proc.devRef .tc main_v15) : Vec Ideal S16384x16 .f32) = netOut m c := by
  funext i
  obtain ⟨r, q, rfl⟩ : ∃ (r : Fin 16384) (q : Fin 16), i = ix2 r q := ⟨i 0, i 1, eq_ix2 i⟩
  exact result_eq m ρ c r q

/-- THE RUN, READ: every weakly fair execution of @main ends with the result array at the network of the arguments
    and the arguments as launched. -/
theorem run_value : θ_run defs (onTc (τ := τ) (main (F := Ideal))) ⟨m, fun _ => 0, ρ⟩ (fun r => ∀ c : Dev nD,
      r.2.mem ((c.tc : Thread nD τ).loc main_v15) = netOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v15 (by decide))).trans (result_fun m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_main m ρ)

end Net

end Cert.KernelIdeal.Gen

end
-- ==== Proof.RefSide.lean ====
/-
  The reference program's result, read one element at a time, is the four-layer network of the specification.

  Each layer of the reference is  add (dot_general adj (dot_general h W)) (broadcast b): read at the index (r, q) it is
  (∑ j, adj(r, j) * ∑ d, h(j, d) * W(d, q)) + b(q), which is the specification's layer of the curried operands. The
  hidden layers take their weights and biases as a slice of the stacked arrays followed by a reshape that drops the
  leading unit axis: read at an index those are the stacked array at (l, d, q), respectively (l, q).
-/
import proofs.«114686_j10720238371126_2_alg».proof.Proof.Gen.ReferenceIdeal.Read
import proofs.«114686_j10720238371126_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The input layer -/

/-- The input layer of the reference at (r, q): the specification's layer of the curried arguments. -/
theorem layer_in (X : FVec Ideal S16384x128 .f32) (A : FVec Ideal S16384x16384 .f32) (Win : FVec Ideal S128x64 .f32)
    (bin : FVec Ideal S64 .f32) (r : Fin 16384) (q : Fin 64) :
    val_main_v4 (F := Ideal) X A Win bin (ix2 r q)
      = Cert.GcnSpec.layer (fun a b => A (ix2 a b)) (fun a b => X (ix2 a b)) (fun a b => Win (ix2 a b))
          (fun a => bin (ix1 a)) r q := by
  have eA : ∀ k : Fin 16384, lidx_main_v1 (ix2 r q) k = ix2 r k := fun k => funext fun a => Fin.ext (by
    match a with | ⟨0, _⟩ => rfl | ⟨1, _⟩ => rfl)
  have eH : ∀ k : Fin 16384, ridx_main_v1 (ix2 r q) k = ix2 k q := fun k => funext fun a => Fin.ext (by
    match a with | ⟨0, _⟩ => rfl | ⟨1, _⟩ => rfl)
  have eX : ∀ (k : Fin 16384) (d : Fin 128), lidx_main_v0 (ix2 k q) d = ix2 k d := fun k d => funext fun a => Fin.ext (by
    match a with | ⟨0, _⟩ => rfl | ⟨1, _⟩ => rfl)
  have eW : ∀ (k : Fin 16384) (d : Fin 128), ridx_main_v0 (ix2 k q) d = ix2 d q := fun k d => funext fun a => Fin.ext (by
    match a with | ⟨0, _⟩ => rfl | ⟨1, _⟩ => rfl)
  have eb : idx_main_v2 (idx_main_v3 (ix2 r q)) = ix1 q := funext fun a => Fin.ext (by
    match a with | ⟨0, _⟩ => rfl)
  rw [val_main_v4_apply, val_main_v1_apply, val_main_v3_apply, val_main_v2_apply, eb]
  simp only [eA, eH, val_main_v0_apply, eX, eW]
  rfl

/-! ## The hidden layers -/

/-- The first hidden layer at (r, q): the specification's layer of the input layer's result, with slice 0 of the stacked weights and biases. -/
theorem layer_hidden0 (X : FVec Ideal S16384x128 .f32) (A : FVec Ideal S16384x16384 .f32) (Win : FVec Ideal S128x64 .f32)
    (bin : FVec Ideal S64 .f32) (Wh : FVec Ideal S2x64x64 .f32) (bh : FVec Ideal S2x64 .f32) (r : Fin 16384) (q : Fin 64) :
    val_main_v13 (F := Ideal) X A Win bin Wh bh (ix2 r q)
      = Cert.GcnSpec.layer (fun a b => A (ix2 a b)) (fun a b => val_main_v4 (F := Ideal) X A Win bin (ix2 a b))
          (fun a b => Wh (ix3 (0 : Fin 2) a b)) (fun a => bh (ix2 (0 : Fin 2) a)) r q := by
  have eA : ∀ k : Fin 16384, lidx_main_v10 (ix2 r q) k = ix2 r k := fun k => funext fun a => Fin.ext (by
    match a with | ⟨0, _⟩ => rfl | ⟨1, _⟩ => rfl)
  have eH : ∀ k : Fin 16384, ridx_main_v10 (ix2 r q) k = ix2 k q := fun k => funext fun a => Fin.ext (by
    match a with | ⟨0, _⟩ => rfl | ⟨1, _⟩ => rfl)
  have eX : ∀ (k : Fin 16384) (d : Fin 64), lidx_main_v9 (ix2 k q) d = ix2 k d := fun k d => funext fun a => Fin.ext (by
    match a with | ⟨0, _⟩ => rfl | ⟨1, _⟩ => rfl)
  have eW : ∀ (k : Fin 16384) (d : Fin 64),
      idx_main_v5 (idx_main_v6 (ridx_main_v9 (ix2 k q) d)) = ix3 (0 : Fin 2) d q :=
    fun k d => funext fun a => Fin.ext (by
      have hd : d.val < 64 := d.isLt
      have hq : q.val < 64 := q.isLt
      match a with
      | ⟨0, _⟩ => rfl
      | ⟨1, _⟩ => show (d.val * 64 + q.val) / 64 % 64 = d.val; omega
      | ⟨2, _⟩ => show (d.val * 64 + q.val) % 64 = q.val; omega)
  have eb : idx_main_v7 (idx_main_v8 (idx_main_v11 (idx_main_v12 (ix2 r q)))) = ix2 (0 : Fin 2) q :=
    funext fun a => Fin.ext (by
      have hq : q.val < 64 := q.isLt
      match a with
      | ⟨0, _⟩ => rfl
      | ⟨1, _⟩ => show q.val % 64 = q.val; omega)
  rw [val_main_v13_apply, val_main_v10_apply, val_main_v12_apply, val_main_v11_apply, val_main_v8_apply,
    val_main_v7_apply, eb]
  simp only [eA, eH, val_main_v9_apply, val_main_v6_apply, val_main_v5_apply, eX, eW]
  rfl

/-- The second hidden layer at (r, q): the specification's layer of the first hidden layer's result, with slice 1 of the stacked weights and biases. -/
theorem layer_hidden1 (X : FVec Ideal S16384x128 .f32) (A : FVec Ideal S16384x16384 .f32) (Win : FVec Ideal S128x64 .f32)
    (bin : FVec Ideal S64 .f32) (Wh : FVec Ideal S2x64x64 .f32) (bh : FVec Ideal S2x64 .f32) (r : Fin 16384) (q : Fin 64) :
    val_main_v22 (F := Ideal) X A Win bin Wh bh (ix2 r q)
      = Cert.GcnSpec.layer (fun a b => A (ix2 a b)) (fun a b => val_main_v13 (F := Ideal) X A Win bin Wh bh (ix2 a b))
          (fun a b => Wh (ix3 (1 : Fin 2) a b)) (fun a => bh (ix2 (1 : Fin 2) a)) r q := by
  have eA : ∀ k : Fin 16384, lidx_main_v19 (ix2 r q) k = ix2 r k := fun k => funext fun a => Fin.ext (by
    match a with | ⟨0, _⟩ => rfl | ⟨1, _⟩ => rfl)
  have eH : ∀ k : Fin 16384, ridx_main_v19 (ix2 r q) k = ix2 k q := fun k => funext fun a => Fin.ext (by
    match a with | ⟨0, _⟩ => rfl | ⟨1, _⟩ => rfl)
  have eX : ∀ (k : Fin 16384) (d : Fin 64), lidx_main_v18 (ix2 k q) d = ix2 k d := fun k d => funext fun a => Fin.ext (by
    match a with | ⟨0, _⟩ => rfl | ⟨1, _⟩ => rfl)
  have eW : ∀ (k : Fin 16384) (d : Fin 64),
      idx_main_v14 (idx_main_v15 (ridx_main_v18 (ix2 k q) d)) = ix3 (1 : Fin 2) d q :=
    fun k d => funext fun a => Fin.ext (by
      have hd : d.val < 64 := d.isLt
      have hq : q.val < 64 := q.isLt
      match a with
      | ⟨0, _⟩ => rfl
      | ⟨1, _⟩ => show (d.val * 64 + q.val) / 64 % 64 = d.val; omega
      | ⟨2, _⟩ => show (d.val * 64 + q.val) % 64 = q.val; omega)
  have eb : idx_main_v16 (idx_main_v17 (idx_main_v20 (idx_main_v21 (ix2 r q)))) = ix2 (1 : Fin 2) q :=
    funext fun a => Fin.ext (by
      have hq : q.val < 64 := q.isLt
      match a with
      | ⟨0, _⟩ => rfl
      | ⟨1, _⟩ => show q.val % 64 = q.val; omega)
  rw [val_main_v22_apply, val_main_v19_apply, val_main_v21_apply, val_main_v20_apply, val_main_v17_apply,
    val_main_v16_apply, eb]
  simp only [eA, eH, val_main_v18_apply, val_main_v15_apply, val_main_v14_apply, eX, eW]
  rfl

/-! ## The output layer -/

/-- The output layer at (r, q): the specification's layer of the second hidden layer's result. -/
theorem layer_out (X : FVec Ideal S16384x128 .f32) (A : FVec Ideal S16384x16384 .f32) (Win : FVec Ideal S128x64 .f32)
    (bin : FVec Ideal S64 .f32) (Wh : FVec Ideal S2x64x64 .f32) (bh : FVec Ideal S2x64 .f32)
    (Wout : FVec Ideal S64x16 .f32) (bout : FVec Ideal S16 .f32) (r : Fin 16384) (q : Fin 16) :
    val_main_v27 (F := Ideal) X A Win bin Wh bh Wout bout (ix2 r q)
      = Cert.GcnSpec.layer (fun a b => A (ix2 a b)) (fun a b => val_main_v22 (F := Ideal) X A Win bin Wh bh (ix2 a b))
          (fun a b => Wout (ix2 a b)) (fun a => bout (ix1 a)) r q := by
  have eA : ∀ k : Fin 16384, lidx_main_v24 (ix2 r q) k = ix2 r k := fun k => funext fun a => Fin.ext (by
    match a with | ⟨0, _⟩ => rfl | ⟨1, _⟩ => rfl)
  have eH : ∀ k : Fin 16384, ridx_main_v24 (ix2 r q) k = ix2 k q := fun k => funext fun a => Fin.ext (by
    match a with | ⟨0, _⟩ => rfl | ⟨1, _⟩ => rfl)
  have eX : ∀ (k : Fin 16384) (d : Fin 64), lidx_main_v23 (ix2 k q) d = ix2 k d := fun k d => funext fun a => Fin.ext (by
    match a with | ⟨0, _⟩ => rfl | ⟨1, _⟩ => rfl)
  have eW : ∀ (k : Fin 16384) (d : Fin 64), ridx_main_v23 (ix2 k q) d = ix2 d q := fun k d => funext fun a => Fin.ext (by
    match a with | ⟨0, _⟩ => rfl | ⟨1, _⟩ => rfl)
  have eb : idx_main_v25 (idx_main_v26 (ix2 r q)) = ix1 q := funext fun a => Fin.ext (by
    match a with | ⟨0, _⟩ => rfl)
  rw [val_main_v27_apply, val_main_v24_apply, val_main_v26_apply, val_main_v25_apply, eb]
  simp only [eA, eH, val_main_v23_apply, eX, eW]
  rfl

/-! ## The four layers chained -/

/-- The reference's result at (r, q) is the specification's network of the curried arguments. -/
theorem ref_eq (X : FVec Ideal S16384x128 .f32) (A : FVec Ideal S16384x16384 .f32) (Win : FVec Ideal S128x64 .f32)
    (bin : FVec Ideal S64 .f32) (Wh : FVec Ideal S2x64x64 .f32) (bh : FVec Ideal S2x64 .f32)
    (Wout : FVec Ideal S64x16 .f32) (bout : FVec Ideal S16 .f32) (r : Fin 16384) (q : Fin 16) :
    val_main_v27 (F := Ideal) X A Win bin Wh bh Wout bout (ix2 r q)
      = Cert.GcnSpec.net (fun a b => X (ix2 a b)) (fun a b => A (ix2 a b)) (fun a b => Win (ix2 a b))
          (fun a => bin (ix1 a)) (fun l a b => Wh (ix3 l a b)) (fun l a => bh (ix2 l a))
          (fun a b => Wout (ix2 a b)) (fun a => bout (ix1 a)) r q := by
  have h1 := funext fun a => funext fun b => layer_in X A Win bin a b
  have h2 := funext fun a => funext fun b => layer_hidden0 X A Win bin Wh bh a b
  have h3 := funext fun a => funext fun b => layer_hidden1 X A Win bin Wh bh a b
  rw [layer_out, h3, h2, h1]
  rfl

/-- The same, with the result spelt as the composed term the reference's run states for its result buffer (the
    generated `val_main_v27_eq` says, by unfolding, that this term is the last stage). -/
theorem ref_run_eq (X : FVec Ideal S16384x128 .f32) (A : FVec Ideal S16384x16384 .f32) (Win : FVec Ideal S128x64 .f32)
    (bin : FVec Ideal S64 .f32) (Wh : FVec Ideal S2x64x64 .f32) (bh : FVec Ideal S2x64 .f32)
    (Wout : FVec Ideal S64x16 .f32) (bout : FVec Ideal S16 .f32) (r : Fin 16384) (q : Fin 16) :
    (addf (F := Ideal) (Host.dotGeneral (F := Ideal) dot_S16384x16384_S16384x16_S16384x16_1_0_0_1_n_n none A
      (Host.dotGeneral (F := Ideal) dot_S16384x64_S64x16_S16384x16_1_0_0_1_n_n none (addf (F := Ideal)
      (Host.dotGeneral (F := Ideal) dot_S16384x16384_S16384x64_S16384x64_1_0_0_1_n_n none A (Host.dotGeneral (F :=
      Ideal) dot_S16384x64_S64x64_S16384x64_1_0_0_1_n_n none (addf (F := Ideal) (Host.dotGeneral (F := Ideal)
      dot_S16384x16384_S16384x64_S16384x64_1_0_0_1_n_n none A (Host.dotGeneral (F := Ideal)
      dot_S16384x64_S64x64_S16384x64_1_0_0_1_n_n none (addf (F := Ideal) (Host.dotGeneral (F := Ideal)
      dot_S16384x16384_S16384x64_S16384x64_1_0_0_1_n_n none A (Host.dotGeneral (F := Ideal)
      dot_S16384x128_S128x64_S16384x64_1_0_0_1_n_n none X Win)) (broadcastInDim S16384x64 ![0, 1]
      bcast_S1x64_S16384x64_0_1 (broadcastInDim S1x64 ![1] bcast_S64_S1x64_1 bin))) (shapeCast _ (extractStridedSlice
      S1x64x64 ![0, 0, 0] Wh slices_S2x64x64_S1x64x64_0_0_0) shapeCasts_S1x64x64_S64x64))) (broadcastInDim S16384x64
      ![0, 1] bcast_S1x64_S16384x64_0_1 (broadcastInDim S1x64 ![1] bcast_S64_S1x64_1 (shapeCast _ (extractStridedSlice
      S1x64 ![0, 0] bh slices_S2x64_S1x64_0_0) shapeCasts_S1x64_S64)))) (shapeCast _ (extractStridedSlice S1x64x64
      ![1, 0, 0] Wh slices_S2x64x64_S1x64x64_1_0_0) shapeCasts_S1x64x64_S64x64))) (broadcastInDim S16384x64 ![0, 1]
      bcast_S1x64_S16384x64_0_1 (broadcastInDim S1x64 ![1] bcast_S64_S1x64_1 (shapeCast _ (extractStridedSlice S1x64
      ![1, 0] bh slices_S2x64_S1x64_1_0) shapeCasts_S1x64_S64)))) Wout)) (broadcastInDim S16384x16 ![0, 1]
      bcast_S1x16_S16384x16_0_1 (broadcastInDim S1x16 ![1] bcast_S16_S1x16_1 bout)))
        (ix2 r q)
      = Cert.GcnSpec.net (fun a b => X (ix2 a b)) (fun a b => A (ix2 a b)) (fun a b => Win (ix2 a b))
          (fun a => bin (ix1 a)) (fun l a b => Wh (ix3 l a b)) (fun l a => bh (ix2 l a))
          (fun a b => Wout (ix2 a b)) (fun a => bout (ix1 a)) r q :=
  (congrFun (val_main_v27_eq (F := Ideal) X A Win bin Wh bh Wout bout) (ix2 r q)).trans
    (ref_eq X A Win bin Wh bh Wout bout r q)

end Cert.ReferenceIdeal.RefValue

end
-- ==== Proof.lean ====
/-
  The certificate's five claims.

  Both programs compute the four-layer graph convolution adj · (h · W) + b chained over the eight argument arrays:
  the reference directly, the kernel's program tile by tile — each layer's sum over the 16384 nodes taken in eight
  tiles of 2048 and accumulated between grid points, the operands narrowed on the way into each product, which over
  the extended reals changes nothing. Addition of extended reals is commutative and associative, so the two
  arrangements of each sum agree with no finiteness assumption: the precondition is never opened. The three frames are
  the programs' runs with the results dropped; the idealization rewrote nothing, so what it preserves is trivial.
-/
import proofs.«114686_j10720238371126_2_alg».proof.Defs
import proofs.«114686_j10720238371126_2_alg».proof.Proof.Gen.Kernel
import proofs.«114686_j10720238371126_2_alg».proof.Proof.Gen.KernelIdeal
import proofs.«114686_j10720238371126_2_alg».proof.Proof.Gen.ReferenceIdeal
import proofs.«114686_j10720238371126_2_alg».proof.Proof.Gen.Pre_finite_inputs
import proofs.«114686_j10720238371126_2_alg».proof.Proof.Gen.ReferenceIdeal.Run
import proofs.«114686_j10720238371126_2_alg».proof.Proof.KB.Run
import proofs.«114686_j10720238371126_2_alg».proof.Proof.KI.Net
import proofs.«114686_j10720238371126_2_alg».proof.Proof.RefSide

noncomputable section

namespace Cert.Proof

open Idealize.ShloMosaic Idealize.ShloMosaic.TcCoe Idealize.SL.Sem Idealize.ShloMosaic.ValueIdx

/-- The word-level program runs and leaves its arguments as launched. -/
theorem frame_k : Cert.frame_Kernel := fun m g _ => Cert.Kernel.Gen.frame m g

/-- So does its idealization. -/
theorem frame_ki : Cert.frame_KernelIdeal := fun m g _ => Cert.KernelIdeal.Gen.frame m g

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the network of the arguments: the kernel's program by the regions'
    layers chained, the reference by its operations read layer by layer; the arguments agree, so the arrays do. -/
theorem algebraic : Cert.algebraic_KernelIdeal_ReferenceIdeal := by
  intro m ρ m' ρ' _ hagree
  refine ⟨fun c => Cert.KernelIdeal.Gen.netOut m c, Cert.KernelIdeal.Gen.run_value m ρ, ?_⟩
  refine (θ_run Cert.ReferenceIdeal.defs _ _).mono (fun res h c => ⟨?_, (h c).2⟩)
    (Cert.ReferenceIdeal.Value.run (F := Ideal) m' ρ')
  funext i
  obtain ⟨r, q, rfl⟩ : ∃ (r : Fin 16384) (q : Fin 16), i = ix2 r q := ⟨i 0, i 1, eq_ix2 i⟩
  refine ((congrFun (h c).1 (ix2 r q)).trans (Cert.ReferenceIdeal.RefValue.ref_run_eq _ _ _ _ _ _ _ _ r q)).trans ?_
  obtain ⟨e0, e1, e2, e3, e4, e5, e6, e7⟩ := hagree c
  rw [e0, e1, e2, e3, e4, e5, e6, e7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
